-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S128x92 : Shape := ⟨2, ![128, 92]⟩
abbrev S128 : Shape := ⟨1, ![128]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel
  bcast_S_S128x92 : S_.BroadcastsInDim S128x92 (![] : Fin 0 → Fin S128x92.rank)
  reducesTo_S128x92_S_d0_1 : S128x92.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x64x64x64 .f32) (main_arg1 : FVec F S128x92 .f32) (main_arg2 : FVec F S128 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  let main_v4 : FVec F S128x92 .f32 := Host.absf main_arg1
  let main_cst_0 : FVec F S_ .f32 := constant S_ .f32 0x7F800000#32
  let main_v5 : FVec F S128x92 .f32 := broadcastInDim S128x92 ![] bcast_S_S128x92 main_cst_0
  let main_v6 : IVec S128x92 1 := cmpf .olt main_v4 main_v5
  let main_c_1 : IVec S_ 1 := constantI S_ 1 1#1
  let main_v7 : IVec S_ 1 := (fun x v => Host.reduce IntOp.andi x v reducesTo_S128x92_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32x64x64x64 : Shape := ⟨4, ![32, 64, 64, 64]⟩
abbrev S128x92 : Shape := ⟨2, ![128, 92]⟩
abbrev S128 : Shape := ⟨1, ![128]⟩
abbrev S32x64x4096 : Shape := ⟨3, ![32, 64, 4096]⟩
abbrev S128x64 : Shape := ⟨2, ![128, 64]⟩
abbrev S128x28 : Shape := ⟨2, ![128, 28]⟩
abbrev S128x28x8 : Shape := ⟨3, ![128, 28, 8]⟩
abbrev S128x224 : Shape := ⟨2, ![128, 224]⟩
abbrev S128x1 : Shape := ⟨2, ![128, 1]⟩
abbrev S_ : Shape := ⟨0, ![]⟩
abbrev S128x7 : Shape := ⟨2, ![128, 7]⟩
abbrev S128x232 : Shape := ⟨2, ![128, 232]⟩
abbrev S32x128x4096 : Shape := ⟨3, ![32, 128, 4096]⟩
abbrev S1x64x4096 : Shape := ⟨3, ![1, 64, 4096]⟩
abbrev S1x128x4096 : Shape := ⟨3, ![1, 128, 4096]⟩
abbrev S64x4352 : Shape := ⟨2, ![64, 4352]⟩
abbrev S64x4096 : Shape := ⟨2, ![64, 4096]⟩
abbrev S4096 : Shape := ⟨1, ![4096]⟩
abbrev S1x4096 : Shape := ⟨2, ![1, 4096]⟩
abbrev S64x256 : Shape := ⟨2, ![64, 256]⟩
abbrev S8x8x4096 : Shape := ⟨3, ![8, 8, 4096]⟩
abbrev S8x4096 : Shape := ⟨2, ![8, 4096]⟩
abbrev S8x195 : Shape := ⟨2, ![8, 195]⟩
abbrev S8x3901 : Shape := ⟨2, ![8, 3901]⟩
abbrev S8x130 : Shape := ⟨2, ![8, 130]⟩
abbrev S8x3966 : Shape := ⟨2, ![8, 3966]⟩
abbrev S8x65 : Shape := ⟨2, ![8, 65]⟩
abbrev S8x4031 : Shape := ⟨2, ![8, 4031]⟩
abbrev S8x192 : Shape := ⟨2, ![8, 192]⟩
abbrev S8x3904 : Shape := ⟨2, ![8, 3904]⟩
abbrev S8x128 : Shape := ⟨2, ![8, 128]⟩
abbrev S8x3968 : Shape := ⟨2, ![8, 3968]⟩
abbrev S8x64 : Shape := ⟨2, ![8, 64]⟩
abbrev S8x4032 : Shape := ⟨2, ![8, 4032]⟩
abbrev S8x189 : Shape := ⟨2, ![8, 189]⟩
abbrev S8x3907 : Shape := ⟨2, ![8, 3907]⟩
abbrev S8x126 : Shape := ⟨2, ![8, 126]⟩
abbrev S8x3970 : Shape := ⟨2, ![8, 3970]⟩
abbrev S8x63 : Shape := ⟨2, ![8, 63]⟩
abbrev S8x4033 : Shape := ⟨2, ![8, 4033]⟩
abbrev S8x3 : Shape := ⟨2, ![8, 3]⟩
abbrev S8x4093 : Shape := ⟨2, ![8, 4093]⟩
abbrev S8x2 : Shape := ⟨2, ![8, 2]⟩
abbrev S8x4094 : Shape := ⟨2, ![8, 4094]⟩
abbrev S8x1 : Shape := ⟨2, ![8, 1]⟩
abbrev S8x4095 : Shape := ⟨2, ![8, 4095]⟩
abbrev S232x4096 : Shape := ⟨2, ![232, 4096]⟩
abbrev S128x4096 : Shape := ⟨2, ![128, 4096]⟩
abbrev S32x128x64x64 : Shape := ⟨4, ![32, 128, 64, 64]⟩

abbrev nBuf : Space → Nat
  | .hbm => 14
  | .vmem => 7
  | .smem => 0
  | _ => 0

abbrev bufTy : (tb : Table) → Fin (tcTables nBuf tb) → BufTy
  | .hbm, ⟨0, _⟩ => ⟨S32x64x64x64, .f32⟩
  | .hbm, ⟨1, _⟩ => ⟨S128x92, .f32⟩
  | .hbm, ⟨2, _⟩ => ⟨S128, .f32⟩
  | .hbm, ⟨3, _⟩ => ⟨S32x64x4096, .f32⟩
  | .hbm, ⟨4, _⟩ => ⟨S128x64, .f32⟩
  | .hbm, ⟨5, _⟩ => ⟨S128x28, .f32⟩
  | .hbm, ⟨6, _⟩ => ⟨S128x28x8, .f32⟩
  | .hbm, ⟨7, _⟩ => ⟨S128x224, .f32⟩
  | .hbm, ⟨8, _⟩ => ⟨S128x1, .f32⟩
  | .hbm, ⟨9, _⟩ => ⟨S_, .f32⟩
  | .hbm, ⟨10, _⟩ => ⟨S128x7, .f32⟩
  | .hbm, ⟨11, _⟩ => ⟨S128x232, .f32⟩
  | .hbm, ⟨12, _⟩ => ⟨S32x128x4096, .f32⟩
  | .hbm, ⟨13, _⟩ => ⟨S32x128x64x64, .f32⟩
  | .local _ .vmem, ⟨0, _⟩ => ⟨S1x64x4096, .f32⟩
  | .local _ .vmem, ⟨1, _⟩ => ⟨S1x64x4096, .f32⟩
  | .local _ .vmem, ⟨2, _⟩ => ⟨S128x64, .f32⟩
  | .local _ .vmem, ⟨3, _⟩ => ⟨S128x232, .f32⟩
  | .local _ .vmem, ⟨4, _⟩ => ⟨S1x128x4096, .f32⟩
  | .local _ .vmem, ⟨5, _⟩ => ⟨S1x128x4096, .f32⟩
  | .local _ .vmem, ⟨6, _⟩ => ⟨S64x4352, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x232 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x64x64x64_S32x64x4096 : S32x64x64x64.ShapeCasts S32x64x4096
  slices_S128x92_S128x64_0_0 : S128x92.Slices ![0, 0] S128x64
  slices_S128x92_S128x28_0_64 : S128x92.Slices ![0, 64] S128x28
  bcast_S128x28_S128x28x8_0_1 : S128x28.BroadcastsInDim S128x28x8 (![0, 1] : Fin 2 → Fin S128x28x8.rank)
  shapeCasts_S128x28x8_S128x224 : S128x28x8.ShapeCasts S128x224
  shapeCasts_S128_S128x1 : S128.ShapeCasts S128x1
  bcast_S_S128x7 : S_.BroadcastsInDim S128x7 (![] : Fin 0 → Fin S128x7.rank)
  concatenates_S128x224_S128x1_S128x7_S128x232_d1 : Shape.Concatenates [S128x224, S128x1, S128x7] S128x232 1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S4096 : S64x4096.Reduces [0] S4096
  shapeCasts_S4096_S1x4096 : S4096.ShapeCasts S1x4096
  broadcasts_S1x4096_S64x4096 : S1x4096.Broadcasts S64x4096
  inb_S64x4352_S64x4096_0_0 : ∀ a, (![0, 0] : Fin 2 → Nat) a + S64x4096.size a ≤ S64x4352.size a
  h_S64x4096 : 0 < S64x4096.numel
  shapeCasts_S64x4096_S64x4096 : S64x4096.ShapeCasts S64x4096
  inb_S64x4352_S64x256_0_4096 : ∀ a, (![0, 4096] : Fin 2 → Nat) a + S64x256.size a ≤ S64x4352.size a
  h_S64x256 : 0 < S64x256.numel
  shapeCasts_S64x256_S64x256 : S64x256.ShapeCasts S64x256
  iota_S1x4096_d1_w32 : S1x4096.Iotas .tc 32 [1]
  inb_S64x4352_S64x4096_0_195 : ∀ a, (![0, 195] : Fin 2 → Nat) a + S64x4096.size a ≤ S64x4352.size a
  shapeCasts_S64x4096_S8x8x4096 : S64x4096.ShapeCasts S8x8x4096
  reduces_S8x8x4096_S8x4096 : S8x8x4096.Reduces [0] S8x4096
  natLt_1_32 : 1 < 32
  broadcasts_S1x4096_S8x4096 : S1x4096.Broadcasts S8x4096
  slices_S8x4096_o0_0_S8x3901 : S8x4096.Slices ![0, 0] S8x3901
  concatenates_S8x195_S8x3901_S8x4096_d1 : Shape.Concatenates [S8x195, S8x3901] S8x4096 1
  inb_S64x4352_S64x4096_0_130 : ∀ a, (![0, 130] : Fin 2 → Nat) a + S64x4096.size a ≤ S64x4352.size a
  slices_S8x4096_o0_0_S8x3966 : S8x4096.Slices ![0, 0] S8x3966
  concatenates_S8x130_S8x3966_S8x4096_d1 : Shape.Concatenates [S8x130, S8x3966] S8x4096 1
  inb_S64x4352_S64x4096_0_65 : ∀ a, (![0, 65] : Fin 2 → Nat) a + S64x4096.size a ≤ S64x4352.size a
  slices_S8x4096_o0_0_S8x4031 : S8x4096.Slices ![0, 0] S8x4031
  concatenates_S8x65_S8x4031_S8x4096_d1 : Shape.Concatenates [S8x65, S8x4031] S8x4096 1
  inb_S64x4352_S64x4096_0_192 : ∀ a, (![0, 192] : Fin 2 → Nat) a + S64x4096.size a ≤ S64x4352.size a
  slices_S8x4096_o0_0_S8x3904 : S8x4096.Slices ![0, 0] S8x3904
  concatenates_S8x192_S8x3904_S8x4096_d1 : Shape.Concatenates [S8x192, S8x3904] S8x4096 1
  inb_S64x4352_S64x4096_0_128 : ∀ a, (![0, 128] : Fin 2 → Nat) a + S64x4096.size a ≤ S64x4352.size a
  slices_S8x4096_o0_0_S8x3968 : S8x4096.Slices ![0, 0] S8x3968
  concatenates_S8x128_S8x3968_S8x4096_d1 : Shape.Concatenates [S8x128, S8x3968] S8x4096 1
  inb_S64x4352_S64x4096_0_64 : ∀ a, (![0, 64] : Fin 2 → Nat) a + S64x4096.size a ≤ S64x4352.size a
  slices_S8x4096_o0_0_S8x4032 : S8x4096.Slices ![0, 0] S8x4032
  concatenates_S8x64_S8x4032_S8x4096_d1 : Shape.Concatenates [S8x64, S8x4032] S8x4096 1
  inb_S64x4352_S64x4096_0_189 : ∀ a, (![0, 189] : Fin 2 → Nat) a + S64x4096.size a ≤ S64x4352.size a
  slices_S8x4096_o0_0_S8x3907 : S8x4096.Slices ![0, 0] S8x3907
  concatenates_S8x189_S8x3907_S8x4096_d1 : Shape.Concatenates [S8x189, S8x3907] S8x4096 1
  inb_S64x4352_S64x4096_0_126 : ∀ a, (![0, 126] : Fin 2 → Nat) a + S64x4096.size a ≤ S64x4352.size a
  slices_S8x4096_o0_0_S8x3970 : S8x4096.Slices ![0, 0] S8x3970
  concatenates_S8x126_S8x3970_S8x4096_d1 : Shape.Concatenates [S8x126, S8x3970] S8x4096 1
  inb_S64x4352_S64x4096_0_63 : ∀ a, (![0, 63] : Fin 2 → Nat) a + S64x4096.size a ≤ S64x4352.size a
  slices_S8x4096_o0_0_S8x4033 : S8x4096.Slices ![0, 0] S8x4033
  concatenates_S8x63_S8x4033_S8x4096_d1 : Shape.Concatenates [S8x63, S8x4033] S8x4096 1
  inb_S64x4352_S64x4096_0_3 : ∀ a, (![0, 3] : Fin 2 → Nat) a + S64x4096.size a ≤ S64x4352.size a
  slices_S8x4096_o0_0_S8x4093 : S8x4096.Slices ![0, 0] S8x4093
  concatenates_S8x3_S8x4093_S8x4096_d1 : Shape.Concatenates [S8x3, S8x4093] S8x4096 1
  inb_S64x4352_S64x4096_0_2 : ∀ a, (![0, 2] : Fin 2 → Nat) a + S64x4096.size a ≤ S64x4352.size a
  slices_S8x4096_o0_0_S8x4094 : S8x4096.Slices ![0, 0] S8x4094
  concatenates_S8x2_S8x4094_S8x4096_d1 : Shape.Concatenates [S8x2, S8x4094] S8x4096 1
  inb_S64x4352_S64x4096_0_1 : ∀ a, (![0, 1] : Fin 2 → Nat) a + S64x4096.size a ≤ S64x4352.size a
  slices_S8x4096_o0_0_S8x4095 : S8x4096.Slices ![0, 0] S8x4095
  concatenates_S8x1_S8x4095_S8x4096_d1 : Shape.Concatenates [S8x1, S8x4095] S8x4096 1
  iota_S8x4096_d0_w32 : S8x4096.Iotas .tc 32 [0]
  concatenates_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S232x4096_d0 : Shape.Concatenates [S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096, S8x4096] S232x4096 0
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x232_S128x232_0_0 : ∀ a, (![0, 0] : Fin 2 → Nat) a + S128x232.size a ≤ S128x232.size a
  h_S128x232 : 0 < S128x232.numel
  shapeCasts_S128x232_S128x232 : S128x232.ShapeCasts S128x232
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  shapeCasts_S32x128x4096_S32x128x64x64 : S32x128x4096.ShapeCasts S32x128x64x64
  dot_S128x64_S64x4096_S128x4096_1_0_0_1_n_n_wf : DotDims.WF S128x64 S64x4096 S128x4096 [1] [0] [0] [1] [] []
  dot_S128x232_S232x4096_S128x4096_1_0_0_1_n_n_wf : DotDims.WF S128x232 S232x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S32x64x4096.size a
  hwx0_0 : ∀ i : grid0.Coords, EltTy.bits .f32 = 32 ∨ (Rect.block (s := S32x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x232.size a ≤ S128x232.size a
  hwx0_2 : ∀ i : grid0.Coords, EltTy.bits .f32 = 32 ∨ (Rect.block (s := S128x232) S128x232.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S32x128x4096.size a
  hwx0_3 : ∀ i : grid0.Coords, EltTy.bits .f32 = 32 ∨ (Rect.block (s := S32x128x4096) S1x128x4096.size (cc0_transform_3 i) (hinb0_3 i)).WholeWords (EltTy.packing .f32)

variable [Facts₀]

def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S128x232_S232x4096_S128x4096_1_0_0_1_n_n : DotDims S128x232 S232x4096 S128x4096 where
  lhsContracting := [1]
  rhsContracting := [0]
  lhsNonContracting := [0]
  rhsNonContracting := [1]
  lhsBatch := []
  rhsBatch := []
  wf := dot_S128x232_S232x4096_S128x4096_1_0_0_1_n_n_wf

abbrev win0_0 : Pipeline.Window sig grid0 :=
  Pipeline.Window.ofSpec (Memref.whole main_v0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x232.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x64x64 : Shape := ⟨4, ![32, 64, 64, 64]⟩
abbrev S128x92 : Shape := ⟨2, ![128, 92]⟩
abbrev S128 : Shape := ⟨1, ![128]⟩
abbrev S128x64 : Shape := ⟨2, ![128, 64]⟩
abbrev S64x128 : Shape := ⟨2, ![64, 128]⟩
abbrev S128x28 : Shape := ⟨2, ![128, 28]⟩
abbrev S28x128 : Shape := ⟨2, ![28, 128]⟩
abbrev S1x128 : Shape := ⟨2, ![1, 128]⟩
abbrev S32x64x64x128 : Shape := ⟨4, ![32, 64, 64, 128]⟩
abbrev S1x64x64x64 : Shape := ⟨4, ![1, 64, 64, 64]⟩
abbrev S1x64x64x128 : Shape := ⟨4, ![1, 64, 64, 128]⟩
abbrev S1x70x75x64 : Shape := ⟨4, ![1, 70, 75, 64]⟩
abbrev S1x64x64 : Shape := ⟨3, ![1, 64, 64]⟩
abbrev S1x64x64x1 : Shape := ⟨4, ![1, 64, 64, 1]⟩
abbrev S1x3x75x64 : Shape := ⟨4, ![1, 3, 75, 64]⟩
abbrev S1x64x3x64 : Shape := ⟨4, ![1, 64, 3, 64]⟩
abbrev S1x64x75x64 : Shape := ⟨4, ![1, 64, 75, 64]⟩
abbrev S4096x64 : Shape := ⟨2, ![4096, 64]⟩
abbrev S1x64x64x28 : Shape := ⟨4, ![1, 64, 64, 28]⟩
abbrev S4096x28 : Shape := ⟨2, ![4096, 28]⟩
abbrev S4096x128 : Shape := ⟨2, ![4096, 128]⟩
abbrev S32x128x64x64 : Shape := ⟨4, ![32, 128, 64, 64]⟩

abbrev nBuf : Space → Nat
  | .hbm => 11
  | .vmem => 8
  | .smem => 0
  | _ => 0

abbrev bufTy : (tb : Table) → Fin (tcTables nBuf tb) → BufTy
  | .hbm, ⟨0, _⟩ => ⟨S32x64x64x64, .f32⟩
  | .hbm, ⟨1, _⟩ => ⟨S128x92, .f32⟩
  | .hbm, ⟨2, _⟩ => ⟨S128, .f32⟩
  | .hbm, ⟨3, _⟩ => ⟨S32x64x64x64, .f32⟩
  | .hbm, ⟨4, _⟩ => ⟨S128x64, .f32⟩
  | .hbm, ⟨5, _⟩ => ⟨S64x128, .f32⟩
  | .hbm, ⟨6, _⟩ => ⟨S128x28, .f32⟩
  | .hbm, ⟨7, _⟩ => ⟨S28x128, .f32⟩
  | .hbm, ⟨8, _⟩ => ⟨S1x128, .f32⟩
  | .hbm, ⟨9, _⟩ => ⟨S32x64x64x128, .f32⟩
  | .hbm, ⟨10, _⟩ => ⟨S32x128x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S64x128, .f32⟩
  | .local _ .vmem, ⟨3, _⟩ => ⟨S28x128, .f32⟩
  | .local _ .vmem, ⟨4, _⟩ => ⟨S1x128, .f32⟩
  | .local _ .vmem, ⟨5, _⟩ => ⟨S1x64x64x128, .f32⟩
  | .local _ .vmem, ⟨6, _⟩ => ⟨S1x64x64x128, .f32⟩
  | .local _ .vmem, ⟨7, _⟩ => ⟨S1x70x75x64, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32x64x64x64_S32x64x64x64_0_2_3_1 : S32x64x64x64.Transposes [0, 2, 3, 1] S32x64x64x64
  slices_S128x92_S128x64_0_0 : S128x92.Slices ![0, 0] S128x64
  transposes_S128x64_S64x128_1_0 : S128x64.Transposes [1, 0] S64x128
  slices_S128x92_S128x28_0_64 : S128x92.Slices ![0, 64] S128x28
  transposes_S128x28_S28x128_1_0 : S128x28.Transposes [1, 0] S28x128
  shapeCasts_S128_S1x128 : S128.ShapeCasts S1x128
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S1x64x64x64 : S1x64x64x64.ShapeCasts S1x64x64x64
  reduces_S1x64x64x64_S1x64x64 : S1x64x64x64.Reduces [3] S1x64x64
  shapeCasts_S1x64x64_S1x64x64x1 : S1x64x64.ShapeCasts S1x64x64x1
  broadcasts_S1x64x64x1_S1x64x64x64 : S1x64x64x1.Broadcasts S1x64x64x64
  inb_S1x70x75x64_S1x3x75x64_0_0_0_0 : ∀ a, (![0, 0, 0, 0] : Fin 4 → Nat) a + S1x3x75x64.size a ≤ S1x70x75x64.size a
  h_S1x3x75x64 : 0 < S1x3x75x64.numel
  shapeCasts_S1x3x75x64_S1x3x75x64 : S1x3x75x64.ShapeCasts S1x3x75x64
  inb_S1x70x75x64_S1x3x75x64_0_67_0_0 : ∀ a, (![0, 67, 0, 0] : Fin 4 → Nat) a + S1x3x75x64.size a ≤ S1x70x75x64.size a
  inb_S1x70x75x64_S1x64x3x64_0_3_5_0 : ∀ a, (![0, 3, 5, 0] : Fin 4 → Nat) a + S1x64x3x64.size a ≤ S1x70x75x64.size a
  h_S1x64x3x64 : 0 < S1x64x3x64.numel
  shapeCasts_S1x64x3x64_S1x64x3x64 : S1x64x3x64.ShapeCasts S1x64x3x64
  inb_S1x70x75x64_S1x64x3x64_0_3_72_0 : ∀ a, (![0, 3, 72, 0] : Fin 4 → Nat) a + S1x64x3x64.size a ≤ S1x70x75x64.size a
  inb_S1x70x75x64_S1x64x64x64_0_3_8_0 : ∀ a, (![0, 3, 8, 0] : Fin 4 → Nat) a + S1x64x64x64.size a ≤ S1x70x75x64.size a
  inb_S1x70x75x64_S1x64x75x64_0_0_0_0 : ∀ a, (![0, 0, 0, 0] : Fin 4 → Nat) a + S1x64x75x64.size a ≤ S1x70x75x64.size a
  h_S1x64x75x64 : 0 < S1x64x75x64.numel
  slices_S1x64x75x64_o0_0_5_0_S1x64x64x64 : S1x64x75x64.Slices ![0, 0, 5, 0] S1x64x64x64
  slices_S1x64x75x64_o0_0_8_0_S1x64x64x64 : S1x64x75x64.Slices ![0, 0, 8, 0] S1x64x64x64
  slices_S1x64x75x64_o0_0_11_0_S1x64x64x64 : S1x64x75x64.Slices ![0, 0, 11, 0] S1x64x64x64
  inb_S1x70x75x64_S1x64x75x64_0_1_0_0 : ∀ a, (![0, 1, 0, 0] : Fin 4 → Nat) a + S1x64x75x64.size a ≤ S1x70x75x64.size a
  slices_S1x64x75x64_o0_0_6_0_S1x64x64x64 : S1x64x75x64.Slices ![0, 0, 6, 0] S1x64x64x64
  slices_S1x64x75x64_o0_0_10_0_S1x64x64x64 : S1x64x75x64.Slices ![0, 0, 10, 0] S1x64x64x64
  inb_S1x70x75x64_S1x64x75x64_0_2_0_0 : ∀ a, (![0, 2, 0, 0] : Fin 4 → Nat) a + S1x64x75x64.size a ≤ S1x70x75x64.size a
  slices_S1x64x75x64_o0_0_7_0_S1x64x64x64 : S1x64x75x64.Slices ![0, 0, 7, 0] S1x64x64x64
  slices_S1x64x75x64_o0_0_9_0_S1x64x64x64 : S1x64x75x64.Slices ![0, 0, 9, 0] S1x64x64x64
  inb_S1x70x75x64_S1x64x75x64_0_3_0_0 : ∀ a, (![0, 3, 0, 0] : Fin 4 → Nat) a + S1x64x75x64.size a ≤ S1x70x75x64.size a
  inb_S1x70x75x64_S1x64x75x64_0_4_0_0 : ∀ a, (![0, 4, 0, 0] : Fin 4 → Nat) a + S1x64x75x64.size a ≤ S1x70x75x64.size a
  inb_S1x70x75x64_S1x64x75x64_0_5_0_0 : ∀ a, (![0, 5, 0, 0] : Fin 4 → Nat) a + S1x64x75x64.size a ≤ S1x70x75x64.size a
  inb_S1x70x75x64_S1x64x75x64_0_6_0_0 : ∀ a, (![0, 6, 0, 0] : Fin 4 → Nat) a + S1x64x75x64.size a ≤ S1x70x75x64.size a
  shapeCasts_S1x64x64x64_S4096x64 : S1x64x64x64.ShapeCasts S4096x64
  concatenates_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x28_d3 : Shape.Concatenates [S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1, S1x64x64x1] S1x64x64x28 3
  shapeCasts_S1x64x64x28_S4096x28 : S1x64x64x28.ShapeCasts S4096x28
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S28x128_S28x128_0_0 : ∀ a, (![0, 0] : Fin 2 → Nat) a + S28x128.size a ≤ S28x128.size a
  h_S28x128 : 0 < S28x128.numel
  shapeCasts_S28x128_S28x128 : S28x128.ShapeCasts S28x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x64x64x128 : S4096x128.ShapeCasts S1x64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  transposes_S32x64x64x128_S32x128x64x64_0_3_1_2 : S32x64x64x128.Transposes [0, 3, 1, 2] S32x128x64x64
  dot_S4096x64_S64x128_S4096x128_1_0_0_1_n_n_wf : DotDims.WF S4096x64 S64x128 S4096x128 [1] [0] [0] [1] [] []
  dot_S4096x28_S28x128_S4096x128_1_0_0_1_n_n_wf : DotDims.WF S4096x28 S28x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S32x64x64x64.size a
  hwx0_0 : ∀ i : grid0.Coords, EltTy.bits .f32 = 32 ∨ (Rect.block (s := S32x64x64x64) S1x64x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S28x128.size a ≤ S28x128.size a
  hwx0_2 : ∀ i : grid0.Coords, EltTy.bits .f32 = 32 ∨ (Rect.block (s := S28x128) S28x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x128.size a ≤ S32x64x64x128.size a
  hwx0_4 : ∀ i : grid0.Coords, EltTy.bits .f32 = 32 ∨ (Rect.block (s := S32x64x64x128) S1x64x64x128.size (cc0_transform_4 i) (hinb0_4 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x28_S28x128_S4096x128_1_0_0_1_n_n : DotDims S4096x28 S28x128 S4096x128 where
  lhsContracting := [1]
  rhsContracting := [0]
  lhsNonContracting := [0]
  rhsNonContracting := [1]
  lhsBatch := []
  rhsBatch := []
  wf := dot_S4096x28_S28x128_S4096x128_1_0_0_1_n_n_wf

abbrev win0_0 : Pipeline.Window sig grid0 :=
  Pipeline.Window.ofSpec (Memref.whole main_v0) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S28x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KKit.lean ====
/-
  The entry function of the correlation kernel's program around its one region.

  Before the region the host reshapes the features to 32 x 64 x 4096, slices the weight matrix into its raw-feature
  columns and its 28 correlation columns, repeats each correlation column eight times, and appends the bias as a
  column followed by seven zero columns; after the region it reshapes the result to 32 x 128 x 64 x 64. Stated here:
  what the buffers hold when the region is entered, that the entry function is the region continued by the final
  reshape, that no host operation writes an argument array, and that the frame property follows from a run of the region.
-/
import proofs.«147926_g2000405799366230_pallasbulk_257_2_alg».proof.Proof.Gen.Kernel.Launch
import proofs.«147926_g2000405799366230_pallasbulk_257_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Kit

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel's region is entered: the launch memory after the host operations
    that come before the region (the reshape of the features, the two slices of the weights, the widening of the
    correlation weights and their concatenation with the bias column and seven zero columns). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The entry function is: the host operations before the region, the region, and then the final reshape as the
    region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's arrays and buffers the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the region's arrays (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write the features either: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the weights. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor the bias. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the current staging buffer of the features' window holds that point's block (one image),
    whether it was fetched at this point or not, for any proof data over these arrays whose body leaves input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the raw-feature weights (one block, fetched once). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the widened correlation weights (one block, fetched once). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- From a run of the region with its continuation to the launch theorem's postcondition, the frame property:
    the program terminates without fault and the three argument arrays end as they were launched (none of them is an
    array of the region, and no host operation writes them). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

end Cert.Kernel.Kit

end
-- ==== Proof.KRun.lean ====
/-
  The body of the correlation kernel, run once on arbitrary whole staging memrefs.

  The body reads its three input blocks (one image's features as 64 channel rows of 4096 flat positions, the
  raw-feature weights, the widened correlation weights), keeps the normalized features in a scratch of
  64 x 4352 words whose last 256 columns it zeroes, reads thirteen shifted windows of that scratch back, and
  stores one output block. Stated here: from the inputs at given contents, the output buffer and the scratch at
  anything, the body runs without fault, gives the inputs back unchanged, and leaves in the output buffer and in
  the scratch the pieces its stores wrote (the pieces are found by running the body symbolically).
-/
import proofs.«147926_g2000405799366230_pallasbulk_257_2_alg».proof.Proof.Gen.Kernel.Launch
import proofs.«147926_g2000405799366230_pallasbulk_257_2_alg».proof.Proof.Gen.Kernel.Skeleton
import proofs.«147926_g2000405799366230_pallasbulk_257_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (first component) and in the scratch (second), with the
    proof that the body, started with the inputs at `x0 x1 x2` and the other two buffers at anything, runs to a
    continuation that holds the inputs as they were and the two written buffers with those pieces written. -/
noncomputable def kernelRun (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) :
    Σ' (LO : List (View.Piece (Elt F) S1x128x4096 .f32)), { LS : List (View.Piece (Elt F) S64x4352 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__escn_body i arg1 harg1 arg2 harg2 arg3 harg3 arg4 harg4 arg5 harg5) K } := by
  refine ⟨?_, ?_, fun E K => ?run⟩
  case run =>
    simp only [cc0__escn_body_eq_skeleton]; unfold cc0__escn_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.Kernel.Body

end
-- ==== Proof.KFrame.lean ====
/-
  The frame of the correlation kernel's program: it terminates, nothing faults, and the argument arrays end unchanged.

  The region runs the body once per image (32 grid points). At each point the three input buffers hold that point's
  blocks (the image's features; the two weight blocks, the same at every point), the body stores one output block,
  and the scratch it uses belongs to the region's invariant: it is handed to the body at whatever it holds and taken
  back at whatever the body leaves. What the output buffer holds after the body is named (`outO`): the body's stored
  pieces read back, as a function of the three input blocks.
-/
import proofs.«147926_g2000405799366230_pallasbulk_257_2_alg».proof.Proof.KKit
import proofs.«147926_g2000405799366230_pallasbulk_257_2_alg».proof.Proof.KRun

set_option maxRecDepth 16384

noncomputable section

namespace Cert.Kernel.Frame

open Cert.Kernel Cert.Kernel.Gen Cert.Kernel.Kit Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole buffer of the kernel's own (64 rows of 4352 words). -/
abbrev scM : Memref sig .tc .vmem S64x4352 .f32 := Memref.whole cc0_scratch0
/-- One staging buffer of the output window, through which the output block's contents are stated (which of the two
    does not matter: the stored pieces cover the block). -/
abbrev VO : View sig .tc .vmem S1x128x4096 .f32 := (Memref.whole cc0_stg3_0 : Memref sig .tc .vmem S1x128x4096 .f32).view
/-- Each window's current staging memref at point `t`, as the region passes it to the body, and its wholeness. -/
abbrev ms0 (t : Fin cfg0.N) : Memref sig .tc .vmem S1x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x232 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x4096 .f32 := win0_3.stage (cfg0.slots t 3)
abbrev hs3 (t : Fin cfg0.N) : (ms3 t).IsWhole := hstage0_3 ((cfg0.slots t 3).cast nbuf0_3)

/-- The region's invariant is: the scratch, owned whole at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body's one store into the output buffer is of the whole block: its pieces cover it. -/
theorem coverO (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) (y : S1x128x4096.Idx) :
    ∃ pc ∈ (kernelRun c i arg1 harg1 arg2 harg2 arg3 harg3 arg4 harg4 arg5 harg5 x0 x1 x2).1, y ∈ pc.1.set :=
  View.cover_of_tiledL (kernelRun c i arg1 harg1 arg2 harg2 arg3 harg3 arg4 harg4 arg5 harg5 x0 x1 x2).1 S1x128x4096.size (by sl_kernel_rfl) y

/-- What the body leaves in the output buffer: its stored pieces read back. -/
def outO (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) : Vec F S1x128x4096 .f32 :=
  VO.read (Elt F) (VO.writes (Elt F) VO.junk (kernelRun c i arg1 harg1 arg2 harg2 arg3 harg3 arg4 harg4 arg5 harg5 x0 x1 x2).1)

/-- The output block of point `t`: the body's result on that point's input blocks. -/
def outAt (c : Dev nD) (t : Fin cfg0.N) : Vec F S1x128x4096 .f32 :=
  outO c (grid0.coords t) (ms0 t) (hs0 t) (ms1 t) (hs1 t) (ms2 t) (hs2 t) (ms3 t) (hs3 t) scM (Memref.isWhole_whole _)
    (iblk m c 0 t) (iblk m c 1 t) (iblk m c 2 t)

/-- The proof data of the region on core `c`: the arrays as the region finds them; after the body at point `t` each
    input buffer at its block and the output buffer at `outAt`; the invariant (scratch and generator register) the
    same at every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`: the invariant, the core's debt (none), and the four windows' buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at any point: the inputs' buffers hold their blocks, the invariant lends the scratch, the body's run
    applies, and the invariant takes the scratch back at what the body left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA_eq]
  unfold outAt outO
  iintro ⟨⟨HS, Hg⟩, Ho, ⟨%d0, H0⟩, ⟨%d1, H1⟩, ⟨%d2, H2⟩, ⟨%d3, H3⟩⟩
  iapply ((kernelRun c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hg]
  · isplitl [HS]
    · unfold owns; iexists _; iexists _; isplitr
      swap; · iexact HS
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO c _ _ _ _ _ _ _ _ _ _ _ _ _ _)

/-- The region's obligation on its body, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any launch memory with zero counters every weakly fair execution of the entry function terminates, and in
    every final state each array of the region holds what the proof data computes and every other unscoped buffer
    what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without fault and leaves features, weights and bias as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.KIKit.lean ====
/-
  The entry function of the correlation kernel's program around its one region.

  Before the region the host reshapes the features to 32 x 64 x 4096, slices the weight matrix into its raw-feature
  columns and its 28 correlation columns, repeats each correlation column eight times, and appends the bias as a
  column followed by seven zero columns; after the region it reshapes the result to 32 x 128 x 64 x 64. Stated here:
  what the buffers hold when the region is entered, that the entry function is the region continued by the final
  reshape, that no host operation writes an argument array, and that the frame property follows from a run of the region.
-/
import proofs.«147926_g2000405799366230_pallasbulk_257_2_alg».proof.Proof.Gen.KernelIdeal.Launch
import proofs.«147926_g2000405799366230_pallasbulk_257_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Kit

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel's region is entered: the launch memory after the host operations
    that come before the region (the reshape of the features, the two slices of the weights, the widening of the
    correlation weights and their concatenation with the bias column and seven zero columns). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The entry function is: the host operations before the region, the region, and then the final reshape as the
    region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's arrays and buffers the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the region's arrays (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write the features either: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the weights. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor the bias. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the current staging buffer of the features' window holds that point's block (one image),
    whether it was fetched at this point or not, for any proof data over these arrays whose body leaves input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the raw-feature weights (one block, fetched once). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the widened correlation weights (one block, fetched once). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- From a run of the region with its continuation to the launch theorem's postcondition, the frame property:
    the program terminates without fault and the three argument arrays end as they were launched (none of them is an
    array of the region, and no host operation writes them). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

end Cert.KernelIdeal.Kit

end
-- ==== Proof.KIRun.lean ====
/-
  The body of the correlation kernel, run once on arbitrary whole staging memrefs.

  The body reads its three input blocks (one image's features as 64 channel rows of 4096 flat positions, the
  raw-feature weights, the widened correlation weights), keeps the normalized features in a scratch of
  64 x 4352 words whose last 256 columns it zeroes, reads thirteen shifted windows of that scratch back, and
  stores one output block. Stated here: from the inputs at given contents, the output buffer and the scratch at
  anything, the body runs without fault, gives the inputs back unchanged, and leaves in the output buffer and in
  the scratch the pieces its stores wrote (the pieces are found by running the body symbolically).
-/
import proofs.«147926_g2000405799366230_pallasbulk_257_2_alg».proof.Proof.Gen.KernelIdeal.Launch
import proofs.«147926_g2000405799366230_pallasbulk_257_2_alg».proof.Proof.Gen.KernelIdeal.Skeleton
import proofs.«147926_g2000405799366230_pallasbulk_257_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (first component) and in the scratch (second), with the
    proof that the body, started with the inputs at `x0 x1 x2` and the other two buffers at anything, runs to a
    continuation that holds the inputs as they were and the two written buffers with those pieces written. -/
noncomputable def kernelRun (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) :
    Σ' (LO : List (View.Piece (Elt F) S1x128x4096 .f32)), { LS : List (View.Piece (Elt F) S64x4352 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__escn_body i arg1 harg1 arg2 harg2 arg3 harg3 arg4 harg4 arg5 harg5) K } := by
  refine ⟨?_, ?_, fun E K => ?run⟩
  case run =>
    simp only [cc0__escn_body_eq_skeleton]; unfold cc0__escn_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.KernelIdeal.Body

end
-- ==== Proof.KIFrame.lean ====
/-
  The frame of the correlation kernel's program: it terminates, nothing faults, and the argument arrays end unchanged.

  The region runs the body once per image (32 grid points). At each point the three input buffers hold that point's
  blocks (the image's features; the two weight blocks, the same at every point), the body stores one output block,
  and the scratch it uses belongs to the region's invariant: it is handed to the body at whatever it holds and taken
  back at whatever the body leaves. What the output buffer holds after the body is named (`outO`): the body's stored
  pieces read back, as a function of the three input blocks.
-/
import proofs.«147926_g2000405799366230_pallasbulk_257_2_alg».proof.Proof.KIKit
import proofs.«147926_g2000405799366230_pallasbulk_257_2_alg».proof.Proof.KIRun

set_option maxRecDepth 16384

noncomputable section

namespace Cert.KernelIdeal.Frame

open Cert.KernelIdeal Cert.KernelIdeal.Gen Cert.KernelIdeal.Kit Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole buffer of the kernel's own (64 rows of 4352 words). -/
abbrev scM : Memref sig .tc .vmem S64x4352 .f32 := Memref.whole cc0_scratch0
/-- One staging buffer of the output window, through which the output block's contents are stated (which of the two
    does not matter: the stored pieces cover the block). -/
abbrev VO : View sig .tc .vmem S1x128x4096 .f32 := (Memref.whole cc0_stg3_0 : Memref sig .tc .vmem S1x128x4096 .f32).view
/-- Each window's current staging memref at point `t`, as the region passes it to the body, and its wholeness. -/
abbrev ms0 (t : Fin cfg0.N) : Memref sig .tc .vmem S1x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x232 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x4096 .f32 := win0_3.stage (cfg0.slots t 3)
abbrev hs3 (t : Fin cfg0.N) : (ms3 t).IsWhole := hstage0_3 ((cfg0.slots t 3).cast nbuf0_3)

/-- The region's invariant is: the scratch, owned whole at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body's one store into the output buffer is of the whole block: its pieces cover it. -/
theorem coverO (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) (y : S1x128x4096.Idx) :
    ∃ pc ∈ (kernelRun c i arg1 harg1 arg2 harg2 arg3 harg3 arg4 harg4 arg5 harg5 x0 x1 x2).1, y ∈ pc.1.set :=
  View.cover_of_tiledL (kernelRun c i arg1 harg1 arg2 harg2 arg3 harg3 arg4 harg4 arg5 harg5 x0 x1 x2).1 S1x128x4096.size (by sl_kernel_rfl) y

/-- What the body leaves in the output buffer: its stored pieces read back. -/
def outO (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) : Vec F S1x128x4096 .f32 :=
  VO.read (Elt F) (VO.writes (Elt F) VO.junk (kernelRun c i arg1 harg1 arg2 harg2 arg3 harg3 arg4 harg4 arg5 harg5 x0 x1 x2).1)

/-- The output block of point `t`: the body's result on that point's input blocks. -/
def outAt (c : Dev nD) (t : Fin cfg0.N) : Vec F S1x128x4096 .f32 :=
  outO c (grid0.coords t) (ms0 t) (hs0 t) (ms1 t) (hs1 t) (ms2 t) (hs2 t) (ms3 t) (hs3 t) scM (Memref.isWhole_whole _)
    (iblk m c 0 t) (iblk m c 1 t) (iblk m c 2 t)

/-- The proof data of the region on core `c`: the arrays as the region finds them; after the body at point `t` each
    input buffer at its block and the output buffer at `outAt`; the invariant (scratch and generator register) the
    same at every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`: the invariant, the core's debt (none), and the four windows' buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at any point: the inputs' buffers hold their blocks, the invariant lends the scratch, the body's run
    applies, and the invariant takes the scratch back at what the body left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA_eq]
  unfold outAt outO
  iintro ⟨⟨HS, Hg⟩, Ho, ⟨%d0, H0⟩, ⟨%d1, H1⟩, ⟨%d2, H2⟩, ⟨%d3, H3⟩⟩
  iapply ((kernelRun c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hg]
  · isplitl [HS]
    · unfold owns; iexists _; iexists _; isplitr
      swap; · iexact HS
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO c _ _ _ _ _ _ _ _ _ _ _ _ _ _)

/-- The region's obligation on its body, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any launch memory with zero counters every weakly fair execution of the entry function terminates, and in
    every final state each array of the region holds what the proof data computes and every other unscoped buffer
    what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without fault and leaves features, weights and bias as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.SpecArrays.lean ====
/-
  The argument arrays as total arrays on natural-number indices, zero outside their extents: the vocabulary in which
  both programs' results are stated. For image `b`: the raw features by channel and flat position (position
  64 h + w is row h, column w), the channel-normalized features (each position's feature vector scaled by the
  reciprocal square root of its squared length, the squared length bounded below by the small constant both
  programs use), the weight matrix and the bias.
-/
import Idealize.ShloMosaic.PureOps.Ideal
import Idealize.ShloMosaic.Lib.ValueIdx

noncomputable section

namespace Cert.SpecArrays

open Idealize.ShloMosaic Idealize.ShloMosaic.ValueIdx

/-- The lower bound on the squared length: the float both programs print, read exactly. -/
def eps : EReal := Ideal.ofBits .f32 0x179ABE15#32

/-- Image `b`'s raw features: channel `c`, flat position `p`. -/
def Xof (A0 : FVec Ideal (⟨4, ![32, 64, 64, 64]⟩ : Shape) .f32) (b : Fin 32) : ℕ → ℕ → EReal :=
  fun c p => if h : c < 64 ∧ p < 4096 then
    A0 (ix4 b ⟨c, h.1⟩ ⟨p / 64, by have := h.2; omega⟩ ⟨p % 64, Nat.mod_lt _ (by decide)⟩) else 0

/-- The squared length of position `p`'s feature vector. -/
def ssq (X : ℕ → ℕ → EReal) (p : ℕ) : EReal := ∑ c : Fin 64, X c.val p * X c.val p

/-- The normalized features from the raw ones. -/
def XNof (X : ℕ → ℕ → EReal) : ℕ → ℕ → EReal :=
  fun c p => if c < 64 ∧ p < 4096 then X c p * Ideal.rsqrt (max (ssq X p) eps) else 0

/-- The weight matrix. -/
def WTof (A1 : FVec Ideal (⟨2, ![128, 92]⟩ : Shape) .f32) : ℕ → ℕ → EReal :=
  fun co j => if h : co < 128 ∧ j < 92 then A1 (ix2 ⟨co, h.1⟩ ⟨j, h.2⟩) else 0

/-- The bias. -/
def Bof (A2 : FVec Ideal (⟨1, ![128]⟩ : Shape) .f32) : ℕ → EReal :=
  fun co => if h : co < 128 then A2 (ix1 ⟨co, h⟩) else 0

end Cert.SpecArrays

end
-- ==== Proof.SpecAlgebra.lean ====
/- The algebra behind the certificate, over the reals: the two programs' results, written as plain
   formulas on arrays indexed by natural numbers, agree.

   One batch element is fixed. 'x c p' is the raw feature at channel 'c' and flat position
   'p = 64 * h + w'; 'xn c p' is the channel-normalized feature, an arbitrary second array as far as
   this file goes; 'Wt co j' the 1x1-convolution weight (64 feature columns, then 28 correlation
   columns); 'bias co' the bias. Only the values at 'c < 64', 'p < 4096', 'j < 92' are read. -/
import Mathlib.Data.EReal.Inv
import Mathlib.Algebra.BigOperators.Fin
import Mathlib.Tactic

namespace Cert.Spec

open Finset

/-! ## The formulas, over any carrier with '+', '*', '0', '1' (used at the reals and at the
    extended reals) -/

section Defs

variable {R : Type} [AddCommMonoid R] [Mul R] [One R]

/-- Row offset of window 's' into the padded feature: diagonal, vertical, anti-diagonal,
    horizontal windows, seven of each. -/
def shiftR (s : ℕ) : ℕ :=
  if s < 7 then s else if s < 14 then s - 7 else if s < 21 then s - 14 else 3

/-- Column offset of window 's' into the padded feature. -/
def shiftC (s : ℕ) : ℕ :=
  if s < 7 then s else if s < 14 then 3 else if s < 21 then 20 - s else s - 21

/-- The 0/1 column mask of an in-row column shift 'd': it keeps the positions whose window entry
    stays in the same image row. -/
def mask (d : ℤ) (p : ℕ) : R :=
  if 0 < d then (if ((p % 64 : ℕ) : ℤ) ≤ 63 - d then 1 else 0)
  else if d < 0 then (if -d ≤ ((p % 64 : ℕ) : ℤ) then 1 else 0)
  else 1

/-- The flat feature followed by a tail of zeros. -/
def pad (xn : ℕ → ℕ → R) (c q : ℕ) : R := if q < 4096 then xn c q else 0

/-- Row 'k' of the eight-row partial correlation map of a lane shift 'δ ≥ 0' with in-row column
    shift 'd': the sum over the eight channel groups, masked when 'd ≠ 0'. -/
def Ppos (xn : ℕ → ℕ → R) (δ : ℕ) (d : ℤ) (k p : ℕ) : R :=
  if d = 0 then ∑ g : Fin 8, pad xn (8 * g + k) (p + δ) * xn (8 * g + k) p
  else (∑ g : Fin 8, pad xn (8 * g + k) (p + δ) * xn (8 * g + k) p) * mask d p

/-- Row 'k' of the partial correlation map of the window at offsets '(r, c)' (lane shift
    '64 * (r - 3) + (c - 3)'): a non-negative shift is read off the padded feature; a negative one
    is the mirrored positive map translated along the lanes, zeros shifted in. -/
def part (xn : ℕ → ℕ → R) (r c k p : ℕ) : R :=
  if 195 ≤ 64 * r + c then Ppos xn (64 * r + c - 195) ((c : ℤ) - 3) k p
  else if p < 195 - (64 * r + c) then 0
  else Ppos xn (195 - (64 * r + c)) (3 - (c : ℤ)) k (p - (195 - (64 * r + c)))

/-- The stacked right operand of the second product: 28 partial maps of eight rows each, then a
    row of ones (for the bias), then seven rows of zeros. -/
def pp (xn : ℕ → ℕ → R) (j p : ℕ) : R :=
  if j < 224 then part xn (shiftR (j / 8)) (shiftC (j / 8)) (j % 8) p
  else if j = 224 then 1 else 0

/-- The left operand of the second product: each correlation weight column eight times, the bias
    column, seven columns of zeros. -/
def w2 (Wt : ℕ → ℕ → R) (bias : ℕ → R) (co j : ℕ) : R :=
  if j < 224 then Wt co (64 + j / 8) else if j = 224 then bias co else 0

/-- The first program's result at output channel 'co', flat position 'p'. -/
def Kform (x xn Wt : ℕ → ℕ → R) (bias : ℕ → R) (co p : ℕ) : R :=
  (∑ c : Fin 64, Wt co c * x c p) + (∑ j : Fin 232, w2 Wt bias co j * pp xn j p)

/-- The zero-padded scratch of the second program: 70 rows by 75 columns, the feature at rows
    [3, 67) and columns [8, 72), zero wherever else it is read. -/
def P (xn : ℕ → ℕ → R) (i j c : ℕ) : R :=
  if 3 ≤ i ∧ i < 67 ∧ 8 ≤ j ∧ j < 72 then xn c (64 * (i - 3) + (j - 8)) else 0

/-- The correlation map of the window at offsets '(r, c)', at image position '(h, w)'. -/
def corr (xn : ℕ → ℕ → R) (r c h w : ℕ) : R :=
  ∑ ch : Fin 64, P xn (h + r) (5 + c + w) ch * xn ch (64 * h + w)

/-- The second program's result at output channel 'co', image position '(h, w)'. -/
def Rform (x xn Wt : ℕ → ℕ → R) (bias : ℕ → R) (co h w : ℕ) : R :=
  ((∑ c : Fin 64, x c (64 * h + w) * Wt co c)
    + (∑ s : Fin 28, corr xn (shiftR s) (shiftC s) h w * Wt co (64 + s))) + bias co

end Defs

/-! ## Index facts -/

theorem shiftR_le {s : ℕ} (hs : s < 28) : shiftR s ≤ 6 := by
  unfold shiftR; split_ifs <;> omega

theorem shiftC_le {s : ℕ} (hs : s < 28) : shiftC s ≤ 6 := by
  unfold shiftC; split_ifs <;> omega

/-! ## Regrouping finite sums -/

/-- A sum over 'n * m' indices is the double sum over 'a < n', 'b < m' at index 'm * a + b'. -/
theorem sum_fin_mul {M : Type} [AddCommMonoid M] (N n m : ℕ) (hN : N = n * m) (f : ℕ → M) :
    ∑ j : Fin N, f j = ∑ a : Fin n, ∑ b : Fin m, f (m * a + b) := by
  subst hN
  rw [← Fintype.sum_prod_type']
  refine (Fintype.sum_equiv finProdFinEquiv _ _ ?_).symm
  rintro ⟨a, b⟩
  simp [finProdFinEquiv, add_comm]

/-- The sum over 64 channels, grouped as 'c = 8 * g + k': sublane row 'k' outside, channel group
    'g' inside. -/
theorem sum_chan {M : Type} [AddCommMonoid M] (f : ℕ → M) :
    ∑ c : Fin 64, f c = ∑ k : Fin 8, ∑ g : Fin 8, f (8 * g + k) := by
  rw [sum_fin_mul 64 8 8 (by norm_num) f, Finset.sum_comm]

/-! ## The identity over the reals -/

section Real

variable (x xn Wt : ℕ → ℕ → ℝ) (bias : ℕ → ℝ)

theorem mask_zero (p : ℕ) : mask (R := ℝ) 0 p = 1 := by simp [mask]

/-- Over the reals the unmasked case is a multiplication by the trivial mask. -/
theorem Ppos_eq (δ : ℕ) (d : ℤ) (k p : ℕ) :
    Ppos xn δ d k p
      = (∑ g : Fin 8, pad xn (8 * g + k) (p + δ) * xn (8 * g + k) p) * mask d p := by
  unfold Ppos
  split_ifs with hd
  · subst hd; rw [mask_zero, mul_one]
  · rfl

/-- A non-negative lane shift: the masked entry of the zero-tailed flat feature is the entry of
    the zero-padded scratch. A window entry that leaves the image row is masked on the left and
    lies in the zero columns on the right; a row below the image is in the zero tail on the left
    and in the zero rows on the right. -/
theorem posTerm {r c h w : ℕ} (hr : r ≤ 6) (hc : c ≤ 6) (hh : h < 64) (hw : w < 64)
    (hpos : 195 ≤ 64 * r + c) (ch : ℕ) :
    pad xn ch (64 * h + w + (64 * r + c - 195)) * mask ((c : ℤ) - 3) (64 * h + w)
      = P xn (h + r) (5 + c + w) ch := by
  have hm : (64 * h + w) % 64 = w := by omega
  unfold pad mask P
  rw [hm]
  split_ifs <;> first
    | (exfalso; omega)
    | (rw [mul_one]; congr 1; omega)
    | (simp; done)

/-- A negative lane shift: the mirrored positive map, translated, against the scratch entry; the
    product commutes. -/
theorem negTerm {r c h w : ℕ} (hr : r ≤ 6) (hc : c ≤ 6) (hh : h < 64) (hw : w < 64)
    (hneg : 64 * r + c < 195) (ch : ℕ) :
    (if 64 * h + w < 195 - (64 * r + c) then (0 : ℝ)
      else pad xn ch (64 * h + w - (195 - (64 * r + c)) + (195 - (64 * r + c)))
            * xn ch (64 * h + w - (195 - (64 * r + c)))
            * mask (3 - (c : ℤ)) (64 * h + w - (195 - (64 * r + c))))
      = P xn (h + r) (5 + c + w) ch * xn ch (64 * h + w) := by
  unfold pad mask P
  split_ifs <;> first
    | (exfalso; omega)
    | (simp; done)
    | (rw [mul_one, mul_comm]; congr 1 <;> (congr 1; omega))

/-- The per-window identity: the eight partial rows add up to the correlation map. -/
theorem sum_part_eq_corr {r c h w : ℕ} (hr : r ≤ 6) (hc : c ≤ 6) (hh : h < 64) (hw : w < 64) :
    ∑ k : Fin 8, part xn r c k (64 * h + w) = corr xn r c h w := by
  unfold corr
  rw [sum_chan (fun ch => P xn (h + r) (5 + c + w) ch * xn ch (64 * h + w))]
  refine Finset.sum_congr rfl fun k _ => ?_
  unfold part
  split_ifs with hpos hlt
  · rw [Ppos_eq, Finset.sum_mul]
    refine Finset.sum_congr rfl fun g _ => ?_
    rw [← posTerm xn hr hc hh hw hpos]; ring
  · symm
    refine Finset.sum_eq_zero fun g _ => ?_
    have := negTerm xn hr hc hh hw (by omega) (8 * g + k)
    rw [if_pos hlt] at this
    exact this.symm
  · rw [Ppos_eq, Finset.sum_mul]
    refine Finset.sum_congr rfl fun g _ => ?_
    have := negTerm xn hr hc hh hw (by omega) (8 * g + k)
    rw [if_neg hlt] at this
    exact this

/-- The second product of the first program: the 28 windows' weighted correlation maps plus the
    bias. -/
theorem sum_w2_pp (co : ℕ) {h w : ℕ} (hh : h < 64) (hw : w < 64) :
    ∑ j : Fin 232, w2 Wt bias co j * pp xn j (64 * h + w)
      = (∑ s : Fin 28, Wt co (64 + s) * corr xn (shiftR s) (shiftC s) h w) + bias co := by
  rw [sum_fin_mul 232 29 8 (by norm_num)
    (fun j => w2 Wt bias co j * pp xn j (64 * h + w)), Fin.sum_univ_castSucc]
  congr 1
  · refine Finset.sum_congr rfl fun s _ => ?_
    rw [← sum_part_eq_corr xn (shiftR_le s.isLt) (shiftC_le s.isLt) hh hw, Finset.mul_sum]
    refine Finset.sum_congr rfl fun k _ => ?_
    have h1 : 8 * (s : ℕ) + k < 224 := by omega
    have h2 : (8 * (s : ℕ) + k) / 8 = s := by omega
    have h3 : (8 * (s : ℕ) + k) % 8 = k := by omega
    simp only [w2, pp, Fin.coe_castSucc, if_pos h1, h2, h3]
  · simp [Fin.sum_univ_succ, w2, pp]

/-- The identity: the two programs' formulas agree at every output channel and image position. -/
theorem Kform_eq_Rform (co : ℕ) {h w : ℕ} (hh : h < 64) (hw : w < 64) :
    Kform x xn Wt bias co (64 * h + w) = Rform x xn Wt bias co h w := by
  unfold Kform Rform
  rw [sum_w2_pp xn Wt bias co hh hw, ← add_assoc]
  congr 2
  · exact Finset.sum_congr rfl fun c _ => mul_comm _ _
  · exact Finset.sum_congr rfl fun s _ => mul_comm _ _

end Real

/-! ## From the reals to the extended reals

    Under the finiteness precondition every quantity is the coercion of a real; a sum or product of
    coercions is the coercion of the sum or product, so an identity between real expressions
    built from '+', '*' and finite sums transports to the extended reals. -/

section Lift

/-- The coercion commutes with finite sums. -/
@[simp, norm_cast]
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with products. -/
theorem coe_mul (a b : ℝ) : ((a * b : ℝ) : EReal) = (a : EReal) * (b : EReal) := EReal.coe_mul a b

/-- The coercion commutes with sums of two. -/
theorem coe_add (a b : ℝ) : ((a + b : ℝ) : EReal) = (a : EReal) + (b : EReal) := EReal.coe_add a b

/-- An extended real that is neither infinity is a real. -/
theorem exists_real {a : EReal} (h1 : a ≠ ⊤) (h2 : a ≠ ⊥) : ∃ r : ℝ, a = (r : EReal) :=
  ⟨a.toReal, (EReal.coe_toReal h1 h2).symm⟩

/-- Two extended reals that are the coercions of equal reals are equal. -/
theorem eq_of_coe {A B : EReal} {a b : ℝ} (hA : A = (a : EReal)) (hB : B = (b : EReal))
    (h : a = b) : A = B := by rw [hA, hB, h]

/-- A table of extended reals without infinities is the coercion of a table of reals. -/
theorem eq_coe_toReal2 (X : ℕ → ℕ → EReal) (hX : ∀ a b, X a b ≠ ⊤ ∧ X a b ≠ ⊥) :
    X = fun a b => (((X a b).toReal : ℝ) : EReal) := by
  funext a b; exact (EReal.coe_toReal (hX a b).1 (hX a b).2).symm

theorem eq_coe_toReal1 (B : ℕ → EReal) (hB : ∀ a, B a ≠ ⊤ ∧ B a ≠ ⊥) :
    B = fun a => (((B a).toReal : ℝ) : EReal) := by
  funext a; exact (EReal.coe_toReal (hB a).1 (hB a).2).symm

variable (x xn Wt : ℕ → ℕ → ℝ) (bias : ℕ → ℝ)

theorem coe_mask (d : ℤ) (p : ℕ) : ((mask d p : ℝ) : EReal) = mask d p := by
  unfold mask; split_ifs <;> simp

theorem coe_pad (c q : ℕ) :
    ((pad xn c q : ℝ) : EReal) = pad (fun a b => (xn a b : EReal)) c q := by
  unfold pad; split_ifs <;> simp

theorem coe_Ppos (δ : ℕ) (d : ℤ) (k p : ℕ) :
    ((Ppos xn δ d k p : ℝ) : EReal) = Ppos (fun a b => (xn a b : EReal)) δ d k p := by
  unfold Ppos
  split_ifs <;> simp only [coe_sum, EReal.coe_mul, coe_pad, coe_mask]

theorem coe_part (r c k p : ℕ) :
    ((part xn r c k p : ℝ) : EReal) = part (fun a b => (xn a b : EReal)) r c k p := by
  unfold part
  split_ifs <;> simp only [coe_Ppos, EReal.coe_zero]

theorem coe_pp (j p : ℕ) :
    ((pp xn j p : ℝ) : EReal) = pp (fun a b => (xn a b : EReal)) j p := by
  unfold pp
  split_ifs <;> simp only [coe_part, EReal.coe_zero, EReal.coe_one]

theorem coe_w2 (co j : ℕ) :
    ((w2 Wt bias co j : ℝ) : EReal)
      = w2 (fun a b => (Wt a b : EReal)) (fun a => (bias a : EReal)) co j := by
  unfold w2
  split_ifs <;> simp only [EReal.coe_zero]

theorem coe_Kform (co p : ℕ) :
    ((Kform x xn Wt bias co p : ℝ) : EReal)
      = Kform (fun a b => (x a b : EReal)) (fun a b => (xn a b : EReal))
          (fun a b => (Wt a b : EReal)) (fun a => (bias a : EReal)) co p := by
  unfold Kform
  simp only [EReal.coe_add, coe_sum, EReal.coe_mul, coe_w2, coe_pp]

theorem coe_P (i j c : ℕ) :
    ((P xn i j c : ℝ) : EReal) = P (fun a b => (xn a b : EReal)) i j c := by
  unfold P; split_ifs <;> simp

theorem coe_corr (r c h w : ℕ) :
    ((corr xn r c h w : ℝ) : EReal) = corr (fun a b => (xn a b : EReal)) r c h w := by
  unfold corr
  simp only [coe_sum, EReal.coe_mul, coe_P]

theorem coe_Rform (co h w : ℕ) :
    ((Rform x xn Wt bias co h w : ℝ) : EReal)
      = Rform (fun a b => (x a b : EReal)) (fun a b => (xn a b : EReal))
          (fun a b => (Wt a b : EReal)) (fun a => (bias a : EReal)) co h w := by
  unfold Rform
  simp only [EReal.coe_add, coe_sum, EReal.coe_mul, coe_corr]

/-- The identity at the extended reals, for arrays that are coercions of real arrays. -/
theorem Kform_eq_Rform_coe (co : ℕ) {h w : ℕ} (hh : h < 64) (hw : w < 64) :
    Kform (fun a b => (x a b : EReal)) (fun a b => (xn a b : EReal))
        (fun a b => (Wt a b : EReal)) (fun a => (bias a : EReal)) co (64 * h + w)
      = Rform (fun a b => (x a b : EReal)) (fun a b => (xn a b : EReal))
          (fun a b => (Wt a b : EReal)) (fun a => (bias a : EReal)) co h w := by
  rw [← coe_Kform, ← coe_Rform, Kform_eq_Rform x xn Wt bias co hh hw]

/-- The identity at the extended reals, for arrays of extended reals without infinities. -/
theorem Kform_eq_Rform_of_finite (X XN WT : ℕ → ℕ → EReal) (B : ℕ → EReal)
    (hX : ∀ a b, X a b ≠ ⊤ ∧ X a b ≠ ⊥) (hXN : ∀ a b, XN a b ≠ ⊤ ∧ XN a b ≠ ⊥)
    (hWT : ∀ a b, WT a b ≠ ⊤ ∧ WT a b ≠ ⊥) (hB : ∀ a, B a ≠ ⊤ ∧ B a ≠ ⊥)
    (co : ℕ) {h w : ℕ} (hh : h < 64) (hw : w < 64) :
    Kform X XN WT B co (64 * h + w) = Rform X XN WT B co h w := by
  rw [eq_coe_toReal2 X hX, eq_coe_toReal2 XN hXN, eq_coe_toReal2 WT hWT, eq_coe_toReal1 B hB]
  exact Kform_eq_Rform_coe _ _ _ _ co hh hw

end Lift

/-! ## The same statements at a flat position -/

section Flat

/-- The identity at a flat position 'p < 4096': image row 'p / 64', column 'p % 64'. -/
theorem Kform_eq_Rform_flat (x xn Wt : ℕ → ℕ → ℝ) (bias : ℕ → ℝ) (co : ℕ) {p : ℕ}
    (hp : p < 4096) :
    Kform x xn Wt bias co p = Rform x xn Wt bias co (p / 64) (p % 64) := by
  have h := Kform_eq_Rform x xn Wt bias co (h := p / 64) (w := p % 64) (by omega) (by omega)
  rwa [show 64 * (p / 64) + p % 64 = p by omega] at h

/-- The identity at the extended reals and a flat position. -/
theorem Kform_eq_Rform_of_finite_flat (X XN WT : ℕ → ℕ → EReal) (B : ℕ → EReal)
    (hX : ∀ a b, X a b ≠ ⊤ ∧ X a b ≠ ⊥) (hXN : ∀ a b, XN a b ≠ ⊤ ∧ XN a b ≠ ⊥)
    (hWT : ∀ a b, WT a b ≠ ⊤ ∧ WT a b ≠ ⊥) (hB : ∀ a, B a ≠ ⊤ ∧ B a ≠ ⊥)
    (co : ℕ) {p : ℕ} (hp : p < 4096) :
    Kform X XN WT B co p = Rform X XN WT B co (p / 64) (p % 64) := by
  have h := Kform_eq_Rform_of_finite X XN WT B hX hXN hWT hB co
    (h := p / 64) (w := p % 64) (by omega) (by omega)
  rwa [show 64 * (p / 64) + p % 64 = p by omega] at h

/-- The column of a flat position, as the low six bits. -/
theorem land_63 (p : ℕ) : p &&& 63 = p % 64 := Nat.and_two_pow_sub_one_eq_mod p 6

end Flat

end Cert.Spec
-- ==== Proof.KIArrays.lean ====
/-
  The arrays around the correlation kernel's region, index by index.

  The region's output array is 32 images of 128 rows by 4096 flat positions; grid point `b` writes image `b`'s block
  `[1, 128, 4096]` at block index `(b, 0, 0)`, so the 32 blocks tile the array and the array after the region is the
  blocks stacked along the first axis. The final reshape to 32 x 128 x 64 x 64 keeps the row-major position: pixel
  `(h, w)` is flat position `64 h + w`. On the input side the features' window reads image `b` of the features
  reshaped to 32 x 64 x 4096 (flat position `p` is pixel `(p / 64, p % 64)`), the raw-feature weights are columns
  0..63 of the weight matrix, and the widened correlation weights are: column `j < 224` is weight column `64 + j / 8`
  (each of the 28 correlation columns repeated eight times), column 224 is the bias, columns 225..231 are zero.
-/
import proofs.«147926_g2000405799366230_pallasbulk_257_2_alg».proof.Proof.KIFrame
import proofs.«147926_g2000405799366230_pallasbulk_257_2_alg».proof.Proof.SpecArrays
import proofs.«147926_g2000405799366230_pallasbulk_257_2_alg».proof.Proof.SpecAlgebra
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Arrays

open Cert.KernelIdeal Cert.KernelIdeal.Gen Cert.KernelIdeal.Kit Cert.KernelIdeal.Frame
open Idealize.ShloMosaic Idealize.ShloMosaic.TcCoe Idealize.ShloMosaic.Tactic Idealize.ShloMosaic.ValueIdx
open Idealize.SL Idealize.SL.Sem
open Idealize.ShloMosaic.Pipeline (Dat Cfg Window)

/-! # The input side: the arrays the region's input windows read, in terms of the launched arguments -/

section Inputs

variable (m : (ℓ : Loc nD τ sig) → Buf (Elt Ideal) ℓ) (ρ : Dev nD → PrngReg)

/-- The features' array as the region finds it: the launched features reshaped to 32 x 64 x 4096. -/
theorem V_v0 (cdev : Dev nD) : (V m cdev main_v0 : S32x64x4096.Idx → Elt Ideal .f32)
    = shapeCast S32x64x4096 (m ((cdev : Thread nD τ).loc main_arg0) : S32x64x64x64.Idx → Elt Ideal .f32) shapeCasts_S32x64x64x64_S32x64x4096 := by
  show StableHlo.after hostOps0 (fun b => m (cdev, b)) (Proc.devRef .tc main_v0) = _
  after_results
  rfl

/-- The raw-feature weights as the region finds them: columns 0..63 of the launched weight matrix. -/
theorem V_v1 (cdev : Dev nD) : (V m cdev main_v1 : S128x64.Idx → Elt Ideal .f32)
    = extractStridedSlice S128x64 ![0, 0] (m ((cdev : Thread nD τ).loc main_arg1) : S128x92.Idx → Elt Ideal .f32) slices_S128x92_S128x64_0_0 := by
  show StableHlo.after hostOps0 (fun b => m (cdev, b)) (Proc.devRef .tc main_v1) = _
  after_results

/-- The 28 correlation columns (columns 64..91 of the weight matrix `W`), each repeated eight times: 224 columns. -/
def wideCorr (W : S128x92.Idx → Elt Ideal .f32) : S128x224.Idx → Elt Ideal .f32 :=
  shapeCast S128x224 (broadcastInDim S128x28x8 ![0, 1] bcast_S128x28_S128x28x8_0_1
    (extractStridedSlice S128x28 ![0, 64] W slices_S128x92_S128x28_0_64)) shapeCasts_S128x28x8_S128x224
/-- The bias as one column. -/
def wideBias (bz : S128.Idx → Elt Ideal .f32) : S128x1.Idx → Elt Ideal .f32 := shapeCast S128x1 bz shapeCasts_S128_S128x1
/-- Seven zero columns. -/
def wideZero : S128x7.Idx → Elt Ideal .f32 := broadcastInDim S128x7 ![] bcast_S_S128x7 (constant (F := Ideal) S_ .f32 0x00000000#32)

/-- The widened correlation weights as an operation on the weight matrix `W` and the bias `bz`: the repeated correlation
    columns, then the bias column, then the zero columns, side by side (232 columns). -/
def wide (W : S128x92.Idx → Elt Ideal .f32) (bz : S128.Idx → Elt Ideal .f32) : S128x232.Idx → Elt Ideal .f32 :=
  concatenate S128x232 1 [⟨S128x224, wideCorr W⟩, ⟨S128x1, wideBias bz⟩, ⟨S128x7, wideZero⟩]
    concatenates_S128x224_S128x1_S128x7_S128x232_d1

/-- The widened correlation weights as the region finds them. -/
theorem V_v7 (cdev : Dev nD) : (V m cdev main_v7 : S128x232.Idx → Elt Ideal .f32)
    = wide (m ((cdev : Thread nD τ).loc main_arg1)) (m ((cdev : Thread nD τ).loc main_arg2)) := by
  show StableHlo.after hostOps0 (fun b => m (cdev, b)) (Proc.devRef .tc main_v7) = _
  after_results
  dsimp only [Matrix.cons_val]
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide))
  rfl

/-! ## The host's layout operations read at an index -/

section Layout
variable {α : Type}

/-- The features reshaped to 32 x 64 x 4096, at image `b`, channel `c`, flat position `p`: pixel `(p / 64, p % 64)`. -/
theorem feat_apply (x : S32x64x64x64.Idx → α) (hn : S32x64x64x64.ShapeCasts S32x64x4096) (b : Fin 32) (c : Fin 64) (p : Fin 4096) :
    shapeCast S32x64x4096 x hn (ix3 b c p) = x (ix4 b c (⟨p.val / 64, by omega⟩ : Fin 64) (⟨p.val % 64, by omega⟩ : Fin 64)) :=
  shapeCast_apply x hn _ _ (by
    rw [Shape.rowMajor_val_four, Shape.rowMajor_val_three]
    show ((b.val * 64 + c.val) * 64 + p.val / 64) * 64 + p.val % 64 = (b.val * 64 + c.val) * 4096 + p.val
    omega)

/-- Columns 0..63 of the weight matrix. -/
theorem raw_apply (W : S128x92.Idx → α) (h : S128x92.Slices ![0, 0] S128x64) (co : Fin 128) (c : Fin 64) :
    extractStridedSlice S128x64 ![0, 0] W h (ix2 co c) = W (ix2 co (⟨c.val, by omega⟩ : Fin 92)) :=
  extractStridedSlice_apply _ W h _ _ (fun a => by
    match a with
    | ⟨0, _⟩ => show co.val = 0 + co.val; omega
    | ⟨1, _⟩ => show c.val = 0 + c.val; omega)

/-- Columns 64..91 of the weight matrix. -/
theorem corr_apply (W : S128x92.Idx → α) (h : S128x92.Slices ![0, 64] S128x28) (co : Fin 128) (q : Fin 28) :
    extractStridedSlice S128x28 ![0, 64] W h (ix2 co q) = W (ix2 co (⟨64 + q.val, by omega⟩ : Fin 92)) :=
  extractStridedSlice_apply _ W h _ _ (fun a => by
    match a with
    | ⟨0, _⟩ => show co.val = 0 + co.val; omega
    | ⟨1, _⟩ => show 64 + q.val = 64 + q.val; rfl)

/-- Each correlation column repeated along a new last axis of extent 8. -/
theorem rep8_apply (Y : S128x28.Idx → α) (h : S128x28.BroadcastsInDim S128x28x8 ![0, 1]) (co : Fin 128) (q : Fin 28) (r : Fin 8) :
    broadcastInDim S128x28x8 ![0, 1] h Y (ix3 co q r) = Y (ix2 co q) :=
  broadcastInDim_apply _ h Y _ _ (fun a => by
    match a with
    | ⟨0, _⟩ => exact (if_neg (show ¬ (128 : ℕ) = 1 by decide)).symm
    | ⟨1, _⟩ => exact (if_neg (show ¬ (28 : ℕ) = 1 by decide)).symm)

/-- The repeated columns flattened to 224: column `j` is repetition `j % 8` of correlation column `j / 8`. -/
theorem flat224_apply (Z : S128x28x8.Idx → α) (h : S128x28x8.ShapeCasts S128x224) (co : Fin 128) (j : Fin 224) :
    shapeCast S128x224 Z h (ix2 co j) = Z (ix3 co (⟨j.val / 8, by omega⟩ : Fin 28) (⟨j.val % 8, by omega⟩ : Fin 8)) :=
  shapeCast_apply Z h _ _ (by
    rw [Shape.rowMajor_val_three, Shape.rowMajor_val_two]
    show (co.val * 28 + j.val / 8) * 8 + j.val % 8 = co.val * 224 + j.val
    omega)

/-- The bias as a column. -/
theorem col_apply (bz : S128.Idx → α) (h : S128.ShapeCasts S128x1) (co : Fin 128) (u : Fin 1) :
    shapeCast S128x1 bz h (ix2 co u) = bz (ix1 co) :=
  shapeCast_apply bz h _ _ (by
    rw [Shape.rowMajor_val_one, Shape.rowMajor_val_two]
    show co.val = co.val * 1 + u.val
    omega)

end Layout

/-! ## The widened correlation weights at an index -/

/-- Column `j < 224` of the widened weights is correlation column `j / 8`, that is column `64 + j / 8` of the weight matrix. -/
theorem wide_corr (W : S128x92.Idx → Elt Ideal .f32) (bz : S128.Idx → Elt Ideal .f32) (co : Fin 128) (j : Fin 232) (hj : j.val < 224) :
    wide W bz (ix2 co j) = W (ix2 co (⟨64 + j.val / 8, by omega⟩ : Fin 92)) := by
  unfold wide
  refine (concatenate_apply_piece (t := S128x232) 1 [⟨S128x224, wideCorr W⟩, ⟨S128x1, wideBias bz⟩, ⟨S128x7, wideZero⟩]
    concatenates_S128x224_S128x1_S128x7_S128x232_d1 (ix2 co j) 0 (show (0 : ℕ) < 3 by decide) S128x224 (wideCorr W) rfl rfl 0 rfl
    (ix2 co (⟨j.val, hj⟩ : Fin 224)) (fun b hb => ?_) ?_).trans ?_
  · match b with
    | ⟨0, _⟩ => rfl
    | ⟨1, _⟩ => exact absurd rfl hb
  · show 0 + j.val = j.val; omega
  · unfold wideCorr
    rw [flat224_apply, rep8_apply, corr_apply]

/-- Column 224 of the widened weights is the bias. -/
theorem wide_bias (W : S128x92.Idx → Elt Ideal .f32) (bz : S128.Idx → Elt Ideal .f32) (co : Fin 128) (j : Fin 232) (hj : j.val = 224) :
    wide W bz (ix2 co j) = bz (ix1 co) := by
  unfold wide
  refine (concatenate_apply_piece (t := S128x232) 1 [⟨S128x224, wideCorr W⟩, ⟨S128x1, wideBias bz⟩, ⟨S128x7, wideZero⟩]
    concatenates_S128x224_S128x1_S128x7_S128x232_d1 (ix2 co j) 1 (show (1 : ℕ) < 3 by decide) S128x1 (wideBias bz) rfl rfl 224 rfl
    (ix2 co (0 : Fin 1)) (fun b hb => ?_) ?_).trans ?_
  · match b with
    | ⟨0, _⟩ => rfl
    | ⟨1, _⟩ => exact absurd rfl hb
  · show 224 + 0 = j.val; omega
  · unfold wideBias
    rw [col_apply]

/-- Columns 225..231 of the widened weights are zero. -/
theorem wide_zero (W : S128x92.Idx → Elt Ideal .f32) (bz : S128.Idx → Elt Ideal .f32) (co : Fin 128) (j : Fin 232) (hj : 224 < j.val) :
    wide W bz (ix2 co j) = 0 := by
  unfold wide
  refine (concatenate_apply_piece (t := S128x232) 1 [⟨S128x224, wideCorr W⟩, ⟨S128x1, wideBias bz⟩, ⟨S128x7, wideZero⟩]
    concatenates_S128x224_S128x1_S128x7_S128x232_d1 (ix2 co j) 2 (show (2 : ℕ) < 3 by decide) S128x7 wideZero rfl rfl 225 rfl
    (ix2 co (⟨j.val - 225, by omega⟩ : Fin 7)) (fun b hb => ?_) ?_).trans ?_
  · match b with
    | ⟨0, _⟩ => rfl
    | ⟨1, _⟩ => exact absurd rfl hb
  · show 225 + (j.val - 225) = j.val; omega
  · unfold wideZero
    refine (broadcastInDim_apply _ bcast_S_S128x7 _ _ ix0 (fun a => a.elim0)).trans ?_
    rw [constant_apply, Ideal.ofBits_zero_f32]

/-! ## The input blocks at an index -/

/-- The input windows' block indices at image `t`: the features' window is at `(t, 0, 0)`, the two weight windows at `(0, 0)`. -/
theorem idx012 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0)

/-- The image number of a grid point, as a coordinate of the features' first axis. -/
def imgIx (t : Fin cfg0.N) : Fin 32 := ⟨t.val, lt_of_lt_of_eq t.isLt N_0⟩

/-- Image `t`'s block of features, at channel `c` and flat position `p`: the launched features at image `t`, channel `c`,
    pixel `(p / 64, p % 64)`. -/
theorem iblk0_apply (cdev : Dev nD) (t : Fin cfg0.N) (c : Fin 64) (p : Fin 4096) :
    (iblk m cdev 0 t : Vec Ideal S1x64x4096 .f32) (ix3 (0 : Fin 1) c p)
      = (m ((cdev : Thread nD τ).loc main_arg0) : S32x64x64x64.Idx → Elt Ideal .f32)
          (ix4 (imgIx t) c (⟨p.val / 64, by omega⟩ : Fin 64) (⟨p.val % 64, by omega⟩ : Fin 64)) := by
  obtain ⟨e0, e1, e2, -⟩ := idx012 t
  unfold iblk
  rw [View.read_apply]
  show (V m cdev main_v0 : S32x64x4096.Idx → Elt Ideal .f32) (((cfg0.win 0).blk t).view.emb (ix3 (0 : Fin 1) c p)) = _
  have hi : ((cfg0.win 0).blk t).view.emb (ix3 (0 : Fin 1) c p) = ix3 (imgIx t) c p := by
    funext a; apply Fin.ext
    match a with
    | ⟨0, _⟩ => show win0_0.index t (0 : Fin 3) * 1 + 1 * 0 = t.val; omega
    | ⟨1, _⟩ => show win0_0.index t (1 : Fin 3) * 64 + 1 * c.val = c.val; omega
    | ⟨2, _⟩ => show win0_0.index t (2 : Fin 3) * 4096 + 1 * p.val = p.val; omega
  rw [hi, V_v0, feat_apply]

/-- The raw-feature weights' block (the same at every image): columns 0..63 of the launched weight matrix. -/
theorem iblk1_apply (cdev : Dev nD) (t : Fin cfg0.N) (co : Fin 128) (c : Fin 64) :
    (iblk m cdev 1 t : Vec Ideal S128x64 .f32) (ix2 co c)
      = (m ((cdev : Thread nD τ).loc main_arg1) : S128x92.Idx → Elt Ideal .f32) (ix2 co (⟨c.val, by omega⟩ : Fin 92)) := by
  obtain ⟨-, -, -, e0, e1, -⟩ := idx012 t
  unfold iblk
  rw [View.read_apply]
  show (V m cdev main_v1 : S128x64.Idx → Elt Ideal .f32) (((cfg0.win 1).blk t).view.emb (ix2 co c)) = _
  have hi : ((cfg0.win 1).blk t).view.emb (ix2 co c) = ix2 co c := by
    funext a; apply Fin.ext
    match a with
    | ⟨0, _⟩ => show win0_1.index t (0 : Fin 2) * 128 + 1 * co.val = co.val; omega
    | ⟨1, _⟩ => show win0_1.index t (1 : Fin 2) * 64 + 1 * c.val = c.val; omega
  rw [hi, V_v1, raw_apply]

/-- The widened correlation weights' block (the same at every image) is the whole widened array. -/
theorem iblk2_apply (cdev : Dev nD) (t : Fin cfg0.N) (co : Fin 128) (j : Fin 232) :
    (iblk m cdev 2 t : Vec Ideal S128x232 .f32) (ix2 co j)
      = wide (m ((cdev : Thread nD τ).loc main_arg1)) (m ((cdev : Thread nD τ).loc main_arg2)) (ix2 co j) := by
  obtain ⟨-, -, -, -, -, e0, e1⟩ := idx012 t
  unfold iblk
  rw [View.read_apply]
  show (V m cdev main_v7 : S128x232.Idx → Elt Ideal .f32) (((cfg0.win 2).blk t).view.emb (ix2 co j)) = _
  have hi : ((cfg0.win 2).blk t).view.emb (ix2 co j) = ix2 co j := by
    funext a; apply Fin.ext
    match a with
    | ⟨0, _⟩ => show win0_2.index t (0 : Fin 2) * 128 + 1 * co.val = co.val; omega
    | ⟨1, _⟩ => show win0_2.index t (1 : Fin 2) * 232 + 1 * j.val = j.val; omega
  rw [hi, V_v7]

/-- As a whole block. -/
theorem iblk2_eq (cdev : Dev nD) (t : Fin cfg0.N) :
    (iblk m cdev 2 t : Vec Ideal S128x232 .f32) = wide (m ((cdev : Thread nD τ).loc main_arg1)) (m ((cdev : Thread nD τ).loc main_arg2)) := by
  funext i
  rw [eq_ix2 i]
  exact iblk2_apply m cdev t _ _

/-- Column `j < 224` of the widened weights' block: column `64 + j / 8` of the launched weight matrix. -/
theorem iblk2_corr (cdev : Dev nD) (t : Fin cfg0.N) (co : Fin 128) (j : Fin 232) (hj : j.val < 224) :
    (iblk m cdev 2 t : Vec Ideal S128x232 .f32) (ix2 co j)
      = (m ((cdev : Thread nD τ).loc main_arg1) : S128x92.Idx → Elt Ideal .f32) (ix2 co (⟨64 + j.val / 8, by omega⟩ : Fin 92)) :=
  (iblk2_apply m cdev t co j).trans (wide_corr _ _ co j hj)

/-- Column 224 of the widened weights' block: the launched bias. -/
theorem iblk2_bias (cdev : Dev nD) (t : Fin cfg0.N) (co : Fin 128) (j : Fin 232) (hj : j.val = 224) :
    (iblk m cdev 2 t : Vec Ideal S128x232 .f32) (ix2 co j)
      = (m ((cdev : Thread nD τ).loc main_arg2) : S128.Idx → Elt Ideal .f32) (ix1 co) :=
  (iblk2_apply m cdev t co j).trans (wide_bias _ _ co j hj)

/-- Columns 225..231 of the widened weights' block: zero. -/
theorem iblk2_zero (cdev : Dev nD) (t : Fin cfg0.N) (co : Fin 128) (j : Fin 232) (hj : 224 < j.val) :
    (iblk m cdev 2 t : Vec Ideal S128x232 .f32) (ix2 co j) = (0 : EReal) :=
  (iblk2_apply m cdev t co j).trans (wide_zero _ _ co j hj)

end Inputs

/-! ## The input blocks in the specification's vocabulary (arrays on natural-number indices, zero outside their extents) -/

section SpecForm

variable (m : (ℓ : Loc nD τ sig) → Buf (Elt Ideal) ℓ)

/-- Image `b`'s block of features is image `b`'s raw features of the specification. -/
theorem iblk0_spec (cdev : Dev nD) (t : Fin cfg0.N) (b : Fin 32) (hb : b.val = t.val) (c : Fin 64) (p : Fin 4096) :
    (iblk m cdev 0 t : Vec Ideal S1x64x4096 .f32) (ix3 (0 : Fin 1) c p)
      = Cert.SpecArrays.Xof (m ((cdev : Thread nD τ).loc main_arg0)) b c.val p.val := by
  obtain rfl : b = imgIx t := Fin.ext hb
  rw [iblk0_apply]
  unfold Cert.SpecArrays.Xof
  rw [dif_pos ⟨c.isLt, p.isLt⟩]

/-- The raw-feature weights' block is the specification's weight matrix at columns 0..63. -/
theorem iblk1_spec (cdev : Dev nD) (t : Fin cfg0.N) (co : Fin 128) (c : Fin 64) :
    (iblk m cdev 1 t : Vec Ideal S128x64 .f32) (ix2 co c)
      = Cert.SpecArrays.WTof (m ((cdev : Thread nD τ).loc main_arg1)) co.val c.val := by
  rw [iblk1_apply]
  unfold Cert.SpecArrays.WTof
  rw [dif_pos ⟨co.isLt, by omega⟩]

/-- The widened correlation weights' block is the specification's left operand of the second product. -/
theorem iblk2_spec (cdev : Dev nD) (t : Fin cfg0.N) (co : Fin 128) (j : Fin 232) :
    (iblk m cdev 2 t : Vec Ideal S128x232 .f32) (ix2 co j)
      = Cert.Spec.w2 (Cert.SpecArrays.WTof (m ((cdev : Thread nD τ).loc main_arg1)))
          (Cert.SpecArrays.Bof (m ((cdev : Thread nD τ).loc main_arg2))) co.val j.val := by
  unfold Cert.Spec.w2
  by_cases h1 : j.val < 224
  · rw [if_pos h1, iblk2_corr m cdev t co j h1]
    unfold Cert.SpecArrays.WTof
    rw [dif_pos ⟨co.isLt, by omega⟩]
  · rw [if_neg h1]
    by_cases h2 : j.val = 224
    · rw [if_pos h2, iblk2_bias m cdev t co j h2]
      unfold Cert.SpecArrays.Bof
      rw [dif_pos co.isLt]
    · rw [if_neg h2]
      exact iblk2_zero m cdev t co j (by omega)

end SpecForm

/-! # The output side: from the per-image output blocks to the result array -/

section Output

variable {F : FTy → Type} [FloatOps F]

/-- The output window's block index at image `t` is `(t, 0, 0)`. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- The image an index of the 32 x 128 x 4096 array belongs to, as a grid point. -/
def imgOf (i : S32x128x4096.Idx) : Fin cfg0.N := ⟨(i 0).val, lt_of_lt_of_eq (i 0).isLt N_0.symm⟩

/-- A family of per-image blocks laid out as one 32 x 128 x 4096 array: image `b`, row `co`, position `p` is block `b` at `(0, co, p)`. -/
def stack (O : Fin cfg0.N → Vec F S1x128x4096 .f32) : S32x128x4096.Idx → Elt F .f32 :=
  fun i => O (imgOf i) (ix3 (0 : Fin 1) (⟨(i 1).val, (i 1).isLt⟩ : Fin 128) (⟨(i 2).val, (i 2).isLt⟩ : Fin 4096))

/-- Block `t` of the stacked array, read through the output window, is the `t`-th block of the family. -/
theorem cut_eq_read (O : Fin cfg0.N → Vec F S1x128x4096 .f32) (t : Fin cfg0.N) :
    (cfg0.win 3).cut (grid0.coords t) (O t) = ((cfg0.win 3).blk t).view.read (Elt F) (stack O) := by
  obtain ⟨e0, e1, e2⟩ := idx3 t
  funext j
  rw [View.read_apply]
  show O t ((cfg0.win 3).xinj (grid0.coords t) j) = stack O (((cfg0.win 3).blk t).view.emb j)
  have hj0 : (j 0).val < 1 := (j 0).isLt
  have h0 : ((((cfg0.win 3).blk t).view.emb j) 0).val = t.val := by
    show win0_3.index t (0 : Fin 3) * 1 + 1 * (j 0).val = t.val
    omega
  have h1 : ((((cfg0.win 3).blk t).view.emb j) 1).val = (j 1).val := by
    show win0_3.index t (1 : Fin 3) * 128 + 1 * (j 1).val = (j 1).val
    omega
  have h2 : ((((cfg0.win 3).blk t).view.emb j) 2).val = (j 2).val := by
    show win0_3.index t (2 : Fin 3) * 4096 + 1 * (j 2).val = (j 2).val
    omega
  generalize ((cfg0.win 3).blk t).view.emb j = i at h0 h1 h2
  unfold stack
  have ht : imgOf i = t := Fin.ext h0
  rw [ht]
  refine congrArg (O t) ?_
  funext a
  apply Fin.ext
  match a with
  | ⟨0, _⟩ => show (j 0).val = 0; omega
  | ⟨1, _⟩ => exact h1.symm
  | ⟨2, _⟩ => exact h2.symm

/-- An index of the array lies in image `t`'s block iff each coordinate is in the block's range on its axis. -/
theorem mem_blk3 (t : Fin cfg0.N) (i : S32x128x4096.Idx) :
    i ∈ ((cfg0.win 3).blk t).view.set ↔ ∀ a : Fin 3, win0_3.index t a * S1x128x4096.size a ≤ (i a).val ∧ (i a).val < win0_3.index t a * S1x128x4096.size a + S1x128x4096.size a := by
  show i ∈ ((View.whole main_v8).slice (win0_3.rect t)).set ↔ _
  rw [View.set_slice_whole, Rect.mem_set_unit]
  exact Iff.rfl

/-- Every index of the array lies in the block of its own image: the 32 blocks tile the array. -/
theorem cover3 (i : S32x128x4096.Idx) : ∃ t : Fin cfg0.N, (cfg0.win 3).flush t = true ∧ i ∈ ((cfg0.win 3).blk t).view.set := by
  refine ⟨imgOf i, flush0_3 _, ?_⟩
  obtain ⟨e0, e1, e2⟩ := idx3 (imgOf i)
  have e0' : win0_3.index (imgOf i) (0 : Fin 3) = (i 0).val := e0
  have hi1 : (i 1).val < 128 := (i 1).isLt
  have hi2 : (i 2).val < 4096 := (i 2).isLt
  rw [mem_blk3]
  intro a
  match a with
  | ⟨0, _⟩ => show win0_3.index (imgOf i) (0 : Fin 3) * 1 ≤ (i 0).val ∧ (i 0).val < win0_3.index (imgOf i) (0 : Fin 3) * 1 + 1; omega
  | ⟨1, _⟩ => show win0_3.index (imgOf i) (1 : Fin 3) * 128 ≤ (i 1).val ∧ (i 1).val < win0_3.index (imgOf i) (1 : Fin 3) * 128 + 128; omega
  | ⟨2, _⟩ => show win0_3.index (imgOf i) (2 : Fin 3) * 4096 ≤ (i 2).val ∧ (i 2).val < win0_3.index (imgOf i) (2 : Fin 3) * 4096 + 4096; omega

variable (m : (ℓ : Loc nD τ sig) → Buf (Elt Ideal) ℓ) (ρ : Dev nD → PrngReg)

/-- What image `t`'s grid point writes back is block `t` of the stacked output blocks. -/
theorem flushed3_eq (cdev : Dev nD) (t : Fin cfg0.N) :
    (dats (F := Ideal) m 0 cdev).flushed 3 t = ((cfg0.win 3).blk t).view.read (Elt Ideal) (stack (F := Ideal) (outAt m cdev)) := by
  show (cfg0.win 3).cut (grid0.coords t) ((dats (F := Ideal) m 0 cdev).after 3 t) = _
  rw [after0_3]
  exact cut_eq_read (outAt m cdev) t

/-- After the region the output array holds, at image `b`, row `co`, position `p`, what the body wrote for image `b` at `(0, co, p)`. -/
theorem final3 (cdev : Dev nD) : (dats (F := Ideal) m 0 cdev).arrAt 3 cfg0.N = stack (F := Ideal) (outAt m cdev) :=
  (dats (F := Ideal) m 0 cdev).arrAt_eq_of_cover 3 (stack (F := Ideal) (outAt m cdev)) (fun t _ => flushed3_eq m cdev t) cover3

/-- A family of per-image blocks laid out as the 32 x 128 x 64 x 64 result: image `b`, row `co`, pixel `(h, w)` is block `b` at
    `(0, co, 64 h + w)`. -/
def stack4 {F : FTy → Type} [FloatOps F] (O : Fin cfg0.N → Vec F S1x128x4096 .f32) : S32x128x64x64.Idx → Elt F .f32 :=
  fun i => O ⟨(i 0).val, lt_of_lt_of_eq (i 0).isLt N_0.symm⟩
    (ix3 (0 : Fin 1) (⟨(i 1).val, (i 1).isLt⟩ : Fin 128)
      (⟨64 * (i 2).val + (i 3).val, by have h2 : (i 2).val < 64 := (i 2).isLt; have h3 : (i 3).val < 64 := (i 3).isLt; omega⟩ : Fin 4096))

/-- Reshaping the stacked 32 x 128 x 4096 array to 32 x 128 x 64 x 64 splits the flat position `p` as `(p / 64, p % 64)`. -/
theorem reshape_stack {F : FTy → Type} [FloatOps F] (O : Fin cfg0.N → Vec F S1x128x4096 .f32) (hn : S32x128x4096.ShapeCasts S32x128x64x64) :
    shapeCast S32x128x64x64 (stack O) hn = stack4 O := by
  funext i
  have h0 : (i 0).val < 32 := (i 0).isLt
  have h1 : (i 1).val < 128 := (i 1).isLt
  have h2 : (i 2).val < 64 := (i 2).isLt
  have h3 : (i 3).val < 64 := (i 3).isLt
  refine (shapeCast_apply (stack O) hn i (ix3 (⟨(i 0).val, h0⟩ : Fin 32) (⟨(i 1).val, h1⟩ : Fin 128) (⟨64 * (i 2).val + (i 3).val, by omega⟩ : Fin 4096)) (by
    rw [Shape.rowMajor_val_three, Shape.rowMajor_val_four]
    show ((i 0).val * 128 + (i 1).val) * 4096 + (64 * (i 2).val + (i 3).val) = (((i 0).val * 128 + (i 1).val) * 64 + (i 2).val) * 64 + (i 3).val
    omega)).trans ?_
  rfl

/-- The program's result on core `cdev`: at image `b`, row `co`, pixel `(h, w)`, what the body wrote for image `b` at `(0, co, 64 h + w)`. -/
def Res (cdev : Dev nD) : S32x128x64x64.Idx → Elt Ideal .f32 := stack4 (F := Ideal) (outAt m cdev)

/-- The grid point of image `b`. -/
def ptOf (b : Fin 32) : Fin cfg0.N := ⟨b.val, lt_of_lt_of_eq b.isLt N_0.symm⟩

/-- The image number of image `b`'s grid point is `b`. -/
theorem imgIx_ptOf (b : Fin 32) : imgIx (ptOf b) = b := rfl

/-- The result at image `b`, row `co`, pixel `(h, w)`. -/
theorem Res_apply (cdev : Dev nD) (b : Fin 32) (co : Fin 128) (h w : Fin 64) :
    Res m cdev (ix4 b co h w) = outAt m cdev (ptOf b) (ix3 (0 : Fin 1) co (⟨64 * h.val + w.val, by omega⟩ : Fin 4096)) := rfl

/-- What the final reshape leaves in the result buffer. -/
theorem tail_v9 (cdev : Dev nD) :
    Pipeline.afterTail₀ cfgs (dats (F := Ideal) m) 0 (V0 m) [hostOps1] cdev main_v9 = Res m cdev := by
  unfold Pipeline.afterTail₀
  show StableHlo.after hostOps1 _ (Proc.devRef .tc main_v9) = _
  after_results
  have e : Pipeline.withArrays (cfgs 0).spec cdev (V0 m cdev) (fun w => (dats (F := Ideal) m 0 cdev).arrAt w (cfgs 0).N) (Proc.devRef .tc main_v8)
      = stack (F := Ideal) (outAt m cdev) :=
    (Pipeline.withArrays_arr spec0 launch0.win.arr_inj cdev _ _ 3).trans (final3 m cdev)
  rw [e]
  exact reshape_stack (outAt m cdev) _

/-- The program run from any launch memory with zero counters: it terminates without fault, the result buffer holds
    `Res`, and features, weights and bias end as launched. -/
theorem run_result : θ_run defs (onTc (τ := τ) (main (F := Ideal))) (s₀ m ρ) (fun r => ∀ cdev : Dev nD,
      r.2.mem ((cdev.tc : Thread nD τ).loc main_v9) = Res m cdev
      ∧ r.2.mem ((cdev.tc : Thread nD τ).loc main_arg0) = m ((cdev.tc : Thread nD τ).loc main_arg0)
      ∧ r.2.mem ((cdev.tc : Thread nD τ).loc main_arg1) = m ((cdev.tc : Thread nD τ).loc main_arg1)
      ∧ r.2.mem ((cdev.tc : Thread nD τ).loc main_arg2) = m ((cdev.tc : Thread nD τ).loc main_arg2)) :=
  (θ_run defs _ _).mono (fun _ h c =>
    ⟨((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Output

end Cert.KernelIdeal.Arrays

end
-- ==== Proof.KIPay.lean ====
/-
  What the body stores in the output block, as one term over its three input blocks.

  The body keeps the normalized features in the first 4096 columns of its scratch and zeroes the 256 columns after
  them; each correlation window is a read of 64 x 4096 words of that scratch starting at a lane offset between 0 and
  195. Since the two stores tile the scratch, such a read is a function of the two stored values alone (`Wn`), and
  the output block is the body's arithmetic applied to the input blocks and these thirteen windows (`PV`).
-/
import proofs.«147926_g2000405799366230_pallasbulk_257_2_alg».proof.Proof.KIFrame
import Idealize.ShloMosaic.Lib.Pipeline.Value

set_option maxRecDepth 16384

noncomputable section

namespace Cert.KernelIdeal.Pay

open Cert.KernelIdeal Cert.KernelIdeal.Gen Cert.KernelIdeal.Kit Cert.KernelIdeal.Body Cert.KernelIdeal.Frame
open Idealize.ShloMosaic Idealize.ShloMosaic.TcCoe Idealize.ShloMosaic.Tactic
open Idealize.SL Idealize.SL.Sem

variable {F : FTy → Type} [FloatOps F]

/-- The scratch after the body's two stores into it, as pieces (last first): zeros in columns 4096..4351, the
    normalized features in columns 0..4095. -/
def padPieces (x0 : Vec F S1x64x4096 .f32) : List (View.Piece (Elt F) S64x4352 .f32) :=
  [⟨Rect.unit (s := S64x4352) ![0, 4096] S64x256.size inb_S64x4352_S64x256_0_4096, k0_pay5⟩,
   ⟨Rect.unit (s := S64x4352) ![0, 0] S64x4096.size inb_S64x4352_S64x4096_0_0, k0_pay4 x0⟩]

/-- The window of the scratch at lane offset `δ`: 64 rows of the 4096 words starting at column `δ`. -/
def Wn (x0 : Vec F S1x64x4096 .f32) (δ : ℕ) (h : ∀ a, (![0, δ] : Fin 2 → ℕ) a + S64x4096.size a ≤ S64x4352.size a) : Vec F S64x4096 .f32 :=
  fun j => View.canon (padPieces x0) ((Rect.unit (s := S64x4352) ![0, δ] S64x4096.size h).toLoadRect.idx j)

/-- The output block as the body's arithmetic over the input blocks and the thirteen windows. -/
def PV (x0 : Vec F S1x64x4096 .f32) (x1 : Vec F S128x64 .f32) (x2 : Vec F S128x232 .f32) : Vec F S1x128x4096 .f32 :=
  k0_pay1 (k0_pay30 (k0_pay3 x0) k0_pay7 (k0_pay8 x0 (Wn x0 195 inb_S64x4352_S64x4096_0_195)) (k0_pay9 x0 (Wn x0 195 inb_S64x4352_S64x4096_0_195)) (k0_pay11 k0_pay6 61#32) (k0_pay12 k0_pay6 (k0_pay10 x0 (Wn x0 130 inb_S64x4352_S64x4096_0_130)) 61#32) (k0_pay13 k0_pay6 (k0_pay10 x0 (Wn x0 130 inb_S64x4352_S64x4096_0_130)) 61#32) (k0_pay14 k0_pay6) (k0_pay15 (k0_pay3 x0) k0_pay6 (Wn x0 65 inb_S64x4352_S64x4096_0_65)) (k0_pay16 (k0_pay3 x0) k0_pay6 (Wn x0 65 inb_S64x4352_S64x4096_0_65)) (k0_pay17 (k0_pay3 x0) (Wn x0 0 inb_S64x4352_S64x4096_0_0)) (k0_pay18 (k0_pay3 x0) (Wn x0 192 inb_S64x4352_S64x4096_0_192)) (k0_pay19 (k0_pay3 x0) (Wn x0 192 inb_S64x4352_S64x4096_0_192)) (k0_pay20 (k0_pay3 x0) (Wn x0 128 inb_S64x4352_S64x4096_0_128)) (k0_pay21 (k0_pay3 x0) (Wn x0 128 inb_S64x4352_S64x4096_0_128)) (k0_pay22 (k0_pay3 x0) (Wn x0 64 inb_S64x4352_S64x4096_0_64)) (k0_pay23 (k0_pay3 x0) (Wn x0 64 inb_S64x4352_S64x4096_0_64)) (k0_pay24 (k0_pay3 x0) k0_pay6 (Wn x0 189 inb_S64x4352_S64x4096_0_189)) (k0_pay25 (k0_pay3 x0) k0_pay6 (Wn x0 189 inb_S64x4352_S64x4096_0_189)) (k0_pay26 (k0_pay3 x0) k0_pay6 (Wn x0 126 inb_S64x4352_S64x4096_0_126)) (k0_pay27 (k0_pay3 x0) k0_pay6 (Wn x0 126 inb_S64x4352_S64x4096_0_126)) (k0_pay28 (k0_pay3 x0) k0_pay6 (Wn x0 63 inb_S64x4352_S64x4096_0_63)) k0_pay29 (Wn x0 3 inb_S64x4352_S64x4096_0_3) (Wn x0 2 inb_S64x4352_S64x4096_0_2) (Wn x0 1 inb_S64x4352_S64x4096_0_1)) (k0_pay31 (k0_pay2 x0) x1) x2

theorem hz3 : (![0, 0, 0] : Fin 3 → ℕ) = fun _ => 0 := by funext a; fin_cases a <;> rfl
theorem hz2 : (![0, 0] : Fin 2 → ℕ) = fun _ => 0 := by funext a; fin_cases a <;> rfl

set_option maxHeartbeats 2000000 in
/-- What the body leaves in the output buffer is `PV` of its input blocks, on whatever memrefs it ran. -/
theorem outO_eq (c : Dev nD) (i : grid0.Coords)
    (arg1 : Memref sig .tc .vmem S1x64x4096 .f32) (harg1 : arg1.IsWhole) (arg2 : Memref sig .tc .vmem S128x64 .f32) (harg2 : arg2.IsWhole)
    (arg3 : Memref sig .tc .vmem S128x232 .f32) (harg3 : arg3.IsWhole) (arg4 : Memref sig .tc .vmem S1x128x4096 .f32) (harg4 : arg4.IsWhole)
    (arg5 : Memref sig .tc .vmem S64x4352 .f32) (harg5 : arg5.IsWhole)
    (x0 : Vec F S1x64x4096 .f32) (x1 : Vec F S128x64 .f32) (x2 : Vec F S128x232 .f32) :
    outO c i arg1 harg1 arg2 harg2 arg3 harg3 arg4 harg4 arg5 harg5 x0 x1 x2 = PV x0 x1 x2 := by
  unfold outO
  rw [View.read_writes_eq_canon _ _ _ (coverO c i arg1 harg1 arg2 harg2 arg3 harg3 arg4 harg4 arg5 harg5 x0 x1 x2)]
  unfold kernelRun
  dsimp only
  sl_unfold_run_names
  rw [View.canon_unit_zero hz3]
  simp only [View.readAt_eq_ld, harg1.read_unread, harg2.read_unread, harg3.read_unread,
    View.ld_unit_zero (S := S1x64x4096) hz3, View.ld_unit_zero (S := S128x64) hz2, View.ld_unit_zero (S := S128x232) hz2,
    View.readCov_eq_canon']
  rfl

/-- So the output block of grid point `t` is `PV` of that point's input blocks. -/
theorem outAt_eq (m : (ℓ : Loc nD τ sig) → Buf (Elt F) ℓ) (c : Dev nD) (t : Fin cfg0.N) :
    outAt m c t = PV (iblk m c 0 t) (iblk m c 1 t) (iblk m c 2 t) := by
  unfold outAt; exact outO_eq c _ _ _ _ _ _ _ _ _ _ _ _ _ _

end Cert.KernelIdeal.Pay

end
-- ==== Proof.KIWin.lean ====
/-
  A window of the padded scratch, read at an index.

  The scratch holds the normalized features in columns 0..4095 and zeros in columns 4096..4351. The window at lane
  offset δ, read at channel row c and position p, is therefore the normalized feature of channel c at position p + δ
  when that is still inside the image, and the stored zero otherwise.
-/
import proofs.«147926_g2000405799366230_pallasbulk_257_2_alg».proof.Proof.KIPay
import Idealize.ShloMosaic.Lib.ValueIdx

set_option maxRecDepth 16384

noncomputable section

namespace Cert.KernelIdeal.Pay

open Cert.KernelIdeal Cert.KernelIdeal.Gen
open Idealize.ShloMosaic Idealize.ShloMosaic.ValueIdx

variable {F : FTy → Type} [FloatOps F]

/-- Inside the image: the window reads the stored normalized features, δ columns further on. -/
theorem Wn_lt (x0 : Vec F S1x64x4096 .f32) (δ : ℕ) (h : ∀ a, (![0, δ] : Fin 2 → ℕ) a + S64x4096.size a ≤ S64x4352.size a)
    (c : Fin 64) (p : Fin 4096) (hp : p.val + δ < 4096) :
    Wn x0 δ h (ix2 c p) = k0_pay4 x0 (ix2 c ⟨p.val + δ, hp⟩) := by
  unfold Wn padPieces
  have hy : (Rect.unit (s := S64x4352) ![0, δ] S64x4096.size h).toLoadRect.idx (ix2 c p)
      = (Rect.unit (s := S64x4352) ![0, 0] S64x4096.size inb_S64x4352_S64x4096_0_0).emb (ix2 c ⟨p.val + δ, hp⟩) := by
    refine funext fun a => Fin.ext ?_
    rw [LoadRect.idx_apply, Rect.emb_apply]
    match a with
    | ⟨0, _⟩ => show 0 + 1 * c.val = 0 + 1 * c.val; rfl
    | ⟨1, _⟩ => show δ + 1 * p.val = 0 + 1 * (p.val + δ); omega
  rw [hy, View.canon_cons_of_not_mem, View.canon_cons_emb]
  intro hm
  have hm' : (Rect.unit (s := S64x4352) ![0, 0] S64x4096.size inb_S64x4352_S64x4096_0_0).emb (ix2 c ⟨p.val + δ, hp⟩)
      ∈ (Rect.unit (s := S64x4352) ![0, 4096] S64x256.size inb_S64x4352_S64x256_0_4096).set := hm
  have h1 := (Rect.mem_set_unit.mp hm') ⟨1, by decide⟩
  have e : (((Rect.unit (s := S64x4352) ![0, 0] S64x4096.size inb_S64x4352_S64x4096_0_0).emb (ix2 c ⟨p.val + δ, hp⟩)) ⟨1, by decide⟩ : ℕ) = 0 + 1 * (p.val + δ) := rfl
  have h2 : (4096 : ℕ) ≤ _ := h1.1
  rw [e] at h2
  omega

/-- Past the image's end: the window reads the stored zeros. -/
theorem Wn_ge (x0 : Vec F S1x64x4096 .f32) (δ : ℕ) (h : ∀ a, (![0, δ] : Fin 2 → ℕ) a + S64x4096.size a ≤ S64x4352.size a)
    (c : Fin 64) (p : Fin 4096) (hp : 4096 ≤ p.val + δ) :
    Wn x0 δ h (ix2 c p) = k0_pay5 (F := F) (ix2 c ⟨p.val + δ - 4096, by have := h ⟨1, by decide⟩; have e : (![0, δ] : Fin 2 → ℕ) ⟨1, by decide⟩ + S64x4096.size ⟨1, by decide⟩ ≤ S64x4352.size ⟨1, by decide⟩ := this; have e' : δ + 4096 ≤ 4352 := e; have := p.isLt; omega⟩) := by
  unfold Wn padPieces
  have hy : (Rect.unit (s := S64x4352) ![0, δ] S64x4096.size h).toLoadRect.idx (ix2 c p)
      = (Rect.unit (s := S64x4352) ![0, 4096] S64x256.size inb_S64x4352_S64x256_0_4096).emb (ix2 c ⟨p.val + δ - 4096, by have := h ⟨1, by decide⟩; have e : (![0, δ] : Fin 2 → ℕ) ⟨1, by decide⟩ + S64x4096.size ⟨1, by decide⟩ ≤ S64x4352.size ⟨1, by decide⟩ := this; have e' : δ + 4096 ≤ 4352 := e; have := p.isLt; omega⟩) := by
    refine funext fun a => Fin.ext ?_
    rw [LoadRect.idx_apply, Rect.emb_apply]
    match a with
    | ⟨0, _⟩ => show 0 + 1 * c.val = 0 + 1 * c.val; rfl
    | ⟨1, _⟩ => show δ + 1 * p.val = 4096 + 1 * (p.val + δ - 4096); omega
  rw [hy, View.canon_cons_emb]

end Cert.KernelIdeal.Pay

end
-- ==== Proof.KIVal1.lean ====
/-
  The windows and the normalized features as total arrays.

  The normalized features of one image, extended by zero outside 64 channels x 4096 positions, are the array the
  correlation identity is stated over; a window of the padded scratch at lane offset δ is that array's zero-padded
  shift by δ positions.
-/
import proofs.«147926_g2000405799366230_pallasbulk_257_2_alg».proof.Proof.KIWin
import proofs.«147926_g2000405799366230_pallasbulk_257_2_alg».proof.Proof.SpecAlgebra
import Idealize.ShloMosaic.PureOps.Ideal.Laws
import Idealize.ShloMosaic.Lib.Pipeline.Value

set_option maxRecDepth 16384

noncomputable section

namespace Cert.KernelIdeal.Val

open Cert.KernelIdeal Cert.KernelIdeal.Gen Cert.KernelIdeal.Pay
open Idealize.ShloMosaic Idealize.ShloMosaic.ValueIdx

/-- A [64, 4096] array of extended reals as a total array on ℕ × ℕ, zero outside. -/
def tot (v : FVec Ideal S64x4096 .f32) : ℕ → ℕ → EReal :=
  fun a b => if h : a < 64 ∧ b < 4096 then v (ix2 ⟨a, h.1⟩ ⟨b, h.2⟩) else 0

theorem tot_apply (v : FVec Ideal S64x4096 .f32) (c : Fin 64) (p : Fin 4096) : tot v c.val p.val = v (ix2 c p) := by
  unfold tot; rw [dif_pos ⟨c.isLt, p.isLt⟩]

/-- The normalized features of the image in block `x0`, as a total array. -/
def XN (x0 : Vec Ideal S1x64x4096 .f32) : ℕ → ℕ → EReal := tot (k0_pay3 (F := Ideal) x0)

/-- The window at lane offset δ is the zero-padded shift of the normalized features. -/
theorem Wn_val (x0 : Vec Ideal S1x64x4096 .f32) (δ : ℕ) (h : ∀ a, (![0, δ] : Fin 2 → ℕ) a + S64x4096.size a ≤ S64x4352.size a)
    (c : Fin 64) (p : Fin 4096) :
    Wn (F := Ideal) x0 δ h (ix2 c p) = Cert.Spec.pad (XN x0) c.val (p.val + δ) := by
  unfold Cert.Spec.pad
  by_cases hp : p.val + δ < 4096
  · rw [if_pos hp, Wn_lt x0 δ h c p hp]
    unfold k0_pay4
    rw [shapeCast_self]
    exact (tot_apply (k0_pay3 (F := Ideal) x0) c ⟨p.val + δ, hp⟩).symm
  · rw [if_neg hp, Wn_ge x0 δ h c p (by omega)]
    unfold k0_pay5
    rw [shapeCast_self]
    exact Ideal.ofBits_zero_f32

end Cert.KernelIdeal.Val

end
-- ==== Proof.KITiles.lean ====
/-
  The 29 tiles the body stacks for the correlation product, named.

  A positive tile is, per sublane row k and position p, the sum over the eight channel groups g of the window's
  entry at channel 8g+k times the normalized feature at channel 8g+k, times a 0/1 column mask when the shift moves
  columns; a negative tile is its mirrored positive tile moved up by the lane offset, with zeros moved in; the last
  tile is 1 on its first row and 0 elsewhere. The stack follows the 28 shifts' order (diagonal, vertical,
  anti-diagonal, horizontal), each row of seven running from offset -3 to +3.
-/
import proofs.«147926_g2000405799366230_pallasbulk_257_2_alg».proof.Proof.KIPay

set_option maxRecDepth 16384

noncomputable section

namespace Cert.KernelIdeal.Tiles

open Cert.KernelIdeal Cert.KernelIdeal.Gen Cert.KernelIdeal.Pay
open Idealize.ShloMosaic

variable {F : FTy → Type} [FloatOps F]

/-- Eight partial channel sums: row k holds the sum over the groups g of (win · xn) at channel 8g+k. -/
def posT (win xn : FVec F S64x4096 .f32) : FVec F S8x4096 .f32 :=
  multiReduction .add [0] S8x4096 (shapeCast S8x8x4096 (mulf win xn) shapeCasts_S64x4096_S8x8x4096) 0x00000000#32 reduces_S8x8x4096_S8x4096 (.inl rfl) rfl
/-- A per-position row, repeated down the eight sublane rows. -/
def bm (v : FVec F S1x4096 .f32) : FVec F S8x4096 .f32 := broadcastTo S8x4096 v broadcasts_S1x4096_S8x4096
/-- The 0/1 mask of the positions whose column (position mod 64) is at most n. -/
def mLe (n : BitVec 32) : FVec F S1x4096 .f32 := sitofp .f32 (extui 32 (cmpi .sle k0_pay6 (broadcast S1x4096 n)) natLt_1_32)
/-- The 0/1 mask of the positions whose column is at least n. -/
def mGe (n : BitVec 32) : FVec F S1x4096 .f32 := sitofp .f32 (extui 32 (cmpi .sge k0_pay6 (broadcast S1x4096 n)) natLt_1_32)
/-- A masked positive tile. -/
def posM (win xn : FVec F S64x4096 .f32) (v : FVec F S1x4096 .f32) : FVec F S8x4096 .f32 := mulf (posT win xn) (bm v)
/-- A tile moved D lanes up: D zero lanes, then the tile's first E = 4096 - D lanes. -/
def negT (D E : ℕ) (hs : S8x4096.Slices ![0, 0] (⟨2, ![8, E]⟩ : Shape)) (hc : Shape.Concatenates [(⟨2, ![8, D]⟩ : Shape), (⟨2, ![8, E]⟩ : Shape)] S8x4096 1)
    (T : FVec F S8x4096 .f32) : FVec F S8x4096 .f32 :=
  concatenate S8x4096 1 [⟨(⟨2, ![8, D]⟩ : Shape), broadcast (⟨2, ![8, D]⟩ : Shape) (Scalar.ofBits .f32 0x00000000#32 : F .f32)⟩, ⟨(⟨2, ![8, E]⟩ : Shape), extractStridedSlice (⟨2, ![8, E]⟩ : Shape) ![0, 0] T hs⟩] hc
/-- The tile that carries the bias column: 1 on row 0, 0 on the other rows. -/
def onesT : FVec F S8x4096 .f32 :=
  select (cmpi .eq (iota .tc S8x4096 32 [0] iota_S8x4096_d0_w32) (broadcast S8x4096 0#32)) (broadcast S8x4096 (Scalar.ofBits .f32 0x3F800000#32 : F .f32)) (broadcast S8x4096 (Scalar.ofBits .f32 0x00000000#32 : F .f32))

/-- The correlation tile of lane offset 0. -/
def P0 (x0 : Vec F S1x64x4096 .f32) : FVec F S8x4096 .f32 := posT (Wn x0 0 inb_S64x4352_S64x4096_0_0) (k0_pay3 x0)
/-- The correlation tile of lane offset 1. -/
def P1 (x0 : Vec F S1x64x4096 .f32) : FVec F S8x4096 .f32 := posM (Wn x0 1 inb_S64x4352_S64x4096_0_1) (k0_pay3 x0) (mLe 62#32)
/-- The correlation tile of lane offset 2. -/
def P2 (x0 : Vec F S1x64x4096 .f32) : FVec F S8x4096 .f32 := posM (Wn x0 2 inb_S64x4352_S64x4096_0_2) (k0_pay3 x0) (mLe 61#32)
/-- The correlation tile of lane offset 3. -/
def P3 (x0 : Vec F S1x64x4096 .f32) : FVec F S8x4096 .f32 := posM (Wn x0 3 inb_S64x4352_S64x4096_0_3) (k0_pay3 x0) (mLe 60#32)
/-- The correlation tile of lane offset 63. -/
def P63 (x0 : Vec F S1x64x4096 .f32) : FVec F S8x4096 .f32 := posM (Wn x0 63 inb_S64x4352_S64x4096_0_63) (k0_pay3 x0) (mGe 1#32)
/-- The correlation tile of lane offset 64. -/
def P64 (x0 : Vec F S1x64x4096 .f32) : FVec F S8x4096 .f32 := posT (Wn x0 64 inb_S64x4352_S64x4096_0_64) (k0_pay3 x0)
/-- The correlation tile of lane offset 65. -/
def P65 (x0 : Vec F S1x64x4096 .f32) : FVec F S8x4096 .f32 := posM (Wn x0 65 inb_S64x4352_S64x4096_0_65) (k0_pay3 x0) (mLe 62#32)
/-- The correlation tile of lane offset 126. -/
def P126 (x0 : Vec F S1x64x4096 .f32) : FVec F S8x4096 .f32 := posM (Wn x0 126 inb_S64x4352_S64x4096_0_126) (k0_pay3 x0) (mGe 2#32)
/-- The correlation tile of lane offset 128. -/
def P128 (x0 : Vec F S1x64x4096 .f32) : FVec F S8x4096 .f32 := posT (Wn x0 128 inb_S64x4352_S64x4096_0_128) (k0_pay3 x0)
/-- The correlation tile of lane offset 130. -/
def P130 (x0 : Vec F S1x64x4096 .f32) : FVec F S8x4096 .f32 := posM (Wn x0 130 inb_S64x4352_S64x4096_0_130) (k0_pay3 x0) (mLe 61#32)
/-- The correlation tile of lane offset 189. -/
def P189 (x0 : Vec F S1x64x4096 .f32) : FVec F S8x4096 .f32 := posM (Wn x0 189 inb_S64x4352_S64x4096_0_189) (k0_pay3 x0) (mGe 3#32)
/-- The correlation tile of lane offset 192. -/
def P192 (x0 : Vec F S1x64x4096 .f32) : FVec F S8x4096 .f32 := posT (Wn x0 192 inb_S64x4352_S64x4096_0_192) (k0_pay3 x0)
/-- The correlation tile of lane offset 195. -/
def P195 (x0 : Vec F S1x64x4096 .f32) : FVec F S8x4096 .f32 := posM (Wn x0 195 inb_S64x4352_S64x4096_0_195) (k0_pay3 x0) (mLe 60#32)
/-- The tile of lane offset -195: the tile of offset 195 moved 195 lanes up, zeros moved in. -/
def N195 (x0 : Vec F S1x64x4096 .f32) : FVec F S8x4096 .f32 := negT 195 3901 slices_S8x4096_o0_0_S8x3901 concatenates_S8x195_S8x3901_S8x4096_d1 (P195 x0)
/-- The tile of lane offset -130: the tile of offset 130 moved 130 lanes up, zeros moved in. -/
def N130 (x0 : Vec F S1x64x4096 .f32) : FVec F S8x4096 .f32 := negT 130 3966 slices_S8x4096_o0_0_S8x3966 concatenates_S8x130_S8x3966_S8x4096_d1 (P130 x0)
/-- The tile of lane offset -65: the tile of offset 65 moved 65 lanes up, zeros moved in. -/
def N65 (x0 : Vec F S1x64x4096 .f32) : FVec F S8x4096 .f32 := negT 65 4031 slices_S8x4096_o0_0_S8x4031 concatenates_S8x65_S8x4031_S8x4096_d1 (P65 x0)
/-- The tile of lane offset -192: the tile of offset 192 moved 192 lanes up, zeros moved in. -/
def N192 (x0 : Vec F S1x64x4096 .f32) : FVec F S8x4096 .f32 := negT 192 3904 slices_S8x4096_o0_0_S8x3904 concatenates_S8x192_S8x3904_S8x4096_d1 (P192 x0)
/-- The tile of lane offset -128: the tile of offset 128 moved 128 lanes up, zeros moved in. -/
def N128 (x0 : Vec F S1x64x4096 .f32) : FVec F S8x4096 .f32 := negT 128 3968 slices_S8x4096_o0_0_S8x3968 concatenates_S8x128_S8x3968_S8x4096_d1 (P128 x0)
/-- The tile of lane offset -64: the tile of offset 64 moved 64 lanes up, zeros moved in. -/
def N64 (x0 : Vec F S1x64x4096 .f32) : FVec F S8x4096 .f32 := negT 64 4032 slices_S8x4096_o0_0_S8x4032 concatenates_S8x64_S8x4032_S8x4096_d1 (P64 x0)
/-- The tile of lane offset -189: the tile of offset 189 moved 189 lanes up, zeros moved in. -/
def N189 (x0 : Vec F S1x64x4096 .f32) : FVec F S8x4096 .f32 := negT 189 3907 slices_S8x4096_o0_0_S8x3907 concatenates_S8x189_S8x3907_S8x4096_d1 (P189 x0)
/-- The tile of lane offset -126: the tile of offset 126 moved 126 lanes up, zeros moved in. -/
def N126 (x0 : Vec F S1x64x4096 .f32) : FVec F S8x4096 .f32 := negT 126 3970 slices_S8x4096_o0_0_S8x3970 concatenates_S8x126_S8x3970_S8x4096_d1 (P126 x0)
/-- The tile of lane offset -63: the tile of offset 63 moved 63 lanes up, zeros moved in. -/
def N63 (x0 : Vec F S1x64x4096 .f32) : FVec F S8x4096 .f32 := negT 63 4033 slices_S8x4096_o0_0_S8x4033 concatenates_S8x63_S8x4033_S8x4096_d1 (P63 x0)
/-- The tile of lane offset -3: the tile of offset 3 moved 3 lanes up, zeros moved in. -/
def N3 (x0 : Vec F S1x64x4096 .f32) : FVec F S8x4096 .f32 := negT 3 4093 slices_S8x4096_o0_0_S8x4093 concatenates_S8x3_S8x4093_S8x4096_d1 (P3 x0)
/-- The tile of lane offset -2: the tile of offset 2 moved 2 lanes up, zeros moved in. -/
def N2 (x0 : Vec F S1x64x4096 .f32) : FVec F S8x4096 .f32 := negT 2 4094 slices_S8x4096_o0_0_S8x4094 concatenates_S8x2_S8x4094_S8x4096_d1 (P2 x0)
/-- The tile of lane offset -1: the tile of offset 1 moved 1 lanes up, zeros moved in. -/
def N1 (x0 : Vec F S1x64x4096 .f32) : FVec F S8x4096 .f32 := negT 1 4095 slices_S8x4096_o0_0_S8x4095 concatenates_S8x1_S8x4095_S8x4096_d1 (P1 x0)

/-- The 232 stacked rows: the 28 shifts' tiles in order, then the bias tile. -/
def stack (x0 : Vec F S1x64x4096 .f32) : FVec F S232x4096 .f32 :=
  concatenate S232x4096 0 [⟨S8x4096, N195 x0⟩, ⟨S8x4096, N130 x0⟩, ⟨S8x4096, N65 x0⟩, ⟨S8x4096, P0 x0⟩, ⟨S8x4096, P65 x0⟩, ⟨S8x4096, P130 x0⟩, ⟨S8x4096, P195 x0⟩, ⟨S8x4096, N192 x0⟩, ⟨S8x4096, N128 x0⟩, ⟨S8x4096, N64 x0⟩, ⟨S8x4096, P0 x0⟩, ⟨S8x4096, P64 x0⟩, ⟨S8x4096, P128 x0⟩, ⟨S8x4096, P192 x0⟩, ⟨S8x4096, N189 x0⟩, ⟨S8x4096, N126 x0⟩, ⟨S8x4096, N63 x0⟩, ⟨S8x4096, P0 x0⟩, ⟨S8x4096, P63 x0⟩, ⟨S8x4096, P126 x0⟩, ⟨S8x4096, P189 x0⟩, ⟨S8x4096, N3 x0⟩, ⟨S8x4096, N2 x0⟩, ⟨S8x4096, N1 x0⟩, ⟨S8x4096, P0 x0⟩, ⟨S8x4096, P1 x0⟩, ⟨S8x4096, P2 x0⟩, ⟨S8x4096, P3 x0⟩, ⟨S8x4096, onesT⟩] concatenates_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S8x4096_S232x4096_d0

/-- The output block is the stored value over the stack, the raw-feature product and the correlation weights. -/
theorem PV_eq (x0 : Vec F S1x64x4096 .f32) (x1 : Vec F S128x64 .f32) (x2 : Vec F S128x232 .f32) :
    PV x0 x1 x2 = k0_pay1 (stack x0) (k0_pay31 (k0_pay2 x0) x1) x2 := rfl

end Cert.KernelIdeal.Tiles

end
-- ==== Proof.TileOps.lean ====
/- The first program's vector operations on whole tiles, read at an index of the extended reals:
   the channel-group sum of a product, the column masks, the lane-translated tile, the ones row.
   Every shape is written out and every side condition is a hypothesis. -/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Affine
import proofs.«147926_g2000405799366230_pallasbulk_257_2_alg».proof.Proof.SpecAlgebra

noncomputable section

namespace Cert.TileOps

open Idealize.ShloMosaic Idealize.ShloMosaic.ValueIdx

/-- The channel-group sum: the 64 rows of a product tile regrouped as 8 groups of 8 sublane rows
    (row '8 * g + k' goes to '(g, k)') and summed over the groups. -/
theorem groupSum_apply (win xn : FVec Ideal (⟨2, ![64, 4096]⟩ : Shape) .f32)
    (hsc : (⟨2, ![64, 4096]⟩ : Shape).ShapeCasts (⟨3, ![8, 8, 4096]⟩ : Shape))
    (hred : (⟨3, ![8, 8, 4096]⟩ : Shape).Reduces [0] (⟨2, ![8, 4096]⟩ : Shape))
    (k : Fin 8) (p : Fin 4096) :
    multiReduction .add [0] (⟨2, ![8, 4096]⟩ : Shape)
        (shapeCast (⟨3, ![8, 8, 4096]⟩ : Shape) (mulf win xn) hsc) 0x00000000#32 hred (.inl rfl) rfl
        (ix2 k p)
      = ∑ g : Fin 8, win (ix2 ⟨8 * g.val + k.val, by have := g.isLt; have := k.isLt; omega⟩ p)
          * xn (ix2 ⟨8 * g.val + k.val, by have := g.isLt; have := k.isLt; omega⟩ p) := by
  refine (Ideal.multiReduction_add_single _ 0x00000000#32 hred (.inl rfl) rfl (ix2 k p)).trans ?_
  show ∑ g : Fin 8, _ = _
  refine Finset.sum_congr rfl fun g _ => ?_
  rw [shapeCast_apply (mulf win xn) hsc _
    (ix2 ⟨8 * g.val + k.val, by have := g.isLt; have := k.isLt; omega⟩ p) ?_]
  · rfl
  · rw [Shape.rowMajor_val_two, Shape.rowMajor_val_three]
    show (8 * g.val + k.val) * 4096 + p.val = (g.val * 8 + k.val) * 4096 + p.val
    omega

/-- The single-precision zero, at the extended reals. -/
theorem scalar_zero : (Scalar.ofBits (F := Ideal) .f32 0x00000000#32 : Ideal .f32) = 0 :=
  Ideal.ofBits_zero_f32

/-- The lane-translated tile: 'D' zero lanes, then the first 'E' lanes of the tile 'T'. -/
theorem laneShift_apply (D E : ℕ) (hDE : D + E = 4096)
    (T : FVec Ideal (⟨2, ![8, 4096]⟩ : Shape) .f32)
    (hsl : (⟨2, ![8, 4096]⟩ : Shape).Slices ![0, 0] (⟨2, ![8, E]⟩ : Shape))
    (hcat : Shape.Concatenates [(⟨2, ![8, D]⟩ : Shape), (⟨2, ![8, E]⟩ : Shape)]
      (⟨2, ![8, 4096]⟩ : Shape) 1)
    (k : Fin 8) (p : Fin 4096) :
    concatenate (⟨2, ![8, 4096]⟩ : Shape) 1
        [⟨(⟨2, ![8, D]⟩ : Shape),
            broadcast (⟨2, ![8, D]⟩ : Shape) (Scalar.ofBits (F := Ideal) .f32 0x00000000#32)⟩,
         ⟨(⟨2, ![8, E]⟩ : Shape),
            extractStridedSlice (⟨2, ![8, E]⟩ : Shape) ![0, 0] T hsl⟩] hcat (ix2 k p)
      = if p.val < D then 0
        else T (ix2 k ⟨p.val - D, by have := p.isLt; omega⟩) := by
  have hp := p.isLt
  by_cases h : p.val < D
  · rw [if_pos h]
    refine (concatenate_pair_apply_left _ _ _ hcat (ix2 k p) rfl (ix2 k ⟨p.val, h⟩) ?_).trans ?_
    · intro b
      match b with
      | ⟨0, _⟩ => rfl
      | ⟨1, _⟩ => rfl
    · exact scalar_zero
  · rw [if_neg h]
    refine (concatenate_pair_apply_right _ _ _ hcat (ix2 k p) rfl rfl
      (ix2 k ⟨p.val - D, by omega⟩) ?_ ?_).trans ?_
    · intro b hb
      match b, hb with
      | ⟨0, _⟩, _ => rfl
      | ⟨1, _⟩, hb => exact absurd rfl hb
    · show (p.val - D) + D = p.val
      omega
    · refine extractStridedSlice_apply _ T hsl _ (ix2 k ⟨p.val - D, by omega⟩) ?_
      intro a
      match a with
      | ⟨0, _⟩ => show k.val = 0 + k.val; omega
      | ⟨1, _⟩ => show p.val - D = 0 + (p.val - D); omega

/-! ## Words: the column of a flat position, and comparisons with it -/

/-- A small natural as a 32-bit word, read signed. -/
theorem ofNat_toInt (n : ℕ) (hn : n < 2 ^ 31) : (BitVec.ofNat 32 n).toInt = (n : ℤ) := by
  rw [BitVec.toInt_eq_toNat_cond, BitVec.toNat_ofNat, Nat.mod_eq_of_lt (by omega), if_pos (by omega)]

/-- The low six bits of a flat position, read signed: its column. -/
theorem wcol_toInt (p : ℕ) (hp : p < 4096) :
    (IntOp.andi (BitVec.ofNat 32 p) 63#32).toInt = ((p % 64 : ℕ) : ℤ) := by
  have h1 : (IntOp.andi (BitVec.ofNat 32 p) 63#32).toNat = p % 64 := by
    show (BitVec.ofNat 32 p &&& 63#32).toNat = p % 64
    rw [BitVec.toNat_and, BitVec.toNat_ofNat, BitVec.toNat_ofNat,
      Nat.mod_eq_of_lt (show p < 2 ^ 32 by omega), Nat.mod_eq_of_lt (show 63 < 2 ^ 32 by norm_num)]
    exact Nat.and_two_pow_sub_one_eq_mod p 6
  have h2 : p % 64 < 64 := Nat.mod_lt _ (by norm_num)
  rw [BitVec.toInt_eq_toNat_cond, h1, if_pos (by omega)]

/-- A one-bit condition widened to 32 bits and converted to a float: one or zero. -/
theorem bit_to_float_one :
    (((((1#1 : BitVec 1).setWidth 32).toInt : ℤ) : ℝ) : EReal) = 1 := by
  have : ((1#1 : BitVec 1).setWidth 32).toInt = 1 := by decide
  rw [this]; simp

theorem bit_to_float_zero :
    (((((0#1 : BitVec 1).setWidth 32).toInt : ℤ) : ℝ) : EReal) = 0 := by
  have : ((0#1 : BitVec 1).setWidth 32).toInt = 0 := by decide
  rw [this]; simp

/-- The mask of the columns at most 'n': one where the position's column is at most 'n'. -/
theorem colMask_sle_apply (n : ℕ) (hn : n < 2 ^ 31)
    (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sle
          (andi (iota .tc (⟨2, ![1, 4096]⟩ : Shape) 32 [1] hi)
            (broadcast (⟨2, ![1, 4096]⟩ : Shape) (63#32 : BitVec 32)))
          (broadcast (⟨2, ![1, 4096]⟩ : Shape) (BitVec.ofNat 32 n))) h132)) hb (ix2 k p)
      = if p.val % 64 ≤ n then (1 : EReal) else 0 := by
  refine (broadcastTo_apply _ hb (ix2 k p) (ix2 (0 : Fin 1) p) ?_).trans ?_
  · intro a
    match a with
    | ⟨0, _⟩ => rfl
    | ⟨1, _⟩ => rfl
  · show ((((IntOp.cmpi .sle (IntOp.andi (iota .tc (⟨2, ![1, 4096]⟩ : Shape) 32 [1] hi (ix2 (0 : Fin 1) p)) 63#32)
        (BitVec.ofNat 32 n)).setWidth 32).toInt : ℝ) : EReal) = _
    rw [iota_single_apply]
    show ((((IntOp.cmpi .sle (IntOp.andi (BitVec.ofNat 32 p.val) 63#32)
        (BitVec.ofNat 32 n)).setWidth 32).toInt : ℝ) : EReal) = _
    by_cases hc : p.val % 64 ≤ n
    · have h1 : IntOp.cmpi .sle (IntOp.andi (BitVec.ofNat 32 p.val) 63#32) (BitVec.ofNat 32 n) = 1#1 :=
        IntOp.cmpi_sle.2 (by rw [wcol_toInt _ p.isLt, ofNat_toInt _ hn]; exact_mod_cast hc)
      rw [h1, if_pos hc]; exact bit_to_float_one
    · have h0 : IntOp.cmpi .sle (IntOp.andi (BitVec.ofNat 32 p.val) 63#32) (BitVec.ofNat 32 n) = 0#1 :=
        eq_zero_of_ne_one fun h => hc (by
          have := IntOp.cmpi_sle.1 h
          rw [wcol_toInt _ p.isLt, ofNat_toInt _ hn] at this
          exact_mod_cast this)
      rw [h0, if_neg hc]; exact bit_to_float_zero

/-- The mask of the columns at least 'n': one where the position's column is at least 'n'. -/
theorem colMask_sge_apply (n : ℕ) (hn : n < 2 ^ 31)
    (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sge
          (andi (iota .tc (⟨2, ![1, 4096]⟩ : Shape) 32 [1] hi)
            (broadcast (⟨2, ![1, 4096]⟩ : Shape) (63#32 : BitVec 32)))
          (broadcast (⟨2, ![1, 4096]⟩ : Shape) (BitVec.ofNat 32 n))) h132)) hb (ix2 k p)
      = if n ≤ p.val % 64 then (1 : EReal) else 0 := by
  refine (broadcastTo_apply _ hb (ix2 k p) (ix2 (0 : Fin 1) p) ?_).trans ?_
  · intro a
    match a with
    | ⟨0, _⟩ => rfl
    | ⟨1, _⟩ => rfl
  · show ((((IntOp.cmpi .sge (IntOp.andi (iota .tc (⟨2, ![1, 4096]⟩ : Shape) 32 [1] hi (ix2 (0 : Fin 1) p)) 63#32)
        (BitVec.ofNat 32 n)).setWidth 32).toInt : ℝ) : EReal) = _
    rw [iota_single_apply]
    show ((((IntOp.cmpi .sge (IntOp.andi (BitVec.ofNat 32 p.val) 63#32)
        (BitVec.ofNat 32 n)).setWidth 32).toInt : ℝ) : EReal) = _
    by_cases hc : n ≤ p.val % 64
    · have h1 : IntOp.cmpi .sge (IntOp.andi (BitVec.ofNat 32 p.val) 63#32) (BitVec.ofNat 32 n) = 1#1 :=
        IntOp.cmpi_sge.2 (by rw [wcol_toInt _ p.isLt, ofNat_toInt _ hn]; exact_mod_cast hc)
      rw [h1, if_pos hc]; exact bit_to_float_one
    · have h0 : IntOp.cmpi .sge (IntOp.andi (BitVec.ofNat 32 p.val) 63#32) (BitVec.ofNat 32 n) = 0#1 :=
        eq_zero_of_ne_one fun h => hc (by
          have := IntOp.cmpi_sge.1 h
          rw [wcol_toInt _ p.isLt, ofNat_toInt _ hn] at this
          exact_mod_cast this)
      rw [h0, if_neg hc]; exact bit_to_float_zero

/-- The single-precision one, at the extended reals. -/
theorem ofBits_one_f32 : Ideal.ofBits .f32 0x3F800000#32 = 1 := by
  simp [Ideal.ofBits, Ideal.ieee]
  rw [← EReal.coe_mul]
  norm_num

/-- The mask of an in-row column shift of three to the right. -/
theorem colMask_p3_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sle
          (andi (iota .tc (⟨2, ![1, 4096]⟩ : Shape) 32 [1] hi)
            (broadcast (⟨2, ![1, 4096]⟩ : Shape) (63#32 : BitVec 32)))
          (broadcast (⟨2, ![1, 4096]⟩ : Shape) (60#32 : BitVec 32))) h132)) hb (ix2 k p)
      = Cert.Spec.mask (R := EReal) (3) p.val := by
  refine (colMask_sle_apply 60 (by norm_num) hi h132 hb k p).trans ?_
  unfold Cert.Spec.mask
  split_ifs <;> first | rfl | (exfalso; omega)

/-- The mask of an in-row column shift of two to the right. -/
theorem colMask_p2_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sle
          (andi (iota .tc (⟨2, ![1, 4096]⟩ : Shape) 32 [1] hi)
            (broadcast (⟨2, ![1, 4096]⟩ : Shape) (63#32 : BitVec 32)))
          (broadcast (⟨2, ![1, 4096]⟩ : Shape) (61#32 : BitVec 32))) h132)) hb (ix2 k p)
      = Cert.Spec.mask (R := EReal) (2) p.val := by
  refine (colMask_sle_apply 61 (by norm_num) hi h132 hb k p).trans ?_
  unfold Cert.Spec.mask
  split_ifs <;> first | rfl | (exfalso; omega)

/-- The mask of an in-row column shift of one to the right. -/
theorem colMask_p1_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sle
          (andi (iota .tc (⟨2, ![1, 4096]⟩ : Shape) 32 [1] hi)
            (broadcast (⟨2, ![1, 4096]⟩ : Shape) (63#32 : BitVec 32)))
          (broadcast (⟨2, ![1, 4096]⟩ : Shape) (62#32 : BitVec 32))) h132)) hb (ix2 k p)
      = Cert.Spec.mask (R := EReal) (1) p.val := by
  refine (colMask_sle_apply 62 (by norm_num) hi h132 hb k p).trans ?_
  unfold Cert.Spec.mask
  split_ifs <;> first | rfl | (exfalso; omega)

/-- The mask of an in-row column shift of three to the left. -/
theorem colMask_m3_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sge
          (andi (iota .tc (⟨2, ![1, 4096]⟩ : Shape) 32 [1] hi)
            (broadcast (⟨2, ![1, 4096]⟩ : Shape) (63#32 : BitVec 32)))
          (broadcast (⟨2, ![1, 4096]⟩ : Shape) (3#32 : BitVec 32))) h132)) hb (ix2 k p)
      = Cert.Spec.mask (R := EReal) (-3) p.val := by
  refine (colMask_sge_apply 3 (by norm_num) hi h132 hb k p).trans ?_
  unfold Cert.Spec.mask
  split_ifs <;> first | rfl | (exfalso; omega)

/-- The mask of an in-row column shift of two to the left. -/
theorem colMask_m2_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sge
          (andi (iota .tc (⟨2, ![1, 4096]⟩ : Shape) 32 [1] hi)
            (broadcast (⟨2, ![1, 4096]⟩ : Shape) (63#32 : BitVec 32)))
          (broadcast (⟨2, ![1, 4096]⟩ : Shape) (2#32 : BitVec 32))) h132)) hb (ix2 k p)
      = Cert.Spec.mask (R := EReal) (-2) p.val := by
  refine (colMask_sge_apply 2 (by norm_num) hi h132 hb k p).trans ?_
  unfold Cert.Spec.mask
  split_ifs <;> first | rfl | (exfalso; omega)

/-- The mask of an in-row column shift of one to the left. -/
theorem colMask_m1_apply (hi : (⟨2, ![1, 4096]⟩ : Shape).Iotas .tc 32 [1]) (h132 : 1 < 32)
    (hb : (⟨2, ![1, 4096]⟩ : Shape).Broadcasts (⟨2, ![8, 4096]⟩ : Shape))
    (k : Fin 8) (p : Fin 4096) :
    broadcastTo (⟨2, ![8, 4096]⟩ : Shape)
        (sitofp (F := Ideal) .f32 (extui 32 (cmpi .sge
          (andi (iota .tc (⟨2, ![1, 4096]⟩ : Shape) 32 [1] hi)
            (broadcast (⟨2, ![1, 4096]⟩ : Shape) (63#32 : BitVec 32)))
          (broadcast (⟨2, ![1, 4096]⟩ : Shape) (1#32 : BitVec 32))) h132)) hb (ix2 k p)
      = Cert.Spec.mask (R := EReal) (-1) p.val := by
  refine (colMask_sge_apply 1 (by norm_num) hi h132 hb k p).trans ?_
  unfold Cert.Spec.mask
  split_ifs <;> first | rfl | (exfalso; omega)

/-- The single-precision one, as a scalar. -/
theorem scalar_one : (Scalar.ofBits (F := Ideal) .f32 0x3F800000#32 : Ideal .f32) = 1 :=
  ofBits_one_f32

/-- The ones-row tile: one on sublane row 0, zero on the other seven. -/
theorem onesRow_apply (hi : (⟨2, ![8, 4096]⟩ : Shape).Iotas .tc 32 [0]) (k : Fin 8) (p : Fin 4096) :
    select (cmpi .eq (iota .tc (⟨2, ![8, 4096]⟩ : Shape) 32 [0] hi)
          (broadcast (⟨2, ![8, 4096]⟩ : Shape) (0#32 : BitVec 32)))
        (broadcast (⟨2, ![8, 4096]⟩ : Shape) (Scalar.ofBits (F := Ideal) .f32 0x3F800000#32))
        (broadcast (⟨2, ![8, 4096]⟩ : Shape) (Scalar.ofBits (F := Ideal) .f32 0x00000000#32))
        (ix2 k p)
      = if k.val = 0 then (1 : EReal) else 0 := by
  show Scalar.select (IntOp.cmpi .eq (iota .tc (⟨2, ![8, 4096]⟩ : Shape) 32 [0] hi (ix2 k p)) 0#32)
      (Ideal.ofBits .f32 0x3F800000#32) (Ideal.ofBits .f32 0x00000000#32) = _
  rw [iota_single_apply, Ideal.ofBits_zero_f32, ofBits_one_f32]
  show Scalar.select (IntOp.cmpi .eq (BitVec.ofNat 32 k.val) 0#32) (1 : EReal) 0 = _
  have hk := k.isLt
  by_cases h0 : k.val = 0
  · rw [h0, if_pos rfl]; rfl
  · have hne : IntOp.cmpi .eq (BitVec.ofNat 32 k.val) 0#32 = 0#1 :=
      eq_zero_of_ne_one fun h => h0 (by
        have := congrArg BitVec.toNat (IntOp.cmpi_eq.1 h)
        rw [BitVec.toNat_ofNat, Nat.mod_eq_of_lt (by omega)] at this
        simpa using this)
    rw [hne, if_neg h0]; rfl

end Cert.TileOps

end
-- ==== Proof.KIVal2.lean ====
/-
  Each of the 28 stacked tiles is the correlation map of its shift, in the form the algebra is stated over.

  For a shift of dr rows and dc columns the flat lane offset is 64 dr + dc. A positive tile reads the padded
  normalized features that many lanes ahead, sums the products with the features themselves over the eight channel
  groups, and is multiplied by the mask of the columns that do not wrap; a negative tile is the mirrored positive one
  read that many lanes back, zero where that falls before the image.
-/
import proofs.«147926_g2000405799366230_pallasbulk_257_2_alg».proof.Proof.KIVal1
import proofs.«147926_g2000405799366230_pallasbulk_257_2_alg».proof.Proof.KITiles
import proofs.«147926_g2000405799366230_pallasbulk_257_2_alg».proof.Proof.TileOps

set_option maxRecDepth 16384

noncomputable section

namespace Cert.KernelIdeal.Val

open Cert.KernelIdeal Cert.KernelIdeal.Gen Cert.KernelIdeal.Pay Cert.KernelIdeal.Tiles
open Idealize.ShloMosaic Idealize.ShloMosaic.ValueIdx

/-- Eight partial channel sums of a window against the normalized features, over the total arrays. -/
theorem posT_val (x0 : Vec Ideal S1x64x4096 .f32) (δ : ℕ) (h : ∀ a, (![0, δ] : Fin 2 → ℕ) a + S64x4096.size a ≤ S64x4352.size a)
    (k : Fin 8) (p : Fin 4096) :
    posT (F := Ideal) (Wn x0 δ h) (k0_pay3 x0) (ix2 k p)
      = ∑ g : Fin 8, Cert.Spec.pad (XN x0) (8 * g.val + k.val) (p.val + δ) * XN x0 (8 * g.val + k.val) p.val := by
  unfold posT
  refine (Cert.TileOps.groupSum_apply _ _ _ _ k p).trans ?_
  refine Finset.sum_congr rfl fun g _ => ?_
  rw [Wn_val, ← tot_apply (k0_pay3 (F := Ideal) x0) ⟨8 * g.val + k.val, by have := g.isLt; have := k.isLt; omega⟩ p]
  rfl

/-- The unmasked tile of lane offset 0. -/
theorem P0_val (x0 : Vec Ideal S1x64x4096 .f32) (k : Fin 8) (p : Fin 4096) :
    P0 (F := Ideal) x0 (ix2 k p) = Cert.Spec.Ppos (XN x0) 0 0 k.val p.val := by
  unfold P0 Cert.Spec.Ppos
  rw [if_pos rfl]
  exact posT_val x0 0 _ k p
/-- The unmasked tile of lane offset 192. -/
theorem P192_val (x0 : Vec Ideal S1x64x4096 .f32) (k : Fin 8) (p : Fin 4096) :
    P192 (F := Ideal) x0 (ix2 k p) = Cert.Spec.Ppos (XN x0) 192 0 k.val p.val := by
  unfold P192 Cert.Spec.Ppos
  rw [if_pos rfl]
  exact posT_val x0 192 _ k p
/-- The unmasked tile of lane offset 128. -/
theorem P128_val (x0 : Vec Ideal S1x64x4096 .f32) (k : Fin 8) (p : Fin 4096) :
    P128 (F := Ideal) x0 (ix2 k p) = Cert.Spec.Ppos (XN x0) 128 0 k.val p.val := by
  unfold P128 Cert.Spec.Ppos
  rw [if_pos rfl]
  exact posT_val x0 128 _ k p
/-- The unmasked tile of lane offset 64. -/
theorem P64_val (x0 : Vec Ideal S1x64x4096 .f32) (k : Fin 8) (p : Fin 4096) :
    P64 (F := Ideal) x0 (ix2 k p) = Cert.Spec.Ppos (XN x0) 64 0 k.val p.val := by
  unfold P64 Cert.Spec.Ppos
  rw [if_pos rfl]
  exact posT_val x0 64 _ k p
/-- The tile of lane offset 195, masked for a column shift of 3. -/
theorem P195_val (x0 : Vec Ideal S1x64x4096 .f32) (k : Fin 8) (p : Fin 4096) :
    P195 (F := Ideal) x0 (ix2 k p) = Cert.Spec.Ppos (XN x0) 195 3 k.val p.val := by
  unfold P195 posM Cert.Spec.Ppos
  rw [if_neg (by decide), mulf_apply, posT_val x0 195 _ k p]
  refine congrArg (_ * ·) ?_
  unfold bm mLe k0_pay6
  exact Cert.TileOps.colMask_p3_apply _ _ _ k p
/-- The tile of lane offset 130, masked for a column shift of 2. -/
theorem P130_val (x0 : Vec Ideal S1x64x4096 .f32) (k : Fin 8) (p : Fin 4096) :
    P130 (F := Ideal) x0 (ix2 k p) = Cert.Spec.Ppos (XN x0) 130 2 k.val p.val := by
  unfold P130 posM Cert.Spec.Ppos
  rw [if_neg (by decide), mulf_apply, posT_val x0 130 _ k p]
  refine congrArg (_ * ·) ?_
  unfold bm mLe k0_pay6
  exact Cert.TileOps.colMask_p2_apply _ _ _ k p
/-- The tile of lane offset 65, masked for a column shift of 1. -/
theorem P65_val (x0 : Vec Ideal S1x64x4096 .f32) (k : Fin 8) (p : Fin 4096) :
    P65 (F := Ideal) x0 (ix2 k p) = Cert.Spec.Ppos (XN x0) 65 1 k.val p.val := by
  unfold P65 posM Cert.Spec.Ppos
  rw [if_neg (by decide), mulf_apply, posT_val x0 65 _ k p]
  refine congrArg (_ * ·) ?_
  unfold bm mLe k0_pay6
  exact Cert.TileOps.colMask_p1_apply _ _ _ k p
/-- The tile of lane offset 189, masked for a column shift of -3. -/
theorem P189_val (x0 : Vec Ideal S1x64x4096 .f32) (k : Fin 8) (p : Fin 4096) :
    P189 (F := Ideal) x0 (ix2 k p) = Cert.Spec.Ppos (XN x0) 189 (-3) k.val p.val := by
  unfold P189 posM Cert.Spec.Ppos
  rw [if_neg (by decide), mulf_apply, posT_val x0 189 _ k p]
  refine congrArg (_ * ·) ?_
  unfold bm mGe k0_pay6
  exact Cert.TileOps.colMask_m3_apply _ _ _ k p
/-- The tile of lane offset 126, masked for a column shift of -2. -/
theorem P126_val (x0 : Vec Ideal S1x64x4096 .f32) (k : Fin 8) (p : Fin 4096) :
    P126 (F := Ideal) x0 (ix2 k p) = Cert.Spec.Ppos (XN x0) 126 (-2) k.val p.val := by
  unfold P126 posM Cert.Spec.Ppos
  rw [if_neg (by decide), mulf_apply, posT_val x0 126 _ k p]
  refine congrArg (_ * ·) ?_
  unfold bm mGe k0_pay6
  exact Cert.TileOps.colMask_m2_apply _ _ _ k p
/-- The tile of lane offset 63, masked for a column shift of -1. -/
theorem P63_val (x0 : Vec Ideal S1x64x4096 .f32) (k : Fin 8) (p : Fin 4096) :
    P63 (F := Ideal) x0 (ix2 k p) = Cert.Spec.Ppos (XN x0) 63 (-1) k.val p.val := by
  unfold P63 posM Cert.Spec.Ppos
  rw [if_neg (by decide), mulf_apply, posT_val x0 63 _ k p]
  refine congrArg (_ * ·) ?_
  unfold bm mGe k0_pay6
  exact Cert.TileOps.colMask_m1_apply _ _ _ k p
/-- The tile of lane offset 3, masked for a column shift of 3. -/
theorem P3_val (x0 : Vec Ideal S1x64x4096 .f32) (k : Fin 8) (p : Fin 4096) :
    P3 (F := Ideal) x0 (ix2 k p) = Cert.Spec.Ppos (XN x0) 3 3 k.val p.val := by
  unfold P3 posM Cert.Spec.Ppos
  rw [if_neg (by decide), mulf_apply, posT_val x0 3 _ k p]
  refine congrArg (_ * ·) ?_
  unfold bm mLe k0_pay6
  exact Cert.TileOps.colMask_p3_apply _ _ _ k p
/-- The tile of lane offset 2, masked for a column shift of 2. -/
theorem P2_val (x0 : Vec Ideal S1x64x4096 .f32) (k : Fin 8) (p : Fin 4096) :
    P2 (F := Ideal) x0 (ix2 k p) = Cert.Spec.Ppos (XN x0) 2 2 k.val p.val := by
  unfold P2 posM Cert.Spec.Ppos
  rw [if_neg (by decide), mulf_apply, posT_val x0 2 _ k p]
  refine congrArg (_ * ·) ?_
  unfold bm mLe k0_pay6
  exact Cert.TileOps.colMask_p2_apply _ _ _ k p
/-- The tile of lane offset 1, masked for a column shift of 1. -/
theorem P1_val (x0 : Vec Ideal S1x64x4096 .f32) (k : Fin 8) (p : Fin 4096) :
    P1 (F := Ideal) x0 (ix2 k p) = Cert.Spec.Ppos (XN x0) 1 1 k.val p.val := by
  unfold P1 posM Cert.Spec.Ppos
  rw [if_neg (by decide), mulf_apply, posT_val x0 1 _ k p]
  refine congrArg (_ * ·) ?_
  unfold bm mLe k0_pay6
  exact Cert.TileOps.colMask_p1_apply _ _ _ k p

/-- The tile of lane offset -195. -/
theorem N195_val (x0 : Vec Ideal S1x64x4096 .f32) (k : Fin 8) (p : Fin 4096) :
    N195 (F := Ideal) x0 (ix2 k p) = if p.val < 195 then 0 else Cert.Spec.Ppos (XN x0) 195 3 k.val (p.val - 195) := by
  unfold N195 negT
  refine (Cert.TileOps.laneShift_apply 195 3901 (by norm_num) _ _ _ k p).trans ?_
  by_cases hp : p.val < 195
  · rw [if_pos hp, if_pos hp]
  · rw [if_neg hp, if_neg hp]; exact P195_val x0 k _
/-- The tile of lane offset -130. -/
theorem N130_val (x0 : Vec Ideal S1x64x4096 .f32) (k : Fin 8) (p : Fin 4096) :
    N130 (F := Ideal) x0 (ix2 k p) = if p.val < 130 then 0 else Cert.Spec.Ppos (XN x0) 130 2 k.val (p.val - 130) := by
  unfold N130 negT
  refine (Cert.TileOps.laneShift_apply 130 3966 (by norm_num) _ _ _ k p).trans ?_
  by_cases hp : p.val < 130
  · rw [if_pos hp, if_pos hp]
  · rw [if_neg hp, if_neg hp]; exact P130_val x0 k _
/-- The tile of lane offset -65. -/
theorem N65_val (x0 : Vec Ideal S1x64x4096 .f32) (k : Fin 8) (p : Fin 4096) :
    N65 (F := Ideal) x0 (ix2 k p) = if p.val < 65 then 0 else Cert.Spec.Ppos (XN x0) 65 1 k.val (p.val - 65) := by
  unfold N65 negT
  refine (Cert.TileOps.laneShift_apply 65 4031 (by norm_num) _ _ _ k p).trans ?_
  by_cases hp : p.val < 65
  · rw [if_pos hp, if_pos hp]
  · rw [if_neg hp, if_neg hp]; exact P65_val x0 k _
/-- The tile of lane offset -192. -/
theorem N192_val (x0 : Vec Ideal S1x64x4096 .f32) (k : Fin 8) (p : Fin 4096) :
    N192 (F := Ideal) x0 (ix2 k p) = if p.val < 192 then 0 else Cert.Spec.Ppos (XN x0) 192 0 k.val (p.val - 192) := by
  unfold N192 negT
  refine (Cert.TileOps.laneShift_apply 192 3904 (by norm_num) _ _ _ k p).trans ?_
  by_cases hp : p.val < 192
  · rw [if_pos hp, if_pos hp]
  · rw [if_neg hp, if_neg hp]; exact P192_val x0 k _
/-- The tile of lane offset -128. -/
theorem N128_val (x0 : Vec Ideal S1x64x4096 .f32) (k : Fin 8) (p : Fin 4096) :
    N128 (F := Ideal) x0 (ix2 k p) = if p.val < 128 then 0 else Cert.Spec.Ppos (XN x0) 128 0 k.val (p.val - 128) := by
  unfold N128 negT
  refine (Cert.TileOps.laneShift_apply 128 3968 (by norm_num) _ _ _ k p).trans ?_
  by_cases hp : p.val < 128
  · rw [if_pos hp, if_pos hp]
  · rw [if_neg hp, if_neg hp]; exact P128_val x0 k _
/-- The tile of lane offset -64. -/
theorem N64_val (x0 : Vec Ideal S1x64x4096 .f32) (k : Fin 8) (p : Fin 4096) :
    N64 (F := Ideal) x0 (ix2 k p) = if p.val < 64 then 0 else Cert.Spec.Ppos (XN x0) 64 0 k.val (p.val - 64) := by
  unfold N64 negT
  refine (Cert.TileOps.laneShift_apply 64 4032 (by norm_num) _ _ _ k p).trans ?_
  by_cases hp : p.val < 64
  · rw [if_pos hp, if_pos hp]
  · rw [if_neg hp, if_neg hp]; exact P64_val x0 k _
/-- The tile of lane offset -189. -/
theorem N189_val (x0 : Vec Ideal S1x64x4096 .f32) (k : Fin 8) (p : Fin 4096) :
    N189 (F := Ideal) x0 (ix2 k p) = if p.val < 189 then 0 else Cert.Spec.Ppos (XN x0) 189 (-3) k.val (p.val - 189) := by
  unfold N189 negT
  refine (Cert.TileOps.laneShift_apply 189 3907 (by norm_num) _ _ _ k p).trans ?_
  by_cases hp : p.val < 189
  · rw [if_pos hp, if_pos hp]
  · rw [if_neg hp, if_neg hp]; exact P189_val x0 k _
/-- The tile of lane offset -126. -/
theorem N126_val (x0 : Vec Ideal S1x64x4096 .f32) (k : Fin 8) (p : Fin 4096) :
    N126 (F := Ideal) x0 (ix2 k p) = if p.val < 126 then 0 else Cert.Spec.Ppos (XN x0) 126 (-2) k.val (p.val - 126) := by
  unfold N126 negT
  refine (Cert.TileOps.laneShift_apply 126 3970 (by norm_num) _ _ _ k p).trans ?_
  by_cases hp : p.val < 126
  · rw [if_pos hp, if_pos hp]
  · rw [if_neg hp, if_neg hp]; exact P126_val x0 k _
/-- The tile of lane offset -63. -/
theorem N63_val (x0 : Vec Ideal S1x64x4096 .f32) (k : Fin 8) (p : Fin 4096) :
    N63 (F := Ideal) x0 (ix2 k p) = if p.val < 63 then 0 else Cert.Spec.Ppos (XN x0) 63 (-1) k.val (p.val - 63) := by
  unfold N63 negT
  refine (Cert.TileOps.laneShift_apply 63 4033 (by norm_num) _ _ _ k p).trans ?_
  by_cases hp : p.val < 63
  · rw [if_pos hp, if_pos hp]
  · rw [if_neg hp, if_neg hp]; exact P63_val x0 k _
/-- The tile of lane offset -3. -/
theorem N3_val (x0 : Vec Ideal S1x64x4096 .f32) (k : Fin 8) (p : Fin 4096) :
    N3 (F := Ideal) x0 (ix2 k p) = if p.val < 3 then 0 else Cert.Spec.Ppos (XN x0) 3 3 k.val (p.val - 3) := by
  unfold N3 negT
  refine (Cert.TileOps.laneShift_apply 3 4093 (by norm_num) _ _ _ k p).trans ?_
  by_cases hp : p.val < 3
  · rw [if_pos hp, if_pos hp]
  · rw [if_neg hp, if_neg hp]; exact P3_val x0 k _
/-- The tile of lane offset -2. -/
theorem N2_val (x0 : Vec Ideal S1x64x4096 .f32) (k : Fin 8) (p : Fin 4096) :
    N2 (F := Ideal) x0 (ix2 k p) = if p.val < 2 then 0 else Cert.Spec.Ppos (XN x0) 2 2 k.val (p.val - 2) := by
  unfold N2 negT
  refine (Cert.TileOps.laneShift_apply 2 4094 (by norm_num) _ _ _ k p).trans ?_
  by_cases hp : p.val < 2
  · rw [if_pos hp, if_pos hp]
  · rw [if_neg hp, if_neg hp]; exact P2_val x0 k _
/-- The tile of lane offset -1. -/
theorem N1_val (x0 : Vec Ideal S1x64x4096 .f32) (k : Fin 8) (p : Fin 4096) :
    N1 (F := Ideal) x0 (ix2 k p) = if p.val < 1 then 0 else Cert.Spec.Ppos (XN x0) 1 1 k.val (p.val - 1) := by
  unfold N1 negT
  refine (Cert.TileOps.laneShift_apply 1 4095 (by norm_num) _ _ _ k p).trans ?_
  by_cases hp : p.val < 1
  · rw [if_pos hp, if_pos hp]
  · rw [if_neg hp, if_neg hp]; exact P1_val x0 k _

/-! The 28 tiles in stack order against the shifts' (row, column) offsets into the padded window. -/
theorem tile0_val (x0 : Vec Ideal S1x64x4096 .f32) (k : Fin 8) (p : Fin 4096) :
    N195 (F := Ideal) x0 (ix2 k p) = Cert.Spec.part (XN x0) 0 0 k.val p.val := by
  rw [N195_val]; simp [Cert.Spec.part]
theorem tile1_val (x0 : Vec Ideal S1x64x4096 .f32) (k : Fin 8) (p : Fin 4096) :
    N130 (F := Ideal) x0 (ix2 k p) = Cert.Spec.part (XN x0) 1 1 k.val p.val := by
  rw [N130_val]; simp [Cert.Spec.part]
theorem tile2_val (x0 : Vec Ideal S1x64x4096 .f32) (k : Fin 8) (p : Fin 4096) :
    N65 (F := Ideal) x0 (ix2 k p) = Cert.Spec.part (XN x0) 2 2 k.val p.val := by
  rw [N65_val]; simp [Cert.Spec.part]
theorem tile3_val (x0 : Vec Ideal S1x64x4096 .f32) (k : Fin 8) (p : Fin 4096) :
    P0 (F := Ideal) x0 (ix2 k p) = Cert.Spec.part (XN x0) 3 3 k.val p.val := by
  rw [P0_val]; simp [Cert.Spec.part]
theorem tile4_val (x0 : Vec Ideal S1x64x4096 .f32) (k : Fin 8) (p : Fin 4096) :
    P65 (F := Ideal) x0 (ix2 k p) = Cert.Spec.part (XN x0) 4 4 k.val p.val := by
  rw [P65_val]; simp [Cert.Spec.part]
theorem tile5_val (x0 : Vec Ideal S1x64x4096 .f32) (k : Fin 8) (p : Fin 4096) :
    P130 (F := Ideal) x0 (ix2 k p) = Cert.Spec.part (XN x0) 5 5 k.val p.val := by
  rw [P130_val]; simp [Cert.Spec.part]
theorem tile6_val (x0 : Vec Ideal S1x64x4096 .f32) (k : Fin 8) (p : Fin 4096) :
    P195 (F := Ideal) x0 (ix2 k p) = Cert.Spec.part (XN x0) 6 6 k.val p.val := by
  rw [P195_val]; simp [Cert.Spec.part]
theorem tile7_val (x0 : Vec Ideal S1x64x4096 .f32) (k : Fin 8) (p : Fin 4096) :
    N192 (F := Ideal) x0 (ix2 k p) = Cert.Spec.part (XN x0) 0 3 k.val p.val := by
  rw [N192_val]; simp [Cert.Spec.part]
theorem tile8_val (x0 : Vec Ideal S1x64x4096 .f32) (k : Fin 8) (p : Fin 4096) :
    N128 (F := Ideal) x0 (ix2 k p) = Cert.Spec.part (XN x0) 1 3 k.val p.val := by
  rw [N128_val]; simp [Cert.Spec.part]
theorem tile9_val (x0 : Vec Ideal S1x64x4096 .f32) (k : Fin 8) (p : Fin 4096) :
    N64 (F := Ideal) x0 (ix2 k p) = Cert.Spec.part (XN x0) 2 3 k.val p.val := by
  rw [N64_val]; simp [Cert.Spec.part]
theorem tile10_val (x0 : Vec Ideal S1x64x4096 .f32) (k : Fin 8) (p : Fin 4096) :
    P0 (F := Ideal) x0 (ix2 k p) = Cert.Spec.part (XN x0) 3 3 k.val p.val := by
  rw [P0_val]; simp [Cert.Spec.part]
theorem tile11_val (x0 : Vec Ideal S1x64x4096 .f32) (k : Fin 8) (p : Fin 4096) :
    P64 (F := Ideal) x0 (ix2 k p) = Cert.Spec.part (XN x0) 4 3 k.val p.val := by
  rw [P64_val]; simp [Cert.Spec.part]
theorem tile12_val (x0 : Vec Ideal S1x64x4096 .f32) (k : Fin 8) (p : Fin 4096) :
    P128 (F := Ideal) x0 (ix2 k p) = Cert.Spec.part (XN x0) 5 3 k.val p.val := by
  rw [P128_val]; simp [Cert.Spec.part]
theorem tile13_val (x0 : Vec Ideal S1x64x4096 .f32) (k : Fin 8) (p : Fin 4096) :
    P192 (F := Ideal) x0 (ix2 k p) = Cert.Spec.part (XN x0) 6 3 k.val p.val := by
  rw [P192_val]; simp [Cert.Spec.part]
theorem tile14_val (x0 : Vec Ideal S1x64x4096 .f32) (k : Fin 8) (p : Fin 4096) :
    N189 (F := Ideal) x0 (ix2 k p) = Cert.Spec.part (XN x0) 0 6 k.val p.val := by
  rw [N189_val]; simp [Cert.Spec.part]
theorem tile15_val (x0 : Vec Ideal S1x64x4096 .f32) (k : Fin 8) (p : Fin 4096) :
    N126 (F := Ideal) x0 (ix2 k p) = Cert.Spec.part (XN x0) 1 5 k.val p.val := by
  rw [N126_val]; simp [Cert.Spec.part]
theorem tile16_val (x0 : Vec Ideal S1x64x4096 .f32) (k : Fin 8) (p : Fin 4096) :
    N63 (F := Ideal) x0 (ix2 k p) = Cert.Spec.part (XN x0) 2 4 k.val p.val := by
  rw [N63_val]; simp [Cert.Spec.part]
theorem tile17_val (x0 : Vec Ideal S1x64x4096 .f32) (k : Fin 8) (p : Fin 4096) :
    P0 (F := Ideal) x0 (ix2 k p) = Cert.Spec.part (XN x0) 3 3 k.val p.val := by
  rw [P0_val]; simp [Cert.Spec.part]
theorem tile18_val (x0 : Vec Ideal S1x64x4096 .f32) (k : Fin 8) (p : Fin 4096) :
    P63 (F := Ideal) x0 (ix2 k p) = Cert.Spec.part (XN x0) 4 2 k.val p.val := by
  rw [P63_val]; simp [Cert.Spec.part]
theorem tile19_val (x0 : Vec Ideal S1x64x4096 .f32) (k : Fin 8) (p : Fin 4096) :
    P126 (F := Ideal) x0 (ix2 k p) = Cert.Spec.part (XN x0) 5 1 k.val p.val := by
  rw [P126_val]; simp [Cert.Spec.part]
theorem tile20_val (x0 : Vec Ideal S1x64x4096 .f32) (k : Fin 8) (p : Fin 4096) :
    P189 (F := Ideal) x0 (ix2 k p) = Cert.Spec.part (XN x0) 6 0 k.val p.val := by
  rw [P189_val]; simp [Cert.Spec.part]
theorem tile21_val (x0 : Vec Ideal S1x64x4096 .f32) (k : Fin 8) (p : Fin 4096) :
    N3 (F := Ideal) x0 (ix2 k p) = Cert.Spec.part (XN x0) 3 0 k.val p.val := by
  rw [N3_val]; simp [Cert.Spec.part]
theorem tile22_val (x0 : Vec Ideal S1x64x4096 .f32) (k : Fin 8) (p : Fin 4096) :
    N2 (F := Ideal) x0 (ix2 k p) = Cert.Spec.part (XN x0) 3 1 k.val p.val := by
  rw [N2_val]; simp [Cert.Spec.part]
theorem tile23_val (x0 : Vec Ideal S1x64x4096 .f32) (k : Fin 8) (p : Fin 4096) :
    N1 (F := Ideal) x0 (ix2 k p) = Cert.Spec.part (XN x0) 3 2 k.val p.val := by
  rw [N1_val]; simp [Cert.Spec.part]
theorem tile24_val (x0 : Vec Ideal S1x64x4096 .f32) (k : Fin 8) (p : Fin 4096) :
    P0 (F := Ideal) x0 (ix2 k p) = Cert.Spec.part (XN x0) 3 3 k.val p.val := by
  rw [P0_val]; simp [Cert.Spec.part]
theorem tile25_val (x0 : Vec Ideal S1x64x4096 .f32) (k : Fin 8) (p : Fin 4096) :
    P1 (F := Ideal) x0 (ix2 k p) = Cert.Spec.part (XN x0) 3 4 k.val p.val := by
  rw [P1_val]; simp [Cert.Spec.part]
theorem tile26_val (x0 : Vec Ideal S1x64x4096 .f32) (k : Fin 8) (p : Fin 4096) :
    P2 (F := Ideal) x0 (ix2 k p) = Cert.Spec.part (XN x0) 3 5 k.val p.val := by
  rw [P2_val]; simp [Cert.Spec.part]
theorem tile27_val (x0 : Vec Ideal S1x64x4096 .f32) (k : Fin 8) (p : Fin 4096) :
    P3 (F := Ideal) x0 (ix2 k p) = Cert.Spec.part (XN x0) 3 6 k.val p.val := by
  rw [P3_val]; simp [Cert.Spec.part]

/-- The bias tile. -/
theorem ones_val (k : Fin 8) (p : Fin 4096) : onesT (F := Ideal) (ix2 k p) = if k.val = 0 then (1 : EReal) else 0 := by
  unfold onesT; exact Cert.TileOps.onesRow_apply _ k p

end Cert.KernelIdeal.Val

end
-- ==== Proof.KIMat.lean ====
/-
  The two matrix products and the final sum of the body, read at an index (at the ideal instance).

  The output block at output channel `co` and position `p` is the raw-feature weights' row `co` against the 64 feature
  channels at `p`, plus the widened correlation weights' row `co` against the 232 stacked tile rows at `p`.
-/
import proofs.«147926_g2000405799366230_pallasbulk_257_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Mat

open Cert.KernelIdeal Cert.KernelIdeal.Gen
open Idealize.ShloMosaic Idealize.ShloMosaic.ValueIdx

/-- The raw-feature product's dimensions: [128, 64] by [64, 4096]. -/
abbrev D1 := dot_S128x64_S64x4096_S128x4096_1_0_0_1_n_n
/-- The correlation product's dimensions: [128, 232] by [232, 4096]. -/
abbrev D2 := dot_S128x232_S232x4096_S128x4096_1_0_0_1_n_n

theorem lhs1 (co : Fin 128) (p : Fin 4096) (c : Fin 64) :
    D1.lhsIdx (ix2 co p) ((contrEquiv1 D1 64 rfl rfl).symm c) = ix2 co c := by
  refine funext fun a => Fin.ext ?_
  match a with
  | ⟨0, _⟩ => rfl
  | ⟨1, _⟩ => exact (DotDims.lhsIdx_val_of_single D1 (cl := ⟨1, by decide⟩) rfl _ _).trans (contrEquiv1_symm_val D1 64 rfl rfl c)

theorem rhs1 (co : Fin 128) (p : Fin 4096) (c : Fin 64) :
    D1.rhsIdx (ix2 co p) ((contrEquiv1 D1 64 rfl rfl).symm c) = ix2 c p := by
  refine funext fun a => Fin.ext ?_
  match a with
  | ⟨1, _⟩ => rfl
  | ⟨0, _⟩ => exact (DotDims.rhsIdx_val_of_single D1 (cr := ⟨0, by decide⟩) rfl _ _).trans (contrEquiv1_symm_val D1 64 rfl rfl c)

theorem lhs2 (co : Fin 128) (p : Fin 4096) (j : Fin 232) :
    D2.lhsIdx (ix2 co p) ((contrEquiv1 D2 232 rfl rfl).symm j) = ix2 co j := by
  refine funext fun a => Fin.ext ?_
  match a with
  | ⟨0, _⟩ => rfl
  | ⟨1, _⟩ => exact (DotDims.lhsIdx_val_of_single D2 (cl := ⟨1, by decide⟩) rfl _ _).trans (contrEquiv1_symm_val D2 232 rfl rfl j)

theorem rhs2 (co : Fin 128) (p : Fin 4096) (j : Fin 232) :
    D2.rhsIdx (ix2 co p) ((contrEquiv1 D2 232 rfl rfl).symm j) = ix2 j p := by
  refine funext fun a => Fin.ext ?_
  match a with
  | ⟨1, _⟩ => rfl
  | ⟨0, _⟩ => exact (DotDims.rhsIdx_val_of_single D2 (cr := ⟨0, by decide⟩) rfl _ _).trans (contrEquiv1_symm_val D2 232 rfl rfl j)

/-- The raw-feature product at an index: a sum over the 64 channels. -/
theorem pay31_apply (v1 : FVec Ideal S64x4096 .f32) (x1 : Vec Ideal S128x64 .f32) (co : Fin 128) (p : Fin 4096) :
    k0_pay31 (F := Ideal) v1 x1 (ix2 co p) = ∑ c : Fin 64, x1 (ix2 co c) * v1 (ix2 c p) := by
  unfold k0_pay31
  refine (Ideal.matmul_constant_zero_apply D1 none _ _ (ix2 co p)).trans ?_
  rw [← Equiv.sum_comp (contrEquiv1 D1 64 rfl rfl).symm]
  refine Finset.sum_congr rfl fun c _ => ?_
  rw [lhs1, rhs1, shapeCast_self]

/-- The stored value at an index: the raw-feature product plus the correlation product, a sum over the 232 tile rows. -/
theorem pay1_apply (v156 : FVec Ideal S232x4096 .f32) (v159 : FVec Ideal S128x4096 .f32) (x2 : Vec Ideal S128x232 .f32)
    (co : Fin 128) (p : Fin 4096) :
    k0_pay1 (F := Ideal) v156 v159 x2 (ix3 (0 : Fin 1) co p) = v159 (ix2 co p) + ∑ j : Fin 232, x2 (ix2 co j) * v156 (ix2 j p) := by
  unfold k0_pay1
  refine (shapeCast_addUnit_apply (![128, 4096] : Fin 2 → ℕ) _ _ (ix3 (0 : Fin 1) co p)).trans ?_
  have e : (fun a : Fin 2 => (ix3 (0 : Fin 1) co p) a.succ) = ix2 co p := by
    funext a; match a with | ⟨0, _⟩ => rfl | ⟨1, _⟩ => rfl
  rw [e, addf_apply]
  refine congrArg (v159 (ix2 co p) + ·) ?_
  refine (Ideal.matmul_constant_zero_apply D2 none _ _ (ix2 co p)).trans ?_
  rw [← Equiv.sum_comp (contrEquiv1 D2 232 rfl rfl).symm]
  refine Finset.sum_congr rfl fun j _ => ?_
  rw [lhs2, rhs2, shapeCast_self]

end Cert.KernelIdeal.Mat

end
-- ==== Proof.KIVal3.lean ====
/-
  The stack read at a row is the algebra's stacked array, and the output block at an index is the kernel form.

  Row 8 n + k of the stack is row k of the n-th tile; the first 28 tiles are the shifts' correlation maps and the
  last carries a 1 in its first row, so that the correlation product also adds the bias column.
-/
import proofs.«147926_g2000405799366230_pallasbulk_257_2_alg».proof.Proof.KIVal2
import proofs.«147926_g2000405799366230_pallasbulk_257_2_alg».proof.Proof.KIMat

set_option maxRecDepth 16384

noncomputable section

namespace Cert.KernelIdeal.Val

open Cert.KernelIdeal Cert.KernelIdeal.Gen Cert.KernelIdeal.Pay Cert.KernelIdeal.Tiles
open Idealize.ShloMosaic Idealize.ShloMosaic.ValueIdx

/-- The first n of a list of eight-row tiles have 8 n rows together. -/
theorem pre8 (a : Fin S232x4096.rank) (ha : a.val = 0) :
    ∀ (xs : List ((s : Shape) × (s.Idx → EReal))) (_ : ∀ x ∈ xs, x.1 = S8x4096) (n : ℕ) (_ : n ≤ xs.length),
      (((xs.take n).map (·.1)).map fun s => if h : s.rank = S232x4096.rank then s.size (a.cast h.symm) else 0).sum = 8 * n
  | [], _, n, hn => by
    have : n = 0 := by simpa using hn
    subst this; rfl
  | x :: xs, h, 0, _ => rfl
  | x :: xs, h, n + 1, hn => by
    have hx : x.1 = S8x4096 := h x (List.mem_cons_self ..)
    have ih := pre8 a ha xs (fun y hy => h y (List.mem_cons_of_mem _ hy)) n (by simpa using hn)
    rw [List.take_succ_cons, List.map_cons, List.map_cons, List.sum_cons, ih]
    obtain ⟨s, v⟩ := x
    dsimp only at hx ⊢
    subst hx
    rw [dif_pos rfl]
    obtain ⟨av, hav⟩ := a
    dsimp only at ha
    subst ha
    show 8 + 8 * n = 8 * (n + 1)
    omega

theorem stack_0 (x0 : Vec Ideal S1x64x4096 .f32) (kk : Fin 8) (p : Fin 4096) :
    stack (F := Ideal) x0 (ix2 (⟨8 * 0 + kk.val, by have := kk.isLt; omega⟩ : Fin 232) p) = (N195 (F := Ideal) x0) (ix2 kk p) := by
  unfold stack
  refine concatenate_apply_piece (⟨0, by decide⟩ : Fin 2) _ _ (ix2 (⟨8 * 0 + kk.val, by have := kk.isLt; omega⟩ : Fin 232) p) 0 ?_ S8x4096 _ ?_ rfl (8 * 0) ?_ (ix2 kk p) ?_ ?_
  · exact (by decide : 0 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 0 (by decide : 0 ≤ 29)
  · intro b hb; match b with | ⟨0, _⟩ => exact absurd rfl hb | ⟨1, _⟩ => rfl
  · rfl
theorem stack_1 (x0 : Vec Ideal S1x64x4096 .f32) (kk : Fin 8) (p : Fin 4096) :
    stack (F := Ideal) x0 (ix2 (⟨8 * 1 + kk.val, by have := kk.isLt; omega⟩ : Fin 232) p) = (N130 (F := Ideal) x0) (ix2 kk p) := by
  unfold stack
  refine concatenate_apply_piece (⟨0, by decide⟩ : Fin 2) _ _ (ix2 (⟨8 * 1 + kk.val, by have := kk.isLt; omega⟩ : Fin 232) p) 1 ?_ S8x4096 _ ?_ rfl (8 * 1) ?_ (ix2 kk p) ?_ ?_
  · exact (by decide : 1 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 1 (by decide : 1 ≤ 29)
  · intro b hb; match b with | ⟨0, _⟩ => exact absurd rfl hb | ⟨1, _⟩ => rfl
  · rfl
theorem stack_2 (x0 : Vec Ideal S1x64x4096 .f32) (kk : Fin 8) (p : Fin 4096) :
    stack (F := Ideal) x0 (ix2 (⟨8 * 2 + kk.val, by have := kk.isLt; omega⟩ : Fin 232) p) = (N65 (F := Ideal) x0) (ix2 kk p) := by
  unfold stack
  refine concatenate_apply_piece (⟨0, by decide⟩ : Fin 2) _ _ (ix2 (⟨8 * 2 + kk.val, by have := kk.isLt; omega⟩ : Fin 232) p) 2 ?_ S8x4096 _ ?_ rfl (8 * 2) ?_ (ix2 kk p) ?_ ?_
  · exact (by decide : 2 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 2 (by decide : 2 ≤ 29)
  · intro b hb; match b with | ⟨0, _⟩ => exact absurd rfl hb | ⟨1, _⟩ => rfl
  · rfl
theorem stack_3 (x0 : Vec Ideal S1x64x4096 .f32) (kk : Fin 8) (p : Fin 4096) :
    stack (F := Ideal) x0 (ix2 (⟨8 * 3 + kk.val, by have := kk.isLt; omega⟩ : Fin 232) p) = (P0 (F := Ideal) x0) (ix2 kk p) := by
  unfold stack
  refine concatenate_apply_piece (⟨0, by decide⟩ : Fin 2) _ _ (ix2 (⟨8 * 3 + kk.val, by have := kk.isLt; omega⟩ : Fin 232) p) 3 ?_ S8x4096 _ ?_ rfl (8 * 3) ?_ (ix2 kk p) ?_ ?_
  · exact (by decide : 3 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 3 (by decide : 3 ≤ 29)
  · intro b hb; match b with | ⟨0, _⟩ => exact absurd rfl hb | ⟨1, _⟩ => rfl
  · rfl
theorem stack_4 (x0 : Vec Ideal S1x64x4096 .f32) (kk : Fin 8) (p : Fin 4096) :
    stack (F := Ideal) x0 (ix2 (⟨8 * 4 + kk.val, by have := kk.isLt; omega⟩ : Fin 232) p) = (P65 (F := Ideal) x0) (ix2 kk p) := by
  unfold stack
  refine concatenate_apply_piece (⟨0, by decide⟩ : Fin 2) _ _ (ix2 (⟨8 * 4 + kk.val, by have := kk.isLt; omega⟩ : Fin 232) p) 4 ?_ S8x4096 _ ?_ rfl (8 * 4) ?_ (ix2 kk p) ?_ ?_
  · exact (by decide : 4 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 4 (by decide : 4 ≤ 29)
  · intro b hb; match b with | ⟨0, _⟩ => exact absurd rfl hb | ⟨1, _⟩ => rfl
  · rfl
theorem stack_5 (x0 : Vec Ideal S1x64x4096 .f32) (kk : Fin 8) (p : Fin 4096) :
    stack (F := Ideal) x0 (ix2 (⟨8 * 5 + kk.val, by have := kk.isLt; omega⟩ : Fin 232) p) = (P130 (F := Ideal) x0) (ix2 kk p) := by
  unfold stack
  refine concatenate_apply_piece (⟨0, by decide⟩ : Fin 2) _ _ (ix2 (⟨8 * 5 + kk.val, by have := kk.isLt; omega⟩ : Fin 232) p) 5 ?_ S8x4096 _ ?_ rfl (8 * 5) ?_ (ix2 kk p) ?_ ?_
  · exact (by decide : 5 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 5 (by decide : 5 ≤ 29)
  · intro b hb; match b with | ⟨0, _⟩ => exact absurd rfl hb | ⟨1, _⟩ => rfl
  · rfl
theorem stack_6 (x0 : Vec Ideal S1x64x4096 .f32) (kk : Fin 8) (p : Fin 4096) :
    stack (F := Ideal) x0 (ix2 (⟨8 * 6 + kk.val, by have := kk.isLt; omega⟩ : Fin 232) p) = (P195 (F := Ideal) x0) (ix2 kk p) := by
  unfold stack
  refine concatenate_apply_piece (⟨0, by decide⟩ : Fin 2) _ _ (ix2 (⟨8 * 6 + kk.val, by have := kk.isLt; omega⟩ : Fin 232) p) 6 ?_ S8x4096 _ ?_ rfl (8 * 6) ?_ (ix2 kk p) ?_ ?_
  · exact (by decide : 6 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 6 (by decide : 6 ≤ 29)
  · intro b hb; match b with | ⟨0, _⟩ => exact absurd rfl hb | ⟨1, _⟩ => rfl
  · rfl
theorem stack_7 (x0 : Vec Ideal S1x64x4096 .f32) (kk : Fin 8) (p : Fin 4096) :
    stack (F := Ideal) x0 (ix2 (⟨8 * 7 + kk.val, by have := kk.isLt; omega⟩ : Fin 232) p) = (N192 (F := Ideal) x0) (ix2 kk p) := by
  unfold stack
  refine concatenate_apply_piece (⟨0, by decide⟩ : Fin 2) _ _ (ix2 (⟨8 * 7 + kk.val, by have := kk.isLt; omega⟩ : Fin 232) p) 7 ?_ S8x4096 _ ?_ rfl (8 * 7) ?_ (ix2 kk p) ?_ ?_
  · exact (by decide : 7 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 7 (by decide : 7 ≤ 29)
  · intro b hb; match b with | ⟨0, _⟩ => exact absurd rfl hb | ⟨1, _⟩ => rfl
  · rfl
theorem stack_8 (x0 : Vec Ideal S1x64x4096 .f32) (kk : Fin 8) (p : Fin 4096) :
    stack (F := Ideal) x0 (ix2 (⟨8 * 8 + kk.val, by have := kk.isLt; omega⟩ : Fin 232) p) = (N128 (F := Ideal) x0) (ix2 kk p) := by
  unfold stack
  refine concatenate_apply_piece (⟨0, by decide⟩ : Fin 2) _ _ (ix2 (⟨8 * 8 + kk.val, by have := kk.isLt; omega⟩ : Fin 232) p) 8 ?_ S8x4096 _ ?_ rfl (8 * 8) ?_ (ix2 kk p) ?_ ?_
  · exact (by decide : 8 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 8 (by decide : 8 ≤ 29)
  · intro b hb; match b with | ⟨0, _⟩ => exact absurd rfl hb | ⟨1, _⟩ => rfl
  · rfl
theorem stack_9 (x0 : Vec Ideal S1x64x4096 .f32) (kk : Fin 8) (p : Fin 4096) :
    stack (F := Ideal) x0 (ix2 (⟨8 * 9 + kk.val, by have := kk.isLt; omega⟩ : Fin 232) p) = (N64 (F := Ideal) x0) (ix2 kk p) := by
  unfold stack
  refine concatenate_apply_piece (⟨0, by decide⟩ : Fin 2) _ _ (ix2 (⟨8 * 9 + kk.val, by have := kk.isLt; omega⟩ : Fin 232) p) 9 ?_ S8x4096 _ ?_ rfl (8 * 9) ?_ (ix2 kk p) ?_ ?_
  · exact (by decide : 9 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 9 (by decide : 9 ≤ 29)
  · intro b hb; match b with | ⟨0, _⟩ => exact absurd rfl hb | ⟨1, _⟩ => rfl
  · rfl
theorem stack_10 (x0 : Vec Ideal S1x64x4096 .f32) (kk : Fin 8) (p : Fin 4096) :
    stack (F := Ideal) x0 (ix2 (⟨8 * 10 + kk.val, by have := kk.isLt; omega⟩ : Fin 232) p) = (P0 (F := Ideal) x0) (ix2 kk p) := by
  unfold stack
  refine concatenate_apply_piece (⟨0, by decide⟩ : Fin 2) _ _ (ix2 (⟨8 * 10 + kk.val, by have := kk.isLt; omega⟩ : Fin 232) p) 10 ?_ S8x4096 _ ?_ rfl (8 * 10) ?_ (ix2 kk p) ?_ ?_
  · exact (by decide : 10 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 10 (by decide : 10 ≤ 29)
  · intro b hb; match b with | ⟨0, _⟩ => exact absurd rfl hb | ⟨1, _⟩ => rfl
  · rfl
theorem stack_11 (x0 : Vec Ideal S1x64x4096 .f32) (kk : Fin 8) (p : Fin 4096) :
    stack (F := Ideal) x0 (ix2 (⟨8 * 11 + kk.val, by have := kk.isLt; omega⟩ : Fin 232) p) = (P64 (F := Ideal) x0) (ix2 kk p) := by
  unfold stack
  refine concatenate_apply_piece (⟨0, by decide⟩ : Fin 2) _ _ (ix2 (⟨8 * 11 + kk.val, by have := kk.isLt; omega⟩ : Fin 232) p) 11 ?_ S8x4096 _ ?_ rfl (8 * 11) ?_ (ix2 kk p) ?_ ?_
  · exact (by decide : 11 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 11 (by decide : 11 ≤ 29)
  · intro b hb; match b with | ⟨0, _⟩ => exact absurd rfl hb | ⟨1, _⟩ => rfl
  · rfl
theorem stack_12 (x0 : Vec Ideal S1x64x4096 .f32) (kk : Fin 8) (p : Fin 4096) :
    stack (F := Ideal) x0 (ix2 (⟨8 * 12 + kk.val, by have := kk.isLt; omega⟩ : Fin 232) p) = (P128 (F := Ideal) x0) (ix2 kk p) := by
  unfold stack
  refine concatenate_apply_piece (⟨0, by decide⟩ : Fin 2) _ _ (ix2 (⟨8 * 12 + kk.val, by have := kk.isLt; omega⟩ : Fin 232) p) 12 ?_ S8x4096 _ ?_ rfl (8 * 12) ?_ (ix2 kk p) ?_ ?_
  · exact (by decide : 12 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 12 (by decide : 12 ≤ 29)
  · intro b hb; match b with | ⟨0, _⟩ => exact absurd rfl hb | ⟨1, _⟩ => rfl
  · rfl
theorem stack_13 (x0 : Vec Ideal S1x64x4096 .f32) (kk : Fin 8) (p : Fin 4096) :
    stack (F := Ideal) x0 (ix2 (⟨8 * 13 + kk.val, by have := kk.isLt; omega⟩ : Fin 232) p) = (P192 (F := Ideal) x0) (ix2 kk p) := by
  unfold stack
  refine concatenate_apply_piece (⟨0, by decide⟩ : Fin 2) _ _ (ix2 (⟨8 * 13 + kk.val, by have := kk.isLt; omega⟩ : Fin 232) p) 13 ?_ S8x4096 _ ?_ rfl (8 * 13) ?_ (ix2 kk p) ?_ ?_
  · exact (by decide : 13 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 13 (by decide : 13 ≤ 29)
  · intro b hb; match b with | ⟨0, _⟩ => exact absurd rfl hb | ⟨1, _⟩ => rfl
  · rfl
theorem stack_14 (x0 : Vec Ideal S1x64x4096 .f32) (kk : Fin 8) (p : Fin 4096) :
    stack (F := Ideal) x0 (ix2 (⟨8 * 14 + kk.val, by have := kk.isLt; omega⟩ : Fin 232) p) = (N189 (F := Ideal) x0) (ix2 kk p) := by
  unfold stack
  refine concatenate_apply_piece (⟨0, by decide⟩ : Fin 2) _ _ (ix2 (⟨8 * 14 + kk.val, by have := kk.isLt; omega⟩ : Fin 232) p) 14 ?_ S8x4096 _ ?_ rfl (8 * 14) ?_ (ix2 kk p) ?_ ?_
  · exact (by decide : 14 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 14 (by decide : 14 ≤ 29)
  · intro b hb; match b with | ⟨0, _⟩ => exact absurd rfl hb | ⟨1, _⟩ => rfl
  · rfl
theorem stack_15 (x0 : Vec Ideal S1x64x4096 .f32) (kk : Fin 8) (p : Fin 4096) :
    stack (F := Ideal) x0 (ix2 (⟨8 * 15 + kk.val, by have := kk.isLt; omega⟩ : Fin 232) p) = (N126 (F := Ideal) x0) (ix2 kk p) := by
  unfold stack
  refine concatenate_apply_piece (⟨0, by decide⟩ : Fin 2) _ _ (ix2 (⟨8 * 15 + kk.val, by have := kk.isLt; omega⟩ : Fin 232) p) 15 ?_ S8x4096 _ ?_ rfl (8 * 15) ?_ (ix2 kk p) ?_ ?_
  · exact (by decide : 15 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 15 (by decide : 15 ≤ 29)
  · intro b hb; match b with | ⟨0, _⟩ => exact absurd rfl hb | ⟨1, _⟩ => rfl
  · rfl
theorem stack_16 (x0 : Vec Ideal S1x64x4096 .f32) (kk : Fin 8) (p : Fin 4096) :
    stack (F := Ideal) x0 (ix2 (⟨8 * 16 + kk.val, by have := kk.isLt; omega⟩ : Fin 232) p) = (N63 (F := Ideal) x0) (ix2 kk p) := by
  unfold stack
  refine concatenate_apply_piece (⟨0, by decide⟩ : Fin 2) _ _ (ix2 (⟨8 * 16 + kk.val, by have := kk.isLt; omega⟩ : Fin 232) p) 16 ?_ S8x4096 _ ?_ rfl (8 * 16) ?_ (ix2 kk p) ?_ ?_
  · exact (by decide : 16 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 16 (by decide : 16 ≤ 29)
  · intro b hb; match b with | ⟨0, _⟩ => exact absurd rfl hb | ⟨1, _⟩ => rfl
  · rfl
theorem stack_17 (x0 : Vec Ideal S1x64x4096 .f32) (kk : Fin 8) (p : Fin 4096) :
    stack (F := Ideal) x0 (ix2 (⟨8 * 17 + kk.val, by have := kk.isLt; omega⟩ : Fin 232) p) = (P0 (F := Ideal) x0) (ix2 kk p) := by
  unfold stack
  refine concatenate_apply_piece (⟨0, by decide⟩ : Fin 2) _ _ (ix2 (⟨8 * 17 + kk.val, by have := kk.isLt; omega⟩ : Fin 232) p) 17 ?_ S8x4096 _ ?_ rfl (8 * 17) ?_ (ix2 kk p) ?_ ?_
  · exact (by decide : 17 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 17 (by decide : 17 ≤ 29)
  · intro b hb; match b with | ⟨0, _⟩ => exact absurd rfl hb | ⟨1, _⟩ => rfl
  · rfl
theorem stack_18 (x0 : Vec Ideal S1x64x4096 .f32) (kk : Fin 8) (p : Fin 4096) :
    stack (F := Ideal) x0 (ix2 (⟨8 * 18 + kk.val, by have := kk.isLt; omega⟩ : Fin 232) p) = (P63 (F := Ideal) x0) (ix2 kk p) := by
  unfold stack
  refine concatenate_apply_piece (⟨0, by decide⟩ : Fin 2) _ _ (ix2 (⟨8 * 18 + kk.val, by have := kk.isLt; omega⟩ : Fin 232) p) 18 ?_ S8x4096 _ ?_ rfl (8 * 18) ?_ (ix2 kk p) ?_ ?_
  · exact (by decide : 18 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 18 (by decide : 18 ≤ 29)
  · intro b hb; match b with | ⟨0, _⟩ => exact absurd rfl hb | ⟨1, _⟩ => rfl
  · rfl
theorem stack_19 (x0 : Vec Ideal S1x64x4096 .f32) (kk : Fin 8) (p : Fin 4096) :
    stack (F := Ideal) x0 (ix2 (⟨8 * 19 + kk.val, by have := kk.isLt; omega⟩ : Fin 232) p) = (P126 (F := Ideal) x0) (ix2 kk p) := by
  unfold stack
  refine concatenate_apply_piece (⟨0, by decide⟩ : Fin 2) _ _ (ix2 (⟨8 * 19 + kk.val, by have := kk.isLt; omega⟩ : Fin 232) p) 19 ?_ S8x4096 _ ?_ rfl (8 * 19) ?_ (ix2 kk p) ?_ ?_
  · exact (by decide : 19 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 19 (by decide : 19 ≤ 29)
  · intro b hb; match b with | ⟨0, _⟩ => exact absurd rfl hb | ⟨1, _⟩ => rfl
  · rfl
theorem stack_20 (x0 : Vec Ideal S1x64x4096 .f32) (kk : Fin 8) (p : Fin 4096) :
    stack (F := Ideal) x0 (ix2 (⟨8 * 20 + kk.val, by have := kk.isLt; omega⟩ : Fin 232) p) = (P189 (F := Ideal) x0) (ix2 kk p) := by
  unfold stack
  refine concatenate_apply_piece (⟨0, by decide⟩ : Fin 2) _ _ (ix2 (⟨8 * 20 + kk.val, by have := kk.isLt; omega⟩ : Fin 232) p) 20 ?_ S8x4096 _ ?_ rfl (8 * 20) ?_ (ix2 kk p) ?_ ?_
  · exact (by decide : 20 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 20 (by decide : 20 ≤ 29)
  · intro b hb; match b with | ⟨0, _⟩ => exact absurd rfl hb | ⟨1, _⟩ => rfl
  · rfl
theorem stack_21 (x0 : Vec Ideal S1x64x4096 .f32) (kk : Fin 8) (p : Fin 4096) :
    stack (F := Ideal) x0 (ix2 (⟨8 * 21 + kk.val, by have := kk.isLt; omega⟩ : Fin 232) p) = (N3 (F := Ideal) x0) (ix2 kk p) := by
  unfold stack
  refine concatenate_apply_piece (⟨0, by decide⟩ : Fin 2) _ _ (ix2 (⟨8 * 21 + kk.val, by have := kk.isLt; omega⟩ : Fin 232) p) 21 ?_ S8x4096 _ ?_ rfl (8 * 21) ?_ (ix2 kk p) ?_ ?_
  · exact (by decide : 21 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 21 (by decide : 21 ≤ 29)
  · intro b hb; match b with | ⟨0, _⟩ => exact absurd rfl hb | ⟨1, _⟩ => rfl
  · rfl
theorem stack_22 (x0 : Vec Ideal S1x64x4096 .f32) (kk : Fin 8) (p : Fin 4096) :
    stack (F := Ideal) x0 (ix2 (⟨8 * 22 + kk.val, by have := kk.isLt; omega⟩ : Fin 232) p) = (N2 (F := Ideal) x0) (ix2 kk p) := by
  unfold stack
  refine concatenate_apply_piece (⟨0, by decide⟩ : Fin 2) _ _ (ix2 (⟨8 * 22 + kk.val, by have := kk.isLt; omega⟩ : Fin 232) p) 22 ?_ S8x4096 _ ?_ rfl (8 * 22) ?_ (ix2 kk p) ?_ ?_
  · exact (by decide : 22 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 22 (by decide : 22 ≤ 29)
  · intro b hb; match b with | ⟨0, _⟩ => exact absurd rfl hb | ⟨1, _⟩ => rfl
  · rfl
theorem stack_23 (x0 : Vec Ideal S1x64x4096 .f32) (kk : Fin 8) (p : Fin 4096) :
    stack (F := Ideal) x0 (ix2 (⟨8 * 23 + kk.val, by have := kk.isLt; omega⟩ : Fin 232) p) = (N1 (F := Ideal) x0) (ix2 kk p) := by
  unfold stack
  refine concatenate_apply_piece (⟨0, by decide⟩ : Fin 2) _ _ (ix2 (⟨8 * 23 + kk.val, by have := kk.isLt; omega⟩ : Fin 232) p) 23 ?_ S8x4096 _ ?_ rfl (8 * 23) ?_ (ix2 kk p) ?_ ?_
  · exact (by decide : 23 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 23 (by decide : 23 ≤ 29)
  · intro b hb; match b with | ⟨0, _⟩ => exact absurd rfl hb | ⟨1, _⟩ => rfl
  · rfl
theorem stack_24 (x0 : Vec Ideal S1x64x4096 .f32) (kk : Fin 8) (p : Fin 4096) :
    stack (F := Ideal) x0 (ix2 (⟨8 * 24 + kk.val, by have := kk.isLt; omega⟩ : Fin 232) p) = (P0 (F := Ideal) x0) (ix2 kk p) := by
  unfold stack
  refine concatenate_apply_piece (⟨0, by decide⟩ : Fin 2) _ _ (ix2 (⟨8 * 24 + kk.val, by have := kk.isLt; omega⟩ : Fin 232) p) 24 ?_ S8x4096 _ ?_ rfl (8 * 24) ?_ (ix2 kk p) ?_ ?_
  · exact (by decide : 24 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 24 (by decide : 24 ≤ 29)
  · intro b hb; match b with | ⟨0, _⟩ => exact absurd rfl hb | ⟨1, _⟩ => rfl
  · rfl
theorem stack_25 (x0 : Vec Ideal S1x64x4096 .f32) (kk : Fin 8) (p : Fin 4096) :
    stack (F := Ideal) x0 (ix2 (⟨8 * 25 + kk.val, by have := kk.isLt; omega⟩ : Fin 232) p) = (P1 (F := Ideal) x0) (ix2 kk p) := by
  unfold stack
  refine concatenate_apply_piece (⟨0, by decide⟩ : Fin 2) _ _ (ix2 (⟨8 * 25 + kk.val, by have := kk.isLt; omega⟩ : Fin 232) p) 25 ?_ S8x4096 _ ?_ rfl (8 * 25) ?_ (ix2 kk p) ?_ ?_
  · exact (by decide : 25 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 25 (by decide : 25 ≤ 29)
  · intro b hb; match b with | ⟨0, _⟩ => exact absurd rfl hb | ⟨1, _⟩ => rfl
  · rfl
theorem stack_26 (x0 : Vec Ideal S1x64x4096 .f32) (kk : Fin 8) (p : Fin 4096) :
    stack (F := Ideal) x0 (ix2 (⟨8 * 26 + kk.val, by have := kk.isLt; omega⟩ : Fin 232) p) = (P2 (F := Ideal) x0) (ix2 kk p) := by
  unfold stack
  refine concatenate_apply_piece (⟨0, by decide⟩ : Fin 2) _ _ (ix2 (⟨8 * 26 + kk.val, by have := kk.isLt; omega⟩ : Fin 232) p) 26 ?_ S8x4096 _ ?_ rfl (8 * 26) ?_ (ix2 kk p) ?_ ?_
  · exact (by decide : 26 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 26 (by decide : 26 ≤ 29)
  · intro b hb; match b with | ⟨0, _⟩ => exact absurd rfl hb | ⟨1, _⟩ => rfl
  · rfl
theorem stack_27 (x0 : Vec Ideal S1x64x4096 .f32) (kk : Fin 8) (p : Fin 4096) :
    stack (F := Ideal) x0 (ix2 (⟨8 * 27 + kk.val, by have := kk.isLt; omega⟩ : Fin 232) p) = (P3 (F := Ideal) x0) (ix2 kk p) := by
  unfold stack
  refine concatenate_apply_piece (⟨0, by decide⟩ : Fin 2) _ _ (ix2 (⟨8 * 27 + kk.val, by have := kk.isLt; omega⟩ : Fin 232) p) 27 ?_ S8x4096 _ ?_ rfl (8 * 27) ?_ (ix2 kk p) ?_ ?_
  · exact (by decide : 27 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 27 (by decide : 27 ≤ 29)
  · intro b hb; match b with | ⟨0, _⟩ => exact absurd rfl hb | ⟨1, _⟩ => rfl
  · rfl
theorem stack_28 (x0 : Vec Ideal S1x64x4096 .f32) (kk : Fin 8) (p : Fin 4096) :
    stack (F := Ideal) x0 (ix2 (⟨8 * 28 + kk.val, by have := kk.isLt; omega⟩ : Fin 232) p) = (onesT (F := Ideal)) (ix2 kk p) := by
  unfold stack
  refine concatenate_apply_piece (⟨0, by decide⟩ : Fin 2) _ _ (ix2 (⟨8 * 28 + kk.val, by have := kk.isLt; omega⟩ : Fin 232) p) 28 ?_ S8x4096 _ ?_ rfl (8 * 28) ?_ (ix2 kk p) ?_ ?_
  · exact (by decide : 28 < 29)
  · rfl
  · exact pre8 _ rfl _ (by intro x hx; simp only [List.mem_cons, List.not_mem_nil, or_false] at hx; rcases hx with rfl | rfl | rfl | rfl | rfl | rfl | rfl | rfl | rfl | rfl | rfl | rfl | rfl | rfl | rfl | rfl | rfl | rfl | rfl | rfl | rfl | rfl | rfl | rfl | rfl | rfl | rfl | rfl | rfl <;> rfl) 28 (by decide : 28 ≤ 29)
  · intro b hb; match b with | ⟨0, _⟩ => exact absurd rfl hb | ⟨1, _⟩ => rfl
  · rfl

/-- Row 8 n + k of the algebra's stacked array, n one of the 28 shifts. -/
theorem pp_lt (xn : ℕ → ℕ → EReal) (n kk : ℕ) (hn : n < 28) (hk : kk < 8) (p : ℕ) :
    Cert.Spec.pp xn (8 * n + kk) p = Cert.Spec.part xn (Cert.Spec.shiftR n) (Cert.Spec.shiftC n) kk p := by
  unfold Cert.Spec.pp
  rw [if_pos (by omega), show (8 * n + kk) / 8 = n by omega, show (8 * n + kk) % 8 = kk by omega]

/-- Rows 224..231: the bias row, then zeros. -/
theorem pp_bias (xn : ℕ → ℕ → EReal) (kk : ℕ) (hk : kk < 8) (p : ℕ) :
    Cert.Spec.pp xn (8 * 28 + kk) p = if kk = 0 then (1 : EReal) else 0 := by
  unfold Cert.Spec.pp
  rw [if_neg (by omega)]
  by_cases h0 : kk = 0
  · rw [if_pos (by omega), if_pos h0]
  · rw [if_neg (by omega), if_neg h0]

/-- The stack at row j and position p. -/
theorem stack_pp (x0 : Vec Ideal S1x64x4096 .f32) (j : Fin 232) (p : Fin 4096) :
    stack (F := Ideal) x0 (ix2 j p) = Cert.Spec.pp (XN x0) j.val p.val := by
  obtain ⟨n, kk, hn, rfl⟩ : ∃ (n : ℕ) (kk : Fin 8) (hn : n < 29), j = ⟨8 * n + kk.val, by have := kk.isLt; omega⟩ :=
    ⟨j.val / 8, ⟨j.val % 8, Nat.mod_lt _ (by decide)⟩, by have := j.isLt; omega, Fin.ext (by show j.val = 8 * (j.val / 8) + j.val % 8; omega)⟩
  show _ = Cert.Spec.pp (XN x0) (8 * n + kk.val) p.val
  interval_cases n
  · rw [stack_0 x0 kk p, tile0_val, pp_lt _ 0 kk.val (by decide) kk.isLt]; rfl
  · rw [stack_1 x0 kk p, tile1_val, pp_lt _ 1 kk.val (by decide) kk.isLt]; rfl
  · rw [stack_2 x0 kk p, tile2_val, pp_lt _ 2 kk.val (by decide) kk.isLt]; rfl
  · rw [stack_3 x0 kk p, tile3_val, pp_lt _ 3 kk.val (by decide) kk.isLt]; rfl
  · rw [stack_4 x0 kk p, tile4_val, pp_lt _ 4 kk.val (by decide) kk.isLt]; rfl
  · rw [stack_5 x0 kk p, tile5_val, pp_lt _ 5 kk.val (by decide) kk.isLt]; rfl
  · rw [stack_6 x0 kk p, tile6_val, pp_lt _ 6 kk.val (by decide) kk.isLt]; rfl
  · rw [stack_7 x0 kk p, tile7_val, pp_lt _ 7 kk.val (by decide) kk.isLt]; rfl
  · rw [stack_8 x0 kk p, tile8_val, pp_lt _ 8 kk.val (by decide) kk.isLt]; rfl
  · rw [stack_9 x0 kk p, tile9_val, pp_lt _ 9 kk.val (by decide) kk.isLt]; rfl
  · rw [stack_10 x0 kk p, tile10_val, pp_lt _ 10 kk.val (by decide) kk.isLt]; rfl
  · rw [stack_11 x0 kk p, tile11_val, pp_lt _ 11 kk.val (by decide) kk.isLt]; rfl
  · rw [stack_12 x0 kk p, tile12_val, pp_lt _ 12 kk.val (by decide) kk.isLt]; rfl
  · rw [stack_13 x0 kk p, tile13_val, pp_lt _ 13 kk.val (by decide) kk.isLt]; rfl
  · rw [stack_14 x0 kk p, tile14_val, pp_lt _ 14 kk.val (by decide) kk.isLt]; rfl
  · rw [stack_15 x0 kk p, tile15_val, pp_lt _ 15 kk.val (by decide) kk.isLt]; rfl
  · rw [stack_16 x0 kk p, tile16_val, pp_lt _ 16 kk.val (by decide) kk.isLt]; rfl
  · rw [stack_17 x0 kk p, tile17_val, pp_lt _ 17 kk.val (by decide) kk.isLt]; rfl
  · rw [stack_18 x0 kk p, tile18_val, pp_lt _ 18 kk.val (by decide) kk.isLt]; rfl
  · rw [stack_19 x0 kk p, tile19_val, pp_lt _ 19 kk.val (by decide) kk.isLt]; rfl
  · rw [stack_20 x0 kk p, tile20_val, pp_lt _ 20 kk.val (by decide) kk.isLt]; rfl
  · rw [stack_21 x0 kk p, tile21_val, pp_lt _ 21 kk.val (by decide) kk.isLt]; rfl
  · rw [stack_22 x0 kk p, tile22_val, pp_lt _ 22 kk.val (by decide) kk.isLt]; rfl
  · rw [stack_23 x0 kk p, tile23_val, pp_lt _ 23 kk.val (by decide) kk.isLt]; rfl
  · rw [stack_24 x0 kk p, tile24_val, pp_lt _ 24 kk.val (by decide) kk.isLt]; rfl
  · rw [stack_25 x0 kk p, tile25_val, pp_lt _ 25 kk.val (by decide) kk.isLt]; rfl
  · rw [stack_26 x0 kk p, tile26_val, pp_lt _ 26 kk.val (by decide) kk.isLt]; rfl
  · rw [stack_27 x0 kk p, tile27_val, pp_lt _ 27 kk.val (by decide) kk.isLt]; rfl
  · rw [stack_28 x0 kk p, ones_val, pp_bias _ kk.val kk.isLt]

/-- The output block at output channel co and position p: the raw-feature weights against the image's channels,
    plus the widened weights against the stack. -/
theorem PV_apply (x0 : Vec Ideal S1x64x4096 .f32) (x1 : Vec Ideal S128x64 .f32) (x2 : Vec Ideal S128x232 .f32)
    (co : Fin 128) (p : Fin 4096) :
    PV (F := Ideal) x0 x1 x2 (ix3 (0 : Fin 1) co p)
      = (∑ c : Fin 64, x1 (ix2 co c) * x0 (ix3 (0 : Fin 1) c p)) + ∑ j : Fin 232, x2 (ix2 co j) * Cert.Spec.pp (XN x0) j.val p.val := by
  rw [PV_eq, Mat.pay1_apply, Mat.pay31_apply]
  congr 1
  · refine Finset.sum_congr rfl fun c _ => congrArg (_ * ·) ?_
    unfold k0_pay2
    refine (shapeCast_dropUnit_apply (![64, 4096] : Fin 2 → ℕ) _ _ (ix2 c p)).trans (congrArg x0 ?_)
    funext a; match a with | ⟨0, _⟩ => rfl | ⟨1, _⟩ => rfl | ⟨2, _⟩ => rfl
  · exact Finset.sum_congr rfl fun j _ => congrArg (_ * ·) (stack_pp x0 j p)

end Cert.KernelIdeal.Val

end
-- ==== Proof.SpecAlgebraLift.lean ====
/- Finiteness lemmas for the certificate: the extended reals that are neither infinity are closed
   under the operations the two programs use, the normalizing factor included. -/
import Idealize.ShloMosaic.PureOps.Ideal
import proofs.«147926_g2000405799366230_pallasbulk_257_2_alg».proof.Proof.SpecAlgebra

namespace Cert.Spec

open Finset Idealize.ShloMosaic

/-- An extended real that is neither infinity. -/
abbrev IsReal (a : EReal) : Prop := a ≠ ⊤ ∧ a ≠ ⊥

theorem isReal_coe (r : ℝ) : IsReal (r : EReal) := ⟨EReal.coe_ne_top r, EReal.coe_ne_bot r⟩

theorem isReal_iff {a : EReal} : IsReal a ↔ ∃ r : ℝ, a = (r : EReal) :=
  ⟨fun h => exists_real h.1 h.2, fun ⟨r, hr⟩ => hr ▸ isReal_coe r⟩

theorem isReal_zero : IsReal (0 : EReal) := by simpa using isReal_coe 0

theorem isReal_one : IsReal (1 : EReal) := by simpa using isReal_coe 1

theorem IsReal.add {a b : EReal} (ha : IsReal a) (hb : IsReal b) : IsReal (a + b) := by
  obtain ⟨r, rfl⟩ := isReal_iff.1 ha
  obtain ⟨t, rfl⟩ := isReal_iff.1 hb
  rw [← EReal.coe_add]; exact isReal_coe _

theorem IsReal.mul {a b : EReal} (ha : IsReal a) (hb : IsReal b) : IsReal (a * b) := by
  obtain ⟨r, rfl⟩ := isReal_iff.1 ha
  obtain ⟨t, rfl⟩ := isReal_iff.1 hb
  rw [← EReal.coe_mul]; exact isReal_coe _

theorem IsReal.max {a b : EReal} (ha : IsReal a) (hb : IsReal b) : IsReal (max a b) := by
  rcases max_choice a b with h | h <;> rw [h] <;> assumption

theorem IsReal.ite {c : Prop} [Decidable c] {a b : EReal} (ha : IsReal a) (hb : IsReal b) :
    IsReal (if c then a else b) := by
  split_ifs <;> assumption

theorem isReal_sum {ι : Type} (s : Finset ι) (f : ι → EReal) (h : ∀ i ∈ s, IsReal (f i)) :
    IsReal (∑ i ∈ s, f i) := by
  have : ∑ i ∈ s, f i = ∑ i ∈ s, (((f i).toReal : ℝ) : EReal) :=
    Finset.sum_congr rfl fun i hi => (EReal.coe_toReal (h i hi).1 (h i hi).2).symm
  rw [this, ← coe_sum]; exact isReal_coe _

/-- The reciprocal square root of a positive real. -/
theorem rsqrt_coe_pos {r : ℝ} (hr : 0 < r) :
    Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 hr.le), if_neg hr.ne']

/-- The normalizing factor: the reciprocal square root of a finite quantity clamped from below by
    a positive real is finite. -/
theorem isReal_rsqrt_max {a : EReal} (ha : IsReal a) {e : ℝ} (he : 0 < e) :
    IsReal (Ideal.rsqrt (max a (e : EReal))) := by
  obtain ⟨r, rfl⟩ := isReal_iff.1 ha
  rw [← (EReal.coe_strictMono.monotone.map_max : ((max r e : ℝ) : EReal) = max (r : EReal) (e : EReal)),
    rsqrt_coe_pos (lt_max_of_lt_right he)]
  exact isReal_coe _

/-- The single-precision pattern of the clamp constant denotes a positive real. -/
theorem ofBits_clamp : ∃ e : ℝ, 0 < e ∧ Ideal.ofBits .f32 0x179ABE15#32 = (e : EReal) := by
  have h : Ideal.ofBits .f32 0x179ABE15#32 = (((10141205 : ℝ) * ((2 : ℝ) ^ 103)⁻¹ : ℝ) : EReal) := by
    simp [Ideal.ofBits, Ideal.ieee]
  exact ⟨_, by positivity, h⟩

/-- The normalizing factor at reals, spelt out. -/
theorem rsqrt_max_coe (r : ℝ) {e : ℝ} (he : 0 < e) :
    Ideal.rsqrt (max (r : EReal) (e : EReal)) = (((Real.sqrt (max r e))⁻¹ : ℝ) : EReal) := by
  rw [← (EReal.coe_strictMono.monotone.map_max : ((max r e : ℝ) : EReal) = max (r : EReal) (e : EReal)),
    rsqrt_coe_pos (lt_max_of_lt_right he)]

/-- The normalized feature: a finite entry times the normalizing factor of finitely many finite
    entries is finite. -/
theorem isReal_normalized {ι : Type} (s : Finset ι) (X : ι → EReal) (hX : ∀ i ∈ s, IsReal (X i))
    {a : EReal} (ha : IsReal a) {e : ℝ} (he : 0 < e) :
    IsReal (a * Ideal.rsqrt (max (∑ i ∈ s, X i * X i) (e : EReal))) :=
  ha.mul (isReal_rsqrt_max (isReal_sum s _ fun i hi => (hX i hi).mul (hX i hi)) he)

/-- The same with the clamp constant as the programs write it. -/
theorem isReal_normalized_clamp {ι : Type} (s : Finset ι) (X : ι → EReal)
    (hX : ∀ i ∈ s, IsReal (X i)) {a : EReal} (ha : IsReal a) :
    IsReal (a * Ideal.rsqrt (max (∑ i ∈ s, X i * X i) (Ideal.ofBits .f32 0x179ABE15#32))) := by
  obtain ⟨e, he, h⟩ := ofBits_clamp
  rw [h]; exact isReal_normalized s X hX ha he

end Cert.Spec
-- ==== Proof.NormOps.lean ====
/- The normalization step read at an index, and the finiteness of the total arrays both programs'
   results are stated over. -/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«147926_g2000405799366230_pallasbulk_257_2_alg».proof.Proof.SpecArrays
import proofs.«147926_g2000405799366230_pallasbulk_257_2_alg».proof.Proof.SpecAlgebraLift

noncomputable section

namespace Cert.NormOps

open Idealize.ShloMosaic Idealize.ShloMosaic.ValueIdx Cert.SpecArrays

/-- The normalized tile at channel 'c', position 'p': the entry times the reciprocal square root of
    the position's squared length over the 64 channels, the squared length clamped from below. -/
theorem normalize_apply (v1 : FVec Ideal (⟨2, ![64, 4096]⟩ : Shape) .f32)
    (hred : (⟨2, ![64, 4096]⟩ : Shape).Reduces [0] (⟨1, ![4096]⟩ : Shape))
    (hsc : (⟨1, ![4096]⟩ : Shape).ShapeCasts (⟨2, ![1, 4096]⟩ : Shape))
    (hb : (⟨2, ![1, 4096]⟩ : Shape).Broadcasts (⟨2, ![64, 4096]⟩ : Shape))
    (c : Fin 64) (p : Fin 4096) :
    mulf v1 (broadcastTo (⟨2, ![64, 4096]⟩ : Shape)
        (rsqrt (maximumf
          (shapeCast (⟨2, ![1, 4096]⟩ : Shape)
            (multiReduction .add [0] (⟨1, ![4096]⟩ : Shape) (mulf v1 v1) 0x00000000#32 hred
              (.inl rfl) rfl) hsc)
          (broadcast (⟨2, ![1, 4096]⟩ : Shape)
            (Scalar.ofBits (F := Ideal) .f32 0x179ABE15#32)))) hb) (ix2 c p)
      = v1 (ix2 c p) * Ideal.rsqrt (max (∑ c' : Fin 64, v1 (ix2 c' p) * v1 (ix2 c' p))
          (Ideal.ofBits .f32 0x179ABE15#32)) := by
  show v1 (ix2 c p) * _ = _
  congr 1
  refine (broadcastTo_apply _ hb (ix2 c p) (ix2 (0 : Fin 1) p) ?_).trans ?_
  · intro a
    match a with
    | ⟨0, _⟩ => rfl
    | ⟨1, _⟩ => rfl
  · show Ideal.rsqrt (max (shapeCast (⟨2, ![1, 4096]⟩ : Shape) _ hsc (ix2 (0 : Fin 1) p))
        (Ideal.ofBits .f32 0x179ABE15#32)) = _
    congr 2
    refine (shapeCast_apply _ hsc (ix2 (0 : Fin 1) p) (ix1 p) ?_).trans ?_
    · rw [Shape.rowMajor_val_one, Shape.rowMajor_val_two]
      show p.val = 0 * 4096 + p.val
      omega
    · refine (Ideal.multiReduction_add_single _ 0x00000000#32 hred (.inl rfl) rfl (ix1 p)).trans ?_
      show ∑ c' : Fin 64, _ = _
      refine Finset.sum_congr rfl fun c' _ => ?_
      have hl : hred.lift (ix1 p) c' = ix2 c' p := by
        funext a
        match a with
        | ⟨0, _⟩ => rfl
        | ⟨1, _⟩ => rfl
      rw [hl]; rfl

/-- The same, as the total array of normalized features over a total array that the tile reads. -/
theorem normalize_eq_XNof (v1 : FVec Ideal (⟨2, ![64, 4096]⟩ : Shape) .f32) (X : ℕ → ℕ → EReal)
    (hv : ∀ (c : Fin 64) (p : Fin 4096), v1 (ix2 c p) = X c.val p.val)
    (hred : (⟨2, ![64, 4096]⟩ : Shape).Reduces [0] (⟨1, ![4096]⟩ : Shape))
    (hsc : (⟨1, ![4096]⟩ : Shape).ShapeCasts (⟨2, ![1, 4096]⟩ : Shape))
    (hb : (⟨2, ![1, 4096]⟩ : Shape).Broadcasts (⟨2, ![64, 4096]⟩ : Shape))
    (c : Fin 64) (p : Fin 4096) :
    mulf v1 (broadcastTo (⟨2, ![64, 4096]⟩ : Shape)
        (rsqrt (maximumf
          (shapeCast (⟨2, ![1, 4096]⟩ : Shape)
            (multiReduction .add [0] (⟨1, ![4096]⟩ : Shape) (mulf v1 v1) 0x00000000#32 hred
              (.inl rfl) rfl) hsc)
          (broadcast (⟨2, ![1, 4096]⟩ : Shape)
            (Scalar.ofBits (F := Ideal) .f32 0x179ABE15#32)))) hb) (ix2 c p)
      = XNof X c.val p.val := by
  rw [normalize_apply]
  unfold XNof ssq eps
  rw [if_pos ⟨c.isLt, p.isLt⟩]
  simp only [hv]

/-! ## Finiteness of the total arrays -/

theorem Xof_finite (A0 : FVec Ideal (⟨4, ![32, 64, 64, 64]⟩ : Shape) .f32) (img : Fin 32)
    (h : ∀ i, A0 i ≠ ⊤ ∧ A0 i ≠ ⊥) : ∀ a b, Xof A0 img a b ≠ ⊤ ∧ Xof A0 img a b ≠ ⊥ := by
  intro a b
  unfold Xof
  split_ifs
  · exact h _
  · exact Cert.Spec.isReal_zero

theorem WTof_finite (A1 : FVec Ideal (⟨2, ![128, 92]⟩ : Shape) .f32)
    (h : ∀ i, A1 i ≠ ⊤ ∧ A1 i ≠ ⊥) : ∀ a b, WTof A1 a b ≠ ⊤ ∧ WTof A1 a b ≠ ⊥ := by
  intro a b
  unfold WTof
  split_ifs
  · exact h _
  · exact Cert.Spec.isReal_zero

theorem Bof_finite (A2 : FVec Ideal (⟨1, ![128]⟩ : Shape) .f32)
    (h : ∀ i, A2 i ≠ ⊤ ∧ A2 i ≠ ⊥) : ∀ a, Bof A2 a ≠ ⊤ ∧ Bof A2 a ≠ ⊥ := by
  intro a
  unfold Bof
  split_ifs
  · exact h _
  · exact Cert.Spec.isReal_zero

/-- The normalized features are finite when the raw ones are: the clamp constant is a positive
    real, so the reciprocal square root is of a positive real. -/
theorem XNof_finite (X : ℕ → ℕ → EReal) (hX : ∀ a b, X a b ≠ ⊤ ∧ X a b ≠ ⊥) :
    ∀ a b, XNof X a b ≠ ⊤ ∧ XNof X a b ≠ ⊥ := by
  intro a b
  unfold XNof
  split_ifs
  · exact Cert.Spec.isReal_normalized_clamp Finset.univ (fun c : Fin 64 => X c.val b)
      (fun i _ => hX _ _) (hX a b)
  · exact Cert.Spec.isReal_zero

end Cert.NormOps

end
-- ==== Proof.KIBridge.lean ====
/-
  The output block of one image is the kernel form of the correlation identity, over the argument arrays.

  Given that the image's input block holds its raw features, the second block the first 64 weight columns and the
  third the widened correlation weights with the bias column, the normalized features the body computes are the
  normalization of the raw ones, and the output block at (co, p) is
  (sum over channels of weight times feature) + (sum over the 232 stacked rows of widened weight times stack).
-/
import proofs.«147926_g2000405799366230_pallasbulk_257_2_alg».proof.Proof.KIVal3
import proofs.«147926_g2000405799366230_pallasbulk_257_2_alg».proof.Proof.SpecArrays
import proofs.«147926_g2000405799366230_pallasbulk_257_2_alg».proof.Proof.NormOps

set_option maxRecDepth 16384

noncomputable section

namespace Cert.KernelIdeal.Val

open Cert.KernelIdeal Cert.KernelIdeal.Gen Cert.KernelIdeal.Pay Cert.KernelIdeal.Tiles
open Idealize.ShloMosaic Idealize.ShloMosaic.ValueIdx Cert.SpecArrays

/-- The features as the body sees them (64 x 4096) are the image's raw features. -/
theorem pay2_apply (x0 : Vec Ideal S1x64x4096 .f32) (c : Fin 64) (p : Fin 4096) :
    k0_pay2 (F := Ideal) x0 (ix2 c p) = x0 (ix3 (0 : Fin 1) c p) := by
  unfold k0_pay2
  refine (shapeCast_dropUnit_apply (![64, 4096] : Fin 2 → ℕ) _ _ (ix2 c p)).trans (congrArg x0 ?_)
  funext a; match a with | ⟨0, _⟩ => rfl | ⟨1, _⟩ => rfl | ⟨2, _⟩ => rfl

/-- The normalized features the body computes are the normalization of the raw features. -/
theorem XN_eq (x0 : Vec Ideal S1x64x4096 .f32) (X : ℕ → ℕ → EReal)
    (h0 : ∀ (c : Fin 64) (p : Fin 4096), x0 (ix3 (0 : Fin 1) c p) = X c.val p.val) : XN x0 = XNof X := by
  funext a bq
  unfold XN tot
  by_cases hr : a < 64 ∧ bq < 4096
  · rw [dif_pos hr]
    unfold k0_pay3
    exact Cert.NormOps.normalize_eq_XNof (k0_pay2 (F := Ideal) x0) X (fun c p => (pay2_apply x0 c p).trans (h0 c p)) _ _ _ ⟨a, hr.1⟩ ⟨bq, hr.2⟩
  · rw [dif_neg hr]
    unfold XNof
    rw [if_neg hr]

/-- The output block at an index is the kernel form over the total arrays. -/
theorem PV_Kform (x0 : Vec Ideal S1x64x4096 .f32) (x1 : Vec Ideal S128x64 .f32) (x2 : Vec Ideal S128x232 .f32)
    (X WT : ℕ → ℕ → EReal) (B : ℕ → EReal)
    (h0 : ∀ (c : Fin 64) (p : Fin 4096), x0 (ix3 (0 : Fin 1) c p) = X c.val p.val)
    (h1 : ∀ (co : Fin 128) (c : Fin 64), x1 (ix2 co c) = WT co.val c.val)
    (h2 : ∀ (co : Fin 128) (j : Fin 232), x2 (ix2 co j) = Cert.Spec.w2 WT B co.val j.val)
    (co : Fin 128) (p : Fin 4096) :
    PV (F := Ideal) x0 x1 x2 (ix3 (0 : Fin 1) co p) = Cert.Spec.Kform X (XNof X) WT B co.val p.val := by
  rw [PV_apply, XN_eq x0 X h0]
  unfold Cert.Spec.Kform
  congr 1
  · exact Finset.sum_congr rfl fun c _ => by rw [h1, h0]
  · exact Finset.sum_congr rfl fun j _ => by rw [h2]

end Cert.KernelIdeal.Val

end
-- ==== Proof.RefFrame.lean ====
/-
  The reference program's frame: every execution terminates and the argument arrays end as launched.

  The reference is itself a pipelined kernel: 32 grid points, four input windows (the feature block, the two weight
  matrices, the bias), one output window, and ONE scratch buffer — a 1×70×75×64 padded copy of the channel-normalized
  block. At every point the body stores five rectangles of it (two zero bands of three rows, two zero bands of three
  columns, the normalized block in the middle) and then loads seven slabs of 64 full rows. The slabs include columns
  [0,5) of rows [3,67), which no store covers: there a load reads the buffer's contents on entry, which are unknown.
  Every use of a slab is a window of 64 columns starting at column 5 or later, so the unknown columns are never used:
  `payOut_of_run` says the value the body stores into the output window is a function of the input blocks alone,
  `out0_4` names it, and the frame follows as for any kernel whose outputs are functions of its input blocks.
-/
import proofs.«147926_g2000405799366230_pallasbulk_257_2_alg».proof.Proof.Gen.ReferenceIdeal.Frame
import proofs.«147926_g2000405799366230_pallasbulk_257_2_alg».proof.Proof.Gen.ReferenceIdeal.Skeleton

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The rectangles of the input windows' loads and of the output window's store: each the whole buffer. -/
abbrev rX : Rect S1x64x64x64 := Rect.unit (s := S1x64x64x64) ![0, 0, 0, 0] S1x64x64x64.size inb_S1x64x64x64_S1x64x64x64_0_0_0_0
abbrev rWx : Rect S64x128 := Rect.unit (s := S64x128) ![0, 0] S64x128.size inb_S64x128_S64x128_0_0
abbrev rWc : Rect S28x128 := Rect.unit (s := S28x128) ![0, 0] S28x128.size inb_S28x128_S28x128_0_0
abbrev rB : Rect S1x128 := Rect.unit (s := S1x128) ![0, 0] S1x128.size inb_S1x128_S1x128_0_0
abbrev rO : Rect S1x64x64x128 := Rect.unit (s := S1x64x64x128) ![0, 0, 0, 0] S1x64x64x128.size inb_S1x64x64x128_S1x64x64x128_0_0_0_0

/-- The five rectangles of the padded buffer the body stores: rows [0,3) and [67,70) over all 75 columns, rows [3,67) at
    columns [5,8) and [72,75) (zeros), and rows [3,67) at columns [8,72) (the normalized block). Rows [3,67) at columns
    [0,5) are never stored. -/
abbrev pTop : Rect S1x70x75x64 := Rect.unit (s := S1x70x75x64) ![0, 0, 0, 0] S1x3x75x64.size inb_S1x70x75x64_S1x3x75x64_0_0_0_0
abbrev pBot : Rect S1x70x75x64 := Rect.unit (s := S1x70x75x64) ![0, 67, 0, 0] S1x3x75x64.size inb_S1x70x75x64_S1x3x75x64_0_67_0_0
abbrev pLeft : Rect S1x70x75x64 := Rect.unit (s := S1x70x75x64) ![0, 3, 5, 0] S1x64x3x64.size inb_S1x70x75x64_S1x64x3x64_0_3_5_0
abbrev pRight : Rect S1x70x75x64 := Rect.unit (s := S1x70x75x64) ![0, 3, 72, 0] S1x64x3x64.size inb_S1x70x75x64_S1x64x3x64_0_3_72_0
abbrev pMid : Rect S1x70x75x64 := Rect.unit (s := S1x70x75x64) ![0, 3, 8, 0] S1x64x64x64.size inb_S1x70x75x64_S1x64x64x64_0_3_8_0

/-- The slab of 64 rows from row `r`, all 75 columns: what each of the body's seven loads of the padded buffer reads. -/
abbrev slab (r : ℕ) (h : ∀ a, (![0, r, 0, 0] : Fin 4 → Nat) a + S1x64x75x64.size a ≤ S1x70x75x64.size a) : Rect S1x70x75x64 :=
  Rect.unit (s := S1x70x75x64) ![0, r, 0, 0] S1x64x75x64.size h

/-- The padded buffer's stores as pieces, last first, from the normalized block `xn`. -/
def padL (xn : FVec F S1x64x64x64 .f32) : List (View.Piece (Elt F) S1x70x75x64 .f32) :=
  [⟨pMid, k0_pay8 xn⟩, ⟨pRight, k0_pay7 (F := F)⟩, ⟨pLeft, k0_pay6 (F := F)⟩, ⟨pBot, k0_pay5 (F := F)⟩, ⟨pTop, k0_pay4 (F := F)⟩]

/-- The padded buffer as ONE function of its index: the canon of its stores (off the stored rectangles — rows [3,67) at
    columns [0,5) — a value nothing below reads). -/
def pad (xn : FVec F S1x64x64x64 .f32) : Vec F S1x70x75x64 .f32 := View.canon (padL xn)

/-- The slab of 64 rows from row `r` of the padded buffer. -/
def slabOf (xn : FVec F S1x64x64x64 .f32) (r : ℕ) (h : ∀ a, (![0, r, 0, 0] : Fin 4 → Nat) a + S1x64x75x64.size a ≤ S1x70x75x64.size a) :
    Vec F S1x64x75x64 .f32 := View.ld (pad xn) (slab r h)

/-- The correlation matmul from the normalized block `v9`, the seven row slabs and the correlation weights: the printed
    payloads composed as the body composes them. -/
def corrOf (v9 : FVec F S1x64x64x64 .f32) (s0 s1 s2 s3 s4 s5 s6 : Vec F S1x64x75x64 .f32) (x2 : Vec F S28x128 .f32) : FVec F S4096x128 .f32 :=
  k0_pay28 v9 (k0_pay9 v9 s0) (k0_pay10 v9 s0) (k0_pay11 v9 s0) (k0_pay12 v9 s1) (k0_pay13 v9 s1) (k0_pay14 v9 s1)
    (k0_pay15 v9 s2) (k0_pay16 v9 s2) (k0_pay17 v9 s2) (k0_pay18 v9 s3) (k0_pay19 v9 s3) (k0_pay20 v9 s3) (k0_pay21 v9 s3)
    (k0_pay22 v9 s3) (k0_pay23 v9 s3) (k0_pay24 v9 s3) s4 (k0_pay25 v9 s4) (k0_pay26 v9 s4) s5 s6 x2

/-- What the body stores into the output window, from what its four loads of the input windows read. -/
def payOut (X0 : Vec F S1x64x64x64 .f32) (X1 : Vec F S64x128 .f32) (X2 : Vec F S28x128 .f32) (X3 : Vec F S1x128 .f32) : FVec F S1x64x64x128 .f32 :=
  k0_pay1 (k0_pay27 (k0_pay2 X0) X1)
    (corrOf (k0_pay3 X0)
      (slabOf (k0_pay3 X0) 0 inb_S1x70x75x64_S1x64x75x64_0_0_0_0) (slabOf (k0_pay3 X0) 1 inb_S1x70x75x64_S1x64x75x64_0_1_0_0)
      (slabOf (k0_pay3 X0) 2 inb_S1x70x75x64_S1x64x75x64_0_2_0_0) (slabOf (k0_pay3 X0) 3 inb_S1x70x75x64_S1x64x75x64_0_3_0_0)
      (slabOf (k0_pay3 X0) 4 inb_S1x70x75x64_S1x64x75x64_0_4_0_0) (slabOf (k0_pay3 X0) 5 inb_S1x70x75x64_S1x64x75x64_0_5_0_0)
      (slabOf (k0_pay3 X0) 6 inb_S1x70x75x64_S1x64x75x64_0_6_0_0) X2)
    X3

/-! ## What the body leaves in the output window's buffer -/

/-- The output window's staging buffer after the body, from the input windows' blocks: its one store as a piece. -/
def out0_4 (x0 : Vec F S1x64x64x64 .f32) (x1 : Vec F S64x128 .f32) (x2 : Vec F S28x128 .f32) (x3 : Vec F S1x128 .f32) : Vec F S1x64x64x128 .f32 :=
  View.canon [⟨rO, payOut (View.ld x0 rX) (View.ld x1 rWx) (View.ld x2 rWc) (View.ld x3 rB)⟩]

/-- Its store tiles the buffer, so it covers it. -/
theorem cover0_4 (p0 : Vec F S1x64x64x128 .f32) (y : S1x64x64x128.Idx) :
    ∃ pc ∈ ([⟨rO, p0⟩] : List (View.Piece (Elt F) S1x64x64x128 .f32)), y ∈ pc.1.set :=
  View.cover_of_tiled [⟨rO, p0⟩] S1x64x64x128.size (by rfl) y

/-! ## The never-stored columns are never used -/

/-- Two slabs that agree from column 5 on. -/
def Agree5 {α : Type} (v v' : S1x64x75x64.Idx → α) : Prop := ∀ j : S1x64x75x64.Idx, 5 ≤ (j 2).val → v j = v' j

/-- A window of 64 columns starting at column `c ≥ 5` reads nothing of columns [0,5). -/
theorem ess_congr {α : Type} (c : ℕ) (hc : 5 ≤ c) (hs : S1x64x75x64.Slices ![0, 0, c, 0] S1x64x64x64) (v v' : S1x64x75x64.Idx → α)
    (h : Agree5 v v') : extractStridedSlice S1x64x64x64 ![0, 0, c, 0] v hs = extractStridedSlice S1x64x64x64 ![0, 0, c, 0] v' hs := by
  funext j
  unfold extractStridedSlice
  exact h _ (Nat.le_trans hc (Nat.le_add_right c _))

/-- An index of a rank-four rectangle lies in it when each coordinate lies in its range. -/
theorem mem_unit4 {d0 d1 d2 d3 : ℕ} (o0 o1 o2 o3 z0 z1 z2 z3 : ℕ) (inb) (y : (⟨4, ![d0, d1, d2, d3]⟩ : Shape).Idx)
    (h0 : o0 ≤ (y 0).val ∧ (y 0).val < o0 + z0) (h1 : o1 ≤ (y 1).val ∧ (y 1).val < o1 + z1)
    (h2 : o2 ≤ (y 2).val ∧ (y 2).val < o2 + z2) (h3 : o3 ≤ (y 3).val ∧ (y 3).val < o3 + z3) :
    y ∈ (Rect.unit (s := (⟨4, ![d0, d1, d2, d3]⟩ : Shape)) ![o0, o1, o2, o3] ![z0, z1, z2, z3] inb).set :=
  Rect.mem_set_unit.mpr fun a => match a with | ⟨0, _⟩ => h0 | ⟨1, _⟩ => h1 | ⟨2, _⟩ => h2 | ⟨3, _⟩ => h3

/-- From column 5 on, every element of a 64-row slab lies under one of the five stores. -/
theorem cover_slab (xn : FVec F S1x64x64x64 .f32) (r : ℕ) (hr : r ≤ 6) (h) (j : S1x64x75x64.Idx) (hj : 5 ≤ (j 2).val) :
    ∃ p ∈ padL xn, (slab r h).idx j ∈ p.1.set := by
  have hj0 : (j 0).val < 1 := (j 0).isLt
  have hj1 : (j 1).val < 64 := (j 1).isLt
  have hj2 : (j 2).val < 75 := (j 2).isLt
  have hj3 : (j 3).val < 64 := (j 3).isLt
  have e0 : ((slab r h).idx j 0).val = 0 + 1 * (j 0).val := rfl
  have e1 : ((slab r h).idx j 1).val = r + 1 * (j 1).val := rfl
  have e2 : ((slab r h).idx j 2).val = 0 + 1 * (j 2).val := rfl
  have e3 : ((slab r h).idx j 3).val = 0 + 1 * (j 3).val := rfl
  generalize (slab r h).idx j = y at e0 e1 e2 e3 ⊢
  unfold padL
  by_cases h1 : r + (j 1).val < 3
  · exact ⟨_, List.Mem.tail _ (List.Mem.tail _ (List.Mem.tail _ (List.Mem.tail _ (List.Mem.head _)))),
      mem_unit4 0 0 0 0 1 3 75 64 inb_S1x70x75x64_S1x3x75x64_0_0_0_0 y (by omega) (by omega) (by omega) (by omega)⟩
  by_cases h2 : 67 ≤ r + (j 1).val
  · exact ⟨_, List.Mem.tail _ (List.Mem.tail _ (List.Mem.tail _ (List.Mem.head _))),
      mem_unit4 0 67 0 0 1 3 75 64 inb_S1x70x75x64_S1x3x75x64_0_67_0_0 y (by omega) (by omega) (by omega) (by omega)⟩
  by_cases h3 : (j 2).val < 8
  · exact ⟨_, List.Mem.tail _ (List.Mem.tail _ (List.Mem.head _)),
      mem_unit4 0 3 5 0 1 64 3 64 inb_S1x70x75x64_S1x64x3x64_0_3_5_0 y (by omega) (by omega) (by omega) (by omega)⟩
  by_cases h4 : 72 ≤ (j 2).val
  · exact ⟨_, List.Mem.tail _ (List.Mem.head _),
      mem_unit4 0 3 72 0 1 64 3 64 inb_S1x70x75x64_S1x64x3x64_0_3_72_0 y (by omega) (by omega) (by omega) (by omega)⟩
  · exact ⟨_, List.Mem.head _,
      mem_unit4 0 3 8 0 1 64 64 64 inb_S1x70x75x64_S1x64x64x64_0_3_8_0 y (by omega) (by omega) (by omega) (by omega)⟩

/-- So a load of a slab after the five stores, over ANY prior contents of the buffer, agrees from column 5 on with the
    slab of the padded buffer. -/
theorem agree_slab (v : View sig .tc .vmem S1x70x75x64 .f32) (fs : v.ty.Contents (Elt F)) (xn : FVec F S1x64x64x64 .f32) (r : ℕ) (hr : r ≤ 6) (h) :
    Agree5 (View.readAt (Elt F) v (slab r h).toLoadRect (v.writes (Elt F) fs (padL xn))) (slabOf xn r h) := fun j hj =>
  View.read_writes_apply_eq_canon v fs ((slab r h).idx j) (padL xn) (cover_slab xn r hr h j hj)

/-! ## The correlation payloads, each one window of one slab -/

/-- One correlation map: the slab's window of 64 columns from column `c`, times the normalized block, summed over the
    channels, with a trailing unit axis — the shape every printed correlation payload has. -/
def corrAt (c : ℕ) (hs : S1x64x75x64.Slices ![0, 0, c, 0] S1x64x64x64) (v9 : FVec F S1x64x64x64 .f32) (v : Vec F S1x64x75x64 .f32) : FVec F S1x64x64x1 .f32 :=
  shapeCast S1x64x64x1
    (multiReduction .add [3] S1x64x64 (mulf (extractStridedSlice S1x64x64x64 ![0, 0, c, 0] v hs) v9) 0x00000000#32 reduces_S1x64x64x64_S1x64x64 (.inl rfl) rfl)
    shapeCasts_S1x64x64_S1x64x64x1

/-- It reads nothing of columns [0,5) when `c ≥ 5`. -/
theorem corrAt_congr (c : ℕ) (hc : 5 ≤ c) (hs : S1x64x75x64.Slices ![0, 0, c, 0] S1x64x64x64) (v9 : FVec F S1x64x64x64 .f32)
    (v v' : Vec F S1x64x75x64 .f32) (h : Agree5 v v') : corrAt c hs v9 v = corrAt c hs v9 v' := by
  unfold corrAt; rw [ess_congr c hc hs v v' h]

theorem pay9_eq (v9 : FVec F S1x64x64x64 .f32) (v : Vec F S1x64x75x64 .f32) : k0_pay9 v9 v = corrAt 5 slices_S1x64x75x64_o0_0_5_0_S1x64x64x64 v9 v := rfl
theorem pay10_eq (v9 : FVec F S1x64x64x64 .f32) (v : Vec F S1x64x75x64 .f32) : k0_pay10 v9 v = corrAt 8 slices_S1x64x75x64_o0_0_8_0_S1x64x64x64 v9 v := rfl
theorem pay11_eq (v9 : FVec F S1x64x64x64 .f32) (v : Vec F S1x64x75x64 .f32) : k0_pay11 v9 v = corrAt 11 slices_S1x64x75x64_o0_0_11_0_S1x64x64x64 v9 v := rfl
theorem pay12_eq (v9 : FVec F S1x64x64x64 .f32) (v : Vec F S1x64x75x64 .f32) : k0_pay12 v9 v = corrAt 6 slices_S1x64x75x64_o0_0_6_0_S1x64x64x64 v9 v := rfl
theorem pay13_eq (v9 : FVec F S1x64x64x64 .f32) (v : Vec F S1x64x75x64 .f32) : k0_pay13 v9 v = corrAt 8 slices_S1x64x75x64_o0_0_8_0_S1x64x64x64 v9 v := rfl
theorem pay14_eq (v9 : FVec F S1x64x64x64 .f32) (v : Vec F S1x64x75x64 .f32) : k0_pay14 v9 v = corrAt 10 slices_S1x64x75x64_o0_0_10_0_S1x64x64x64 v9 v := rfl
theorem pay15_eq (v9 : FVec F S1x64x64x64 .f32) (v : Vec F S1x64x75x64 .f32) : k0_pay15 v9 v = corrAt 7 slices_S1x64x75x64_o0_0_7_0_S1x64x64x64 v9 v := rfl
theorem pay16_eq (v9 : FVec F S1x64x64x64 .f32) (v : Vec F S1x64x75x64 .f32) : k0_pay16 v9 v = corrAt 8 slices_S1x64x75x64_o0_0_8_0_S1x64x64x64 v9 v := rfl
theorem pay17_eq (v9 : FVec F S1x64x64x64 .f32) (v : Vec F S1x64x75x64 .f32) : k0_pay17 v9 v = corrAt 9 slices_S1x64x75x64_o0_0_9_0_S1x64x64x64 v9 v := rfl
theorem pay18_eq (v9 : FVec F S1x64x64x64 .f32) (v : Vec F S1x64x75x64 .f32) : k0_pay18 v9 v = corrAt 8 slices_S1x64x75x64_o0_0_8_0_S1x64x64x64 v9 v := rfl
theorem pay19_eq (v9 : FVec F S1x64x64x64 .f32) (v : Vec F S1x64x75x64 .f32) : k0_pay19 v9 v = corrAt 5 slices_S1x64x75x64_o0_0_5_0_S1x64x64x64 v9 v := rfl
theorem pay20_eq (v9 : FVec F S1x64x64x64 .f32) (v : Vec F S1x64x75x64 .f32) : k0_pay20 v9 v = corrAt 6 slices_S1x64x75x64_o0_0_6_0_S1x64x64x64 v9 v := rfl
theorem pay21_eq (v9 : FVec F S1x64x64x64 .f32) (v : Vec F S1x64x75x64 .f32) : k0_pay21 v9 v = corrAt 7 slices_S1x64x75x64_o0_0_7_0_S1x64x64x64 v9 v := rfl
theorem pay22_eq (v9 : FVec F S1x64x64x64 .f32) (v : Vec F S1x64x75x64 .f32) : k0_pay22 v9 v = corrAt 9 slices_S1x64x75x64_o0_0_9_0_S1x64x64x64 v9 v := rfl
theorem pay23_eq (v9 : FVec F S1x64x64x64 .f32) (v : Vec F S1x64x75x64 .f32) : k0_pay23 v9 v = corrAt 10 slices_S1x64x75x64_o0_0_10_0_S1x64x64x64 v9 v := rfl
theorem pay24_eq (v9 : FVec F S1x64x64x64 .f32) (v : Vec F S1x64x75x64 .f32) : k0_pay24 v9 v = corrAt 11 slices_S1x64x75x64_o0_0_11_0_S1x64x64x64 v9 v := rfl
theorem pay25_eq (v9 : FVec F S1x64x64x64 .f32) (v : Vec F S1x64x75x64 .f32) : k0_pay25 v9 v = corrAt 9 slices_S1x64x75x64_o0_0_9_0_S1x64x64x64 v9 v := rfl
theorem pay26_eq (v9 : FVec F S1x64x64x64 .f32) (v : Vec F S1x64x75x64 .f32) : k0_pay26 v9 v = corrAt 8 slices_S1x64x75x64_o0_0_8_0_S1x64x64x64 v9 v := rfl

/-- The second matmul: the 28 correlation maps concatenated along the last axis in the printed order (the seven
    diagonal shifts, the seven vertical, the seven anti-diagonal, the seven horizontal), flattened to 4096 rows, times
    the correlation weights. -/
def corrMM (d0 d1 d2 d3 d4 d5 d6 e0 e1 e2 e3 e4 e5 e6 a0 a1 a2 a3 a4 a5 a6 h0 h1 h2 h3 h4 h5 h6 : FVec F S1x64x64x1 .f32) (x2 : Vec F S28x128 .f32) : FVec F S4096x128 .f32 :=
  matmul dot_S4096x28_S28x128_S4096x128_1_0_0_1_n_n none
    (shapeCast S4096x28
      (concatenate S1x64x64x28 3 [⟨S1x64x64x1, d0⟩, ⟨S1x64x64x1, d1⟩, ⟨S1x64x64x1, d2⟩, ⟨S1x64x64x1, d3⟩, ⟨S1x64x64x1, d4⟩, ⟨S1x64x64x1, d5⟩, ⟨S1x64x64x1, d6⟩,
          ⟨S1x64x64x1, e0⟩, ⟨S1x64x64x1, e1⟩, ⟨S1x64x64x1, e2⟩, ⟨S1x64x64x1, e3⟩, ⟨S1x64x64x1, e4⟩, ⟨S1x64x64x1, e5⟩, ⟨S1x64x64x1, e6⟩,
          ⟨S1x64x64x1, a0⟩, ⟨S1x64x64x1, a1⟩, ⟨S1x64x64x1, a2⟩, ⟨S1x64x64x1, a3⟩, ⟨S1x64x64x1, a4⟩, ⟨S1x64x64x1, a5⟩, ⟨S1x64x64x1, a6⟩,
          ⟨S1x64x64x1, h0⟩, ⟨S1x64x64x1, h1⟩, ⟨S1x64x64x1, h2⟩, ⟨S1x64x64x1, h3⟩, ⟨S1x64x64x1, h4⟩, ⟨S1x64x64x1, h5⟩, ⟨S1x64x64x1, h6⟩]
        concatenates_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x28_d3)
      shapeCasts_S1x64x64x28_S4096x28)
    (shapeCast S28x128 x2 shapeCasts_S28x128_S28x128) (constant S4096x128 .f32 0x00000000#32)

/-- The printed last payload is that matmul, with the seven correlation maps of slabs 4, 5 and 6 it computes itself. -/
theorem pay28_eq (v9 : FVec F S1x64x64x64 .f32) (v33 v37 v41 v46 v50 v54 v59 v63 v67 v72 v76 v80 v84 v88 v92 v96 : FVec F S1x64x64x1 .f32)
    (v97 : Vec F S1x64x75x64 .f32) (v101 v105 : FVec F S1x64x64x1 .f32) (v110 v123 : Vec F S1x64x75x64 .f32) (v142 : Vec F S28x128 .f32) :
    k0_pay28 v9 v33 v37 v41 v46 v50 v54 v59 v63 v67 v72 v76 v80 v84 v88 v92 v96 v97 v101 v105 v110 v123 v142
      = corrMM v33 v46 v59 v72 v101 (corrAt 10 slices_S1x64x75x64_o0_0_10_0_S1x64x64x64 v9 v110) (corrAt 11 slices_S1x64x75x64_o0_0_11_0_S1x64x64x64 v9 v123)
          v37 v50 v63 v72 v105 (corrAt 8 slices_S1x64x75x64_o0_0_8_0_S1x64x64x64 v9 v110) (corrAt 8 slices_S1x64x75x64_o0_0_8_0_S1x64x64x64 v9 v123)
          v41 v54 v67 v72 (corrAt 7 slices_S1x64x75x64_o0_0_7_0_S1x64x64x64 v9 v97) (corrAt 6 slices_S1x64x75x64_o0_0_6_0_S1x64x64x64 v9 v110) (corrAt 5 slices_S1x64x75x64_o0_0_5_0_S1x64x64x64 v9 v123)
          v76 v80 v84 v72 v88 v92 v96 v142 := rfl

/-- The correlation matmul over the 28 windows: shift `s` of the printed order reads slab `r_s` from column `5 + c_s`. -/
theorem corrOf_eq (v9 : FVec F S1x64x64x64 .f32) (s0 s1 s2 s3 s4 s5 s6 : Vec F S1x64x75x64 .f32) (x2 : Vec F S28x128 .f32) :
    corrOf v9 s0 s1 s2 s3 s4 s5 s6 x2
      = corrMM (corrAt 5 slices_S1x64x75x64_o0_0_5_0_S1x64x64x64 v9 s0) (corrAt 6 slices_S1x64x75x64_o0_0_6_0_S1x64x64x64 v9 s1)
          (corrAt 7 slices_S1x64x75x64_o0_0_7_0_S1x64x64x64 v9 s2) (corrAt 8 slices_S1x64x75x64_o0_0_8_0_S1x64x64x64 v9 s3)
          (corrAt 9 slices_S1x64x75x64_o0_0_9_0_S1x64x64x64 v9 s4) (corrAt 10 slices_S1x64x75x64_o0_0_10_0_S1x64x64x64 v9 s5)
          (corrAt 11 slices_S1x64x75x64_o0_0_11_0_S1x64x64x64 v9 s6)
          (corrAt 8 slices_S1x64x75x64_o0_0_8_0_S1x64x64x64 v9 s0) (corrAt 8 slices_S1x64x75x64_o0_0_8_0_S1x64x64x64 v9 s1)
          (corrAt 8 slices_S1x64x75x64_o0_0_8_0_S1x64x64x64 v9 s2) (corrAt 8 slices_S1x64x75x64_o0_0_8_0_S1x64x64x64 v9 s3)
          (corrAt 8 slices_S1x64x75x64_o0_0_8_0_S1x64x64x64 v9 s4) (corrAt 8 slices_S1x64x75x64_o0_0_8_0_S1x64x64x64 v9 s5)
          (corrAt 8 slices_S1x64x75x64_o0_0_8_0_S1x64x64x64 v9 s6)
          (corrAt 11 slices_S1x64x75x64_o0_0_11_0_S1x64x64x64 v9 s0) (corrAt 10 slices_S1x64x75x64_o0_0_10_0_S1x64x64x64 v9 s1)
          (corrAt 9 slices_S1x64x75x64_o0_0_9_0_S1x64x64x64 v9 s2) (corrAt 8 slices_S1x64x75x64_o0_0_8_0_S1x64x64x64 v9 s3)
          (corrAt 7 slices_S1x64x75x64_o0_0_7_0_S1x64x64x64 v9 s4) (corrAt 6 slices_S1x64x75x64_o0_0_6_0_S1x64x64x64 v9 s5)
          (corrAt 5 slices_S1x64x75x64_o0_0_5_0_S1x64x64x64 v9 s6)
          (corrAt 5 slices_S1x64x75x64_o0_0_5_0_S1x64x64x64 v9 s3) (corrAt 6 slices_S1x64x75x64_o0_0_6_0_S1x64x64x64 v9 s3)
          (corrAt 7 slices_S1x64x75x64_o0_0_7_0_S1x64x64x64 v9 s3) (corrAt 8 slices_S1x64x75x64_o0_0_8_0_S1x64x64x64 v9 s3)
          (corrAt 9 slices_S1x64x75x64_o0_0_9_0_S1x64x64x64 v9 s3) (corrAt 10 slices_S1x64x75x64_o0_0_10_0_S1x64x64x64 v9 s3)
          (corrAt 11 slices_S1x64x75x64_o0_0_11_0_S1x64x64x64 v9 s3) x2 := by
  unfold corrOf
  rw [pay28_eq, pay9_eq, pay10_eq, pay11_eq, pay12_eq, pay13_eq, pay14_eq, pay15_eq, pay16_eq, pay17_eq, pay18_eq, pay19_eq, pay20_eq,
    pay21_eq, pay22_eq, pay23_eq, pay24_eq, pay25_eq, pay26_eq]

/-- So the correlation matmul is the same over slabs that agree from column 5 on. -/
theorem corrOf_congr (v9 : FVec F S1x64x64x64 .f32) (s0 s1 s2 s3 s4 s5 s6 s0' s1' s2' s3' s4' s5' s6' : Vec F S1x64x75x64 .f32) (x2 : Vec F S28x128 .f32)
    (g0 : Agree5 s0 s0') (g1 : Agree5 s1 s1') (g2 : Agree5 s2 s2') (g3 : Agree5 s3 s3') (g4 : Agree5 s4 s4') (g5 : Agree5 s5 s5') (g6 : Agree5 s6 s6') :
    corrOf v9 s0 s1 s2 s3 s4 s5 s6 x2 = corrOf v9 s0' s1' s2' s3' s4' s5' s6' x2 := by
  rw [corrOf_eq, corrOf_eq,
    corrAt_congr 5 (by decide) _ v9 s0 s0' g0, corrAt_congr 8 (by decide) _ v9 s0 s0' g0, corrAt_congr 11 (by decide) _ v9 s0 s0' g0,
    corrAt_congr 6 (by decide) _ v9 s1 s1' g1, corrAt_congr 8 (by decide) _ v9 s1 s1' g1, corrAt_congr 10 (by decide) _ v9 s1 s1' g1,
    corrAt_congr 7 (by decide) _ v9 s2 s2' g2, corrAt_congr 8 (by decide) _ v9 s2 s2' g2, corrAt_congr 9 (by decide) _ v9 s2 s2' g2,
    corrAt_congr 5 (by decide) _ v9 s3 s3' g3, corrAt_congr 6 (by decide) _ v9 s3 s3' g3, corrAt_congr 7 (by decide) _ v9 s3 s3' g3,
    corrAt_congr 8 (by decide) _ v9 s3 s3' g3, corrAt_congr 9 (by decide) _ v9 s3 s3' g3, corrAt_congr 10 (by decide) _ v9 s3 s3' g3,
    corrAt_congr 11 (by decide) _ v9 s3 s3' g3,
    corrAt_congr 9 (by decide) _ v9 s4 s4' g4, corrAt_congr 8 (by decide) _ v9 s4 s4' g4, corrAt_congr 7 (by decide) _ v9 s4 s4' g4,
    corrAt_congr 10 (by decide) _ v9 s5 s5' g5, corrAt_congr 8 (by decide) _ v9 s5 s5' g5, corrAt_congr 6 (by decide) _ v9 s5 s5' g5,
    corrAt_congr 11 (by decide) _ v9 s6 s6' g6, corrAt_congr 8 (by decide) _ v9 s6 s6' g6, corrAt_congr 5 (by decide) _ v9 s6 s6' g6]

/-- What the body stores into the output window, with the seven slabs read off the buffer after its five stores over ANY
    prior contents `fs`, is `payOut` of the loads of the input windows: the prior contents are not used. -/
theorem payOut_of_run (v : View sig .tc .vmem S1x70x75x64 .f32) (fs : v.ty.Contents (Elt F))
    (X0 : Vec F S1x64x64x64 .f32) (X1 : Vec F S64x128 .f32) (X2 : Vec F S28x128 .f32) (X3 : Vec F S1x128 .f32) :
    k0_pay1 (k0_pay27 (k0_pay2 X0) X1)
      (corrOf (k0_pay3 X0)
        (View.readAt (Elt F) v (slab 0 inb_S1x70x75x64_S1x64x75x64_0_0_0_0).toLoadRect (v.writes (Elt F) fs (padL (k0_pay3 X0))))
        (View.readAt (Elt F) v (slab 1 inb_S1x70x75x64_S1x64x75x64_0_1_0_0).toLoadRect (v.writes (Elt F) fs (padL (k0_pay3 X0))))
        (View.readAt (Elt F) v (slab 2 inb_S1x70x75x64_S1x64x75x64_0_2_0_0).toLoadRect (v.writes (Elt F) fs (padL (k0_pay3 X0))))
        (View.readAt (Elt F) v (slab 3 inb_S1x70x75x64_S1x64x75x64_0_3_0_0).toLoadRect (v.writes (Elt F) fs (padL (k0_pay3 X0))))
        (View.readAt (Elt F) v (slab 4 inb_S1x70x75x64_S1x64x75x64_0_4_0_0).toLoadRect (v.writes (Elt F) fs (padL (k0_pay3 X0))))
        (View.readAt (Elt F) v (slab 5 inb_S1x70x75x64_S1x64x75x64_0_5_0_0).toLoadRect (v.writes (Elt F) fs (padL (k0_pay3 X0))))
        (View.readAt (Elt F) v (slab 6 inb_S1x70x75x64_S1x64x75x64_0_6_0_0).toLoadRect (v.writes (Elt F) fs (padL (k0_pay3 X0))))
        X2)
      X3 = payOut X0 X1 X2 X3 := by
  unfold payOut
  rw [corrOf_congr (k0_pay3 X0) _ _ _ _ _ _ _ _ _ _ _ _ _ _ X2
    (agree_slab v fs (k0_pay3 X0) 0 (by decide) _) (agree_slab v fs (k0_pay3 X0) 1 (by decide) _) (agree_slab v fs (k0_pay3 X0) 2 (by decide) _)
    (agree_slab v fs (k0_pay3 X0) 3 (by decide) _) (agree_slab v fs (k0_pay3 X0) 4 (by decide) _) (agree_slab v fs (k0_pay3 X0) 5 (by decide) _)
    (agree_slab v fs (k0_pay3 X0) 6 (by decide) _)]

/-! ## The body's triple -/

set_option maxHeartbeats 1000000 in
/-- The kernel body on whole staging memrefs and the whole scratch buffer — the inputs' at read contents `xW`, the
    output's and the scratch at anything — runs to the continuation holding the inputs' as they were, the output's at
    `out0_4` of the inputs' and the scratch at some contents: the body is its sequence of loads and stores over named
    values, part by part; the seven slab loads read the scratch's five stores over its unknown entry contents, which the
    stored value does not use (`payOut_of_run`). -/
theorem sound_kernel (c : Dev nD) (E : Set ℕ) (i : grid0.Coords)
    (arg1 : Memref sig .tc .vmem S1x64x64x64 .f32) (harg1 : arg1.IsWhole) (arg2 : Memref sig .tc .vmem S64x128 .f32) (harg2 : arg2.IsWhole)
    (arg3 : Memref sig .tc .vmem S28x128 .f32) (harg3 : arg3.IsWhole) (arg4 : Memref sig .tc .vmem S1x128 .f32) (harg4 : arg4.IsWhole)
    (arg5 : Memref sig .tc .vmem S1x64x64x128 .f32) (harg5 : arg5.IsWhole) (arg6 : Memref sig .tc .vmem S1x70x75x64 .f32) (harg6 : arg6.IsWhole)
    (x0 : Vec F S1x64x64x64 .f32) (x1 : Vec F S64x128 .f32) (x2 : Vec F S28x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ (∃ d, owns (c : Thread nD τ) arg6 fullShare d)) -∗ K ⟨⟩))
      ⊢ wp frame (wpE (defs₀ (F := F)) Variants.none c none) E (cc0__esc_kernel i arg1 harg1 arg2 harg2 arg3 harg3 arg4 harg4 arg5 harg5 arg6 harg6) K := by
  simp only [cc0__esc_kernel_eq_skeleton]; unfold cc0__esc_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (View.read_writes_eq_canon _ _ _ (cover0_4 _)).trans ?_
    unfold out0_4
    exact congrArg (fun p => View.canon [(⟨rO, p⟩ : View.Piece (Elt F) S1x64x64x128 .f32)])
      (payOut_of_run arg6.view fs (View.readAt (Elt F) arg1.view rX.toLoadRect f0) (View.readAt (Elt F) arg2.view rWx.toLoadRect f1)
        (View.readAt (Elt F) arg3.view rWc.toLoadRect f2) (View.readAt (Elt F) arg4.view rB.toLoadRect f3))
  iexists _; iexists _; isplitr
  swap; · iexact HS
  ipureintro; rfl

/-! ## The pipeline's proof data -/

/-- The proof data of the one pipeline on core `c`: the arrays as the region finds them (`Gen.V`); after the body at
    point `t` each input's buffer at its block and the output's at `out0_4` of the input blocks; the invariant the
    region's (`Pipeline.ΦA`: the scratch buffer at some contents and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The invariant: the scratch buffer at some contents -/

/-- The scratch operand: a whole scoped buffer of the kernel's own, passed beside the windows. -/
abbrev scM : Memref sig .tc .vmem S1x70x75x64 .f32 := Memref.whole cc0_scratch0

/-- The region's invariant: the scratch operand as a memref owned at some contents, and the generator register at some
    state — what the body is handed and gives back. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), the invariant hands over the scratch
    buffer at some contents, so `sound_kernel` applies; the scratch goes back into the invariant at some contents, the
    generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rewrite [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, PhiA0_eq]
  iintro ⟨⟨HS, Hg⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's conclusion meets this statement only after plain definitions inside types are unfolded
set_option backward.isDefEq.respectTransparency.types false in
/-- At the compiled mesh, for any values, from any memory with zero counters: every weakly fair execution of @main on the
    TensorCores terminates, and every final state has every array of the pipeline at what the proof data's
    write-backs leave and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the reference program's frame claim at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Hand

end
-- ==== Proof.RefValue.lean ====
/-
  The reference program's output block at an index, at the ideal values.

  The body's stored value (`payOut`, named by the frame module) is read index by index: the channel-normalized block
  (`xnAt`), the padded buffer as one function of its index (`padFn`: the five stores are blocks of it, so its canon is
  it wherever a store covers), each of the 28 correlation maps as a sum over the channels of a shifted row of the
  padded block times the normalized block (`corrTerm`), the two matmuls as sums over the contracted coordinate, and
  the bias row broadcast. `out0_4_apply` is the result.
-/
import proofs.«147926_g2000405799366230_pallasbulk_257_2_alg».proof.Proof.RefFrame
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

/-- The reciprocal square root at an index, at the ideal values. -/
theorem rsqrt_apply {s : Shape} {φ : FTy} (a : FVec Ideal s φ) (i : s.Idx) : rsqrt a i = Ideal.rsqrt (a i) := rfl

/-- A sum over the channels with a trailing unit axis, read at an index: the sum over the channel coordinate. -/
theorem laneSum_apply (src : FVec Ideal S1x64x64x64 .f32) (h w : Fin 64) :
    shapeCast S1x64x64x1 (multiReduction .add [3] S1x64x64 src 0x00000000#32 reduces_S1x64x64x64_S1x64x64 (.inl rfl) rfl)
        shapeCasts_S1x64x64_S1x64x64x1 (ix4 (0 : Fin 1) h w (0 : Fin 1))
      = ∑ c : Fin 64, src (ix4 (0 : Fin 1) h w c) := by
  refine (shapeCast_apply _ shapeCasts_S1x64x64_S1x64x64x1 (ix4 (0 : Fin 1) h w (0 : Fin 1)) (ix3 (0 : Fin 1) h w) ?_).trans ?_
  · rw [Shape.rowMajor_val_three, Shape.rowMajor_val_four]
    show ((0 : Fin 1).val * 64 + h.val) * 64 + w.val = (((0 : Fin 1).val * 64 + h.val) * 64 + w.val) * 1 + (0 : Fin 1).val
    simp
  refine (Ideal.multiReduction_add_single src 0x00000000#32 reduces_S1x64x64x64_S1x64x64 (.inl rfl) rfl (ix3 (0 : Fin 1) h w)).trans ?_
  refine Finset.sum_congr rfl fun c _ => congrArg src ?_
  funext a; apply Fin.ext
  match a with | ⟨0, _⟩ => rfl | ⟨1, _⟩ => rfl | ⟨2, _⟩ => rfl | ⟨3, _⟩ => rfl

/-- The channel-normalized block at an index. -/
def xnAt (x0 : Vec Ideal S1x64x64x64 .f32) (h w c : Fin 64) : EReal :=
  x0 (ix4 (0 : Fin 1) h w c)
    * Ideal.rsqrt (max (∑ c' : Fin 64, x0 (ix4 (0 : Fin 1) h w c') * x0 (ix4 (0 : Fin 1) h w c')) (Ideal.ofBits .f32 0x179ABE15#32))

theorem pay3_apply (x0 : Vec Ideal S1x64x64x64 .f32) (h w c : Fin 64) :
    k0_pay3 (F := Ideal) x0 (ix4 (0 : Fin 1) h w c) = xnAt x0 h w c := by
  unfold k0_pay3 k0_pay2 xnAt
  simp only [shapeCast_self]
  rw [mulf_apply]
  refine congrArg (x0 (ix4 (0 : Fin 1) h w c) * ·) ?_
  refine (broadcastTo_apply _ broadcasts_S1x64x64x1_S1x64x64x64 (ix4 (0 : Fin 1) h w c) (ix4 (0 : Fin 1) h w (0 : Fin 1)) ?_).trans ?_
  · intro a
    match a with
    | ⟨0, _⟩ => rfl
    | ⟨1, _⟩ => rfl
    | ⟨2, _⟩ => rfl
    | ⟨3, _⟩ => rfl
  rw [rsqrt_apply, maximumf_apply, laneSum_apply]
  rfl

/-- One correlation map at an index: the slab's row at the window's column times the normalized block, summed over the channels. -/
theorem corrAt_apply (c : ℕ) (hs : S1x64x75x64.Slices ![0, 0, c, 0] S1x64x64x64) (v9 : FVec Ideal S1x64x64x64 .f32) (v : Vec Ideal S1x64x75x64 .f32)
    (h w : Fin 64) (hcw : c + w.val < 75) :
    corrAt (F := Ideal) c hs v9 v (ix4 (0 : Fin 1) h w (0 : Fin 1))
      = ∑ cc : Fin 64, v (ix4 (0 : Fin 1) h (⟨c + w.val, hcw⟩ : Fin 75) cc) * v9 (ix4 (0 : Fin 1) h w cc) := by
  unfold corrAt
  rw [laneSum_apply]
  refine Finset.sum_congr rfl fun cc _ => ?_
  rw [mulf_apply]
  refine congrArg (· * v9 (ix4 (0 : Fin 1) h w cc)) ?_
  refine extractStridedSlice_apply _ v hs (ix4 (0 : Fin 1) h w cc) _ ?_
  intro a
  match a with
  | ⟨0, _⟩ => rfl
  | ⟨1, _⟩ => show h.val = 0 + h.val; omega
  | ⟨2, _⟩ => rfl
  | ⟨3, _⟩ => show cc.val = 0 + cc.val; omega

/-! ## The padded buffer at an index -/

/-- The padded buffer as a function of its index: the normalized block at rows [3,67), columns [8,72); zero elsewhere. -/
def padFn (xn : FVec Ideal S1x64x64x64 .f32) (y : S1x70x75x64.Idx) : EReal :=
  if hI : 3 ≤ (y 1).val ∧ (y 1).val < 67 ∧ 8 ≤ (y 2).val ∧ (y 2).val < 72 then
    xn (ix4 (0 : Fin 1) (⟨(y 1).val - 3, by omega⟩ : Fin 64) (⟨(y 2).val - 8, by omega⟩ : Fin 64) (⟨(y 3).val, (y 3).isLt⟩ : Fin 64))
  else 0

theorem zero4_apply (x : S1x3x75x64.Idx) : k0_pay4 (F := Ideal) x = 0 := by
  unfold k0_pay4; simp only [shapeCast_self]; exact Ideal.ofBits_zero_f32
theorem zero5_apply (x : S1x3x75x64.Idx) : k0_pay5 (F := Ideal) x = 0 := by
  unfold k0_pay5; simp only [shapeCast_self]; exact Ideal.ofBits_zero_f32
theorem zero6_apply (x : S1x64x3x64.Idx) : k0_pay6 (F := Ideal) x = 0 := by
  unfold k0_pay6; simp only [shapeCast_self]; exact Ideal.ofBits_zero_f32
theorem zero7_apply (x : S1x64x3x64.Idx) : k0_pay7 (F := Ideal) x = 0 := by
  unfold k0_pay7; simp only [shapeCast_self]; exact Ideal.ofBits_zero_f32

/-- Each of the five stores writes the block of `padFn` its rectangle names. -/
theorem padL_pieces (xn : FVec Ideal S1x64x64x64 .f32) :
    ∀ p ∈ padL xn, ∀ x : p.1.shape.Idx, p.2 x = padFn xn (p.1.emb x) := by
  intro p hp x
  unfold padL at hp
  simp only [List.mem_cons, List.mem_nil_iff, or_false] at hp
  rcases hp with rfl | rfl | rfl | rfl | rfl
  · -- the middle: the normalized block
    have x1 : (x 1).val < 64 := (x 1).isLt
    have x2 : (x 2).val < 64 := (x 2).isLt
    have e1 : ((pMid.emb x) 1).val = 3 + 1 * (x 1).val := rfl
    have e2 : ((pMid.emb x) 2).val = 8 + 1 * (x 2).val := rfl
    have e3 : ((pMid.emb x) 3).val = 0 + 1 * (x 3).val := rfl
    show k0_pay8 xn x = padFn xn (pMid.emb x)
    unfold k0_pay8 padFn
    simp only [shapeCast_self]
    rw [dif_pos (by omega)]
    refine congrArg xn ?_
    funext a; apply Fin.ext
    match a with
    | ⟨0, _⟩ => show (x 0).val = (0 : Fin 1).val; have := (x 0).isLt; have h1 : (x 0).val < 1 := this; omega
    | ⟨1, _⟩ => show (x 1).val = ((pMid.emb x) 1).val - 3; omega
    | ⟨2, _⟩ => show (x 2).val = ((pMid.emb x) 2).val - 8; omega
    | ⟨3, _⟩ => show (x 3).val = ((pMid.emb x) 3).val; omega
  · have x2 : (x 2).val < 3 := (x 2).isLt
    have e2 : ((pRight.emb x) 2).val = 72 + 1 * (x 2).val := rfl
    show k0_pay7 (F := Ideal) x = padFn xn (pRight.emb x)
    rw [zero7_apply]; unfold padFn; rw [dif_neg (by omega)]
  · have x2 : (x 2).val < 3 := (x 2).isLt
    have e2 : ((pLeft.emb x) 2).val = 5 + 1 * (x 2).val := rfl
    show k0_pay6 (F := Ideal) x = padFn xn (pLeft.emb x)
    rw [zero6_apply]; unfold padFn; rw [dif_neg (by omega)]
  · have e1 : ((pBot.emb x) 1).val = 67 + 1 * (x 1).val := rfl
    show k0_pay5 (F := Ideal) x = padFn xn (pBot.emb x)
    rw [zero5_apply]; unfold padFn; rw [dif_neg (by omega)]
  · have x1 : (x 1).val < 3 := (x 1).isLt
    have e1 : ((pTop.emb x) 1).val = 0 + 1 * (x 1).val := rfl
    show k0_pay4 (F := Ideal) x = padFn xn (pTop.emb x)
    rw [zero4_apply]; unfold padFn; rw [dif_neg (by omega)]

/-- A slab of the padded buffer at an index from column 5 on. -/
theorem slabOf_apply (xn : FVec Ideal S1x64x64x64 .f32) (r : ℕ) (hr : r ≤ 6) (h) (j : S1x64x75x64.Idx) (hj : 5 ≤ (j 2).val) :
    slabOf xn r h j = padFn xn ((slab r h).idx j) := by
  show View.canon (padL xn) ((slab r h).idx j) = padFn xn ((slab r h).idx j)
  exact View.canon_apply_of_pieces (padFn xn) (padL xn) (padL_pieces xn) ((slab r h).idx j) (cover_slab xn r hr h j hj)

/-- The padded normalized block by row and column: `xn` at rows [3,67), columns [8,72); zero elsewhere. -/
def padAt (xn : Fin 64 → Fin 64 → Fin 64 → EReal) (row col : ℕ) (cc : Fin 64) : EReal :=
  if hI : 3 ≤ row ∧ row < 67 ∧ 8 ≤ col ∧ col < 72 then xn (⟨row - 3, by omega⟩ : Fin 64) (⟨col - 8, by omega⟩ : Fin 64) cc else 0

/-- One correlation map: row offset `r`, column offset `c` into the padded block. -/
def corrTerm (x0 : Vec Ideal S1x64x64x64 .f32) (r c : ℕ) (h w : Fin 64) : EReal :=
  ∑ cc : Fin 64, padAt (xnAt x0) (r + h.val) (c + w.val) cc * xnAt x0 h w cc

/-- The printed correlation map of slab `r` at window column `c`, at an index. -/
theorem corr_entry (r c : ℕ) (hr : r ≤ 6) (hc5 : 5 ≤ c) (hc11 : c ≤ 11) (hs : S1x64x75x64.Slices ![0, 0, c, 0] S1x64x64x64) (hinb)
    (x0 : Vec Ideal S1x64x64x64 .f32) (h w : Fin 64) :
    corrAt (F := Ideal) c hs (k0_pay3 x0) (slabOf (k0_pay3 x0) r hinb) (ix4 (0 : Fin 1) h w (0 : Fin 1)) = corrTerm x0 r c h w := by
  have hw : w.val < 64 := w.isLt
  have hh : h.val < 64 := h.isLt
  rw [corrAt_apply c hs _ _ h w (by omega)]
  unfold corrTerm
  refine Finset.sum_congr rfl fun cc _ => ?_
  rw [pay3_apply, slabOf_apply _ r hr hinb _ (by show 5 ≤ c + w.val; omega)]
  refine congrArg (· * xnAt x0 h w cc) ?_
  have e1 : (((slab r hinb).idx (ix4 (0 : Fin 1) h (⟨c + w.val, by omega⟩ : Fin 75) cc)) 1).val = r + 1 * h.val := rfl
  have e2 : (((slab r hinb).idx (ix4 (0 : Fin 1) h (⟨c + w.val, by omega⟩ : Fin 75) cc)) 2).val = 0 + 1 * (c + w.val) := rfl
  have e3 : (((slab r hinb).idx (ix4 (0 : Fin 1) h (⟨c + w.val, by omega⟩ : Fin 75) cc)) 3).val = 0 + 1 * cc.val := rfl
  unfold padFn padAt
  by_cases hI : 3 ≤ r + h.val ∧ r + h.val < 67 ∧ 8 ≤ c + w.val ∧ c + w.val < 72
  · rw [dif_pos (by omega), dif_pos hI, pay3_apply]
    congr 1 <;> apply Fin.ext <;> simp only [] <;> omega
  · rw [dif_neg (by omega), dif_neg hI]

/-! ## The two matmuls and the bias, at an index -/

/-- The 28 correlation maps in the printed order of the concatenation. -/
def corrVec {F : FTy → Type} [FloatOps F] (v9 : FVec F S1x64x64x64 .f32) (s0 s1 s2 s3 s4 s5 s6 : Vec F S1x64x75x64 .f32) : Fin 28 → FVec F S1x64x64x1 .f32 :=
  ![corrAt 5 slices_S1x64x75x64_o0_0_5_0_S1x64x64x64 v9 s0, corrAt 6 slices_S1x64x75x64_o0_0_6_0_S1x64x64x64 v9 s1,
    corrAt 7 slices_S1x64x75x64_o0_0_7_0_S1x64x64x64 v9 s2, corrAt 8 slices_S1x64x75x64_o0_0_8_0_S1x64x64x64 v9 s3,
    corrAt 9 slices_S1x64x75x64_o0_0_9_0_S1x64x64x64 v9 s4, corrAt 10 slices_S1x64x75x64_o0_0_10_0_S1x64x64x64 v9 s5,
    corrAt 11 slices_S1x64x75x64_o0_0_11_0_S1x64x64x64 v9 s6,
    corrAt 8 slices_S1x64x75x64_o0_0_8_0_S1x64x64x64 v9 s0, corrAt 8 slices_S1x64x75x64_o0_0_8_0_S1x64x64x64 v9 s1,
    corrAt 8 slices_S1x64x75x64_o0_0_8_0_S1x64x64x64 v9 s2, corrAt 8 slices_S1x64x75x64_o0_0_8_0_S1x64x64x64 v9 s3,
    corrAt 8 slices_S1x64x75x64_o0_0_8_0_S1x64x64x64 v9 s4, corrAt 8 slices_S1x64x75x64_o0_0_8_0_S1x64x64x64 v9 s5,
    corrAt 8 slices_S1x64x75x64_o0_0_8_0_S1x64x64x64 v9 s6,
    corrAt 11 slices_S1x64x75x64_o0_0_11_0_S1x64x64x64 v9 s0, corrAt 10 slices_S1x64x75x64_o0_0_10_0_S1x64x64x64 v9 s1,
    corrAt 9 slices_S1x64x75x64_o0_0_9_0_S1x64x64x64 v9 s2, corrAt 8 slices_S1x64x75x64_o0_0_8_0_S1x64x64x64 v9 s3,
    corrAt 7 slices_S1x64x75x64_o0_0_7_0_S1x64x64x64 v9 s4, corrAt 6 slices_S1x64x75x64_o0_0_6_0_S1x64x64x64 v9 s5,
    corrAt 5 slices_S1x64x75x64_o0_0_5_0_S1x64x64x64 v9 s6,
    corrAt 5 slices_S1x64x75x64_o0_0_5_0_S1x64x64x64 v9 s3, corrAt 6 slices_S1x64x75x64_o0_0_6_0_S1x64x64x64 v9 s3,
    corrAt 7 slices_S1x64x75x64_o0_0_7_0_S1x64x64x64 v9 s3, corrAt 8 slices_S1x64x75x64_o0_0_8_0_S1x64x64x64 v9 s3,
    corrAt 9 slices_S1x64x75x64_o0_0_9_0_S1x64x64x64 v9 s3, corrAt 10 slices_S1x64x75x64_o0_0_10_0_S1x64x64x64 v9 s3,
    corrAt 11 slices_S1x64x75x64_o0_0_11_0_S1x64x64x64 v9 s3]

/-- The concatenation of the 28 maps along the last axis, read at an index: map `s` at the index's other coordinates. -/
theorem concat_apply (v9 : FVec Ideal S1x64x64x64 .f32) (s0 s1 s2 s3 s4 s5 s6 : Vec Ideal S1x64x75x64 .f32) (hcat) (a : Fin 1) (h w : Fin 64) (s : Fin 28) :
    concatenate S1x64x64x28 3 (List.ofFn fun n : Fin 28 => (⟨S1x64x64x1, corrVec v9 s0 s1 s2 s3 s4 s5 s6 n⟩ : (sh : Shape) × (sh.Idx → Ideal .f32))) hcat (ix4 a h w s)
      = corrVec v9 s0 s1 s2 s3 s4 s5 s6 s (ix4 a h w (0 : Fin 1)) := by
  refine concatenate_ofFn_unit_apply (t := S1x64x64x28) (s₁ := S1x64x64x1) (3 : Fin 4) (corrVec v9 s0 s1 s2 s3 s4 s5 s6) hcat rfl rfl (ix4 a h w s) s rfl (ix4 a h w (0 : Fin 1)) ?_
  intro b hb
  match b with
  | ⟨0, _⟩ => rfl
  | ⟨1, _⟩ => rfl
  | ⟨2, _⟩ => rfl
  | ⟨3, _⟩ => exact absurd rfl hb

/-- The correlation matmul is the matmul of that concatenation. -/
theorem corrOf_eq_ofFn (v9 : FVec Ideal S1x64x64x64 .f32) (s0 s1 s2 s3 s4 s5 s6 : Vec Ideal S1x64x75x64 .f32) (x2 : Vec Ideal S28x128 .f32) :
    corrOf v9 s0 s1 s2 s3 s4 s5 s6 x2
      = matmul dot_S4096x28_S28x128_S4096x128_1_0_0_1_n_n none
          (shapeCast S4096x28
            (concatenate S1x64x64x28 3 (List.ofFn fun n : Fin 28 => (⟨S1x64x64x1, corrVec v9 s0 s1 s2 s3 s4 s5 s6 n⟩ : (sh : Shape) × (sh.Idx → Ideal .f32)))
              concatenates_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x1_S1x64x64x28_d3)
            shapeCasts_S1x64x64x28_S4096x28)
          (shapeCast S28x128 x2 shapeCasts_S28x128_S28x128 : FVec Ideal S28x128 .f32) (constant S4096x128 .f32 0x00000000#32) := by
  rw [corrOf_eq]; rfl

/-- A plain product into the zero splat, at an index (64 contracted). -/
theorem mm64_apply (A : FVec Ideal S4096x64 .f32) (B : FVec Ideal S64x128 .f32) (a : Fin 4096) (b : Fin 128) :
    matmul dot_S4096x64_S64x128_S4096x128_1_0_0_1_n_n none A B (constant S4096x128 .f32 0x00000000#32) (ix2 a b)
      = ∑ c : Fin 64, A (ix2 a c) * B (ix2 c b) := by
  have e : dot_S4096x64_S64x128_S4096x128_1_0_0_1_n_n = DotDims.plain 4096 64 128 := rfl
  rw [e, matmul_zero_eq_dotGeneral]
  exact StackMember.dotGeneral_plain_apply none A B a b

/-- The same, 28 contracted. -/
theorem mm28_apply (A : FVec Ideal S4096x28 .f32) (B : FVec Ideal S28x128 .f32) (a : Fin 4096) (b : Fin 128) :
    matmul dot_S4096x28_S28x128_S4096x128_1_0_0_1_n_n none A B (constant S4096x128 .f32 0x00000000#32) (ix2 a b)
      = ∑ c : Fin 28, A (ix2 a c) * B (ix2 c b) := by
  have e : dot_S4096x28_S28x128_S4096x128_1_0_0_1_n_n = DotDims.plain 4096 28 128 := rfl
  rw [e, matmul_zero_eq_dotGeneral]
  exact StackMember.dotGeneral_plain_apply none A B a b

/-- The flat row of image position `(h, w)`. -/
def rowOf (h w : Fin 64) : Fin 4096 := ⟨64 * h.val + w.val, by have := h.isLt; have := w.isLt; omega⟩

/-- The first matmul at an index: the raw features times the feature weights. -/
theorem pay27_apply (x0 : Vec Ideal S1x64x64x64 .f32) (x1 : Vec Ideal S64x128 .f32) (h w : Fin 64) (co : Fin 128) :
    k0_pay27 (F := Ideal) (k0_pay2 x0) x1 (ix2 (rowOf h w) co) = ∑ c : Fin 64, x0 (ix4 (0 : Fin 1) h w c) * x1 (ix2 c co) := by
  unfold k0_pay27 k0_pay2
  simp only [shapeCast_self]
  rw [mm64_apply]
  refine Finset.sum_congr rfl fun c _ => congrArg (· * x1 (ix2 c co)) ?_
  refine shapeCast_apply x0 shapeCasts_S1x64x64x64_S4096x64 (ix2 (rowOf h w) c) (ix4 (0 : Fin 1) h w c) ?_
  rw [Shape.rowMajor_val_two, Shape.rowMajor_val_four]
  show (((0 : Fin 1).val * 64 + h.val) * 64 + w.val) * 64 + c.val = (64 * h.val + w.val) * 64 + c.val
  simp; ring

/-- The second matmul at an index: the 28 correlation maps times the correlation weights. -/
theorem corrOf_apply (v9 : FVec Ideal S1x64x64x64 .f32) (s0 s1 s2 s3 s4 s5 s6 : Vec Ideal S1x64x75x64 .f32) (x2 : Vec Ideal S28x128 .f32)
    (h w : Fin 64) (co : Fin 128) :
    corrOf v9 s0 s1 s2 s3 s4 s5 s6 x2 (ix2 (rowOf h w) co)
      = ∑ s : Fin 28, corrVec v9 s0 s1 s2 s3 s4 s5 s6 s (ix4 (0 : Fin 1) h w (0 : Fin 1)) * x2 (ix2 s co) := by
  rw [corrOf_eq_ofFn, mm28_apply]
  refine Finset.sum_congr rfl fun s _ => ?_
  rw [shapeCast_self]
  refine congrArg (· * x2 (ix2 s co)) ?_
  refine (shapeCast_apply _ shapeCasts_S1x64x64x28_S4096x28 (ix2 (rowOf h w) s) (ix4 (0 : Fin 1) h w s) ?_).trans (concat_apply v9 s0 s1 s2 s3 s4 s5 s6 _ (0 : Fin 1) h w s)
  rw [Shape.rowMajor_val_two, Shape.rowMajor_val_four]
  show (((0 : Fin 1).val * 64 + h.val) * 64 + w.val) * 28 + s.val = (64 * h.val + w.val) * 28 + s.val
  simp; ring

/-! ## The stored value and the output block, at an index -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The output block is the stored value, and the four loads read the whole input blocks. -/
theorem out0_4_eq (x0 : Vec Ideal S1x64x64x64 .f32) (x1 : Vec Ideal S64x128 .f32) (x2 : Vec Ideal S28x128 .f32) (x3 : Vec Ideal S1x128 .f32) :
    out0_4 x0 x1 x2 x3 = payOut x0 x1 x2 x3 := by
  unfold out0_4
  rw [View.canon_unit_zero hz4]
  simp only [View.ld_unit_zero (S := S1x64x64x64) hz4, View.ld_unit_zero (S := S64x128) hz2, View.ld_unit_zero (S := S28x128) hz2,
    View.ld_unit_zero (S := S1x128) hz2]

/-- The sum of the two matmuls plus the bias row, at an index. -/
theorem pay1_apply (A B : FVec Ideal S4096x128 .f32) (x3 : Vec Ideal S1x128 .f32) (h w : Fin 64) (co : Fin 128) :
    k0_pay1 (F := Ideal) A B x3 (ix4 (0 : Fin 1) h w co)
      = (A (ix2 (rowOf h w) co) + B (ix2 (rowOf h w) co)) + x3 (ix2 (0 : Fin 1) co) := by
  unfold k0_pay1
  simp only [shapeCast_self]
  refine (shapeCast_apply _ shapeCasts_S4096x128_S1x64x64x128 (ix4 (0 : Fin 1) h w co) (ix2 (rowOf h w) co) ?_).trans ?_
  · rw [Shape.rowMajor_val_two, Shape.rowMajor_val_four]
    show (64 * h.val + w.val) * 128 + co.val = (((0 : Fin 1).val * 64 + h.val) * 64 + w.val) * 128 + co.val
    simp; ring
  rw [addf_apply, addf_apply]
  refine congrArg ((A (ix2 (rowOf h w) co) + B (ix2 (rowOf h w) co)) + ·) ?_
  refine broadcastTo_apply x3 broadcasts_S1x128_S4096x128 (ix2 (rowOf h w) co) (ix2 (0 : Fin 1) co) ?_
  intro a
  match a with
  | ⟨0, _⟩ => rfl
  | ⟨1, _⟩ => rfl

/-- The row offset of window `s` of the printed order, and its column offset into the 75 columns of the padded buffer. -/
def tR (s : Fin 28) : ℕ := ![0, 1, 2, 3, 4, 5, 6, 0, 1, 2, 3, 4, 5, 6, 0, 1, 2, 3, 4, 5, 6, 3, 3, 3, 3, 3, 3, 3] s
def tC (s : Fin 28) : ℕ := ![5, 6, 7, 8, 9, 10, 11, 8, 8, 8, 8, 8, 8, 8, 11, 10, 9, 8, 7, 6, 5, 5, 6, 7, 8, 9, 10, 11] s

/-- Each of the 28 printed correlation maps at an index. -/
theorem corrVec_apply (x0 : Vec Ideal S1x64x64x64 .f32) (h w : Fin 64) (s : Fin 28) :
    corrVec (k0_pay3 x0)
        (slabOf (k0_pay3 x0) 0 inb_S1x70x75x64_S1x64x75x64_0_0_0_0) (slabOf (k0_pay3 x0) 1 inb_S1x70x75x64_S1x64x75x64_0_1_0_0)
        (slabOf (k0_pay3 x0) 2 inb_S1x70x75x64_S1x64x75x64_0_2_0_0) (slabOf (k0_pay3 x0) 3 inb_S1x70x75x64_S1x64x75x64_0_3_0_0)
        (slabOf (k0_pay3 x0) 4 inb_S1x70x75x64_S1x64x75x64_0_4_0_0) (slabOf (k0_pay3 x0) 5 inb_S1x70x75x64_S1x64x75x64_0_5_0_0)
        (slabOf (k0_pay3 x0) 6 inb_S1x70x75x64_S1x64x75x64_0_6_0_0) s (ix4 (0 : Fin 1) h w (0 : Fin 1))
      = corrTerm x0 (tR s) (tC s) h w := by
  fin_cases s <;> exact corr_entry _ _ (by decide) (by decide) (by decide) _ _ x0 h w

/-- THE OUTPUT BLOCK AT AN INDEX: the raw features times the feature weights, plus the 28 correlation maps times the
    correlation weights, plus the bias. -/
theorem out0_4_apply (x0 : Vec Ideal S1x64x64x64 .f32) (x1 : Vec Ideal S64x128 .f32) (x2 : Vec Ideal S28x128 .f32) (x3 : Vec Ideal S1x128 .f32)
    (h w : Fin 64) (co : Fin 128) :
    out0_4 x0 x1 x2 x3 (ix4 (0 : Fin 1) h w co)
      = ((∑ c : Fin 64, x0 (ix4 (0 : Fin 1) h w c) * x1 (ix2 c co)) + (∑ s : Fin 28, corrTerm x0 (tR s) (tC s) h w * x2 (ix2 s co)))
          + x3 (ix2 (0 : Fin 1) co) := by
  rw [out0_4_eq]
  unfold payOut
  rw [pay1_apply, pay27_apply, corrOf_apply]
  refine congrArg (fun z => ((∑ c : Fin 64, x0 (ix4 (0 : Fin 1) h w c) * x1 (ix2 c co)) + z) + x3 (ix2 (0 : Fin 1) co)) ?_
  exact Finset.sum_congr rfl fun s _ => congrArg (· * x2 (ix2 s co)) (corrVec_apply x0 h w s)

end Cert.ReferenceIdeal.Hand

end
-- ==== Proof.RefResult.lean ====
/-
  The reference program's result, named and read at an index in the vocabulary of the specification.

  The four input blocks at a grid point read the argument arrays through the host lines before the region (the
  features moved to channels-last, the two column ranges of the weight matrix transposed, the bias as one row); with
  them the output block is the specification's formula at the point's image (`block_Rform`). Each point writes back its
  own image's block, the blocks cover the output array, and the line after the region moves it back to channels-first:
  `RefRes` is the result buffer's contents, `RefRes_apply` reads it at an index, `run_result` is the run.
-/
import proofs.«147926_g2000405799366230_pallasbulk_257_2_alg».proof.Proof.RefValue
import proofs.«147926_g2000405799366230_pallasbulk_257_2_alg».proof.Proof.SpecAlgebra
import proofs.«147926_g2000405799366230_pallasbulk_257_2_alg».proof.Proof.SpecArrays
import Idealize.ShloMosaic.Lib.Tactic

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open Cert.SpecArrays
open scoped BigOperators

variable (m : (ℓ : Loc nD τ sig) → Buf (Elt Ideal) ℓ) (ρ : Dev nD → PrngReg)

/-! ## The arrays the region finds, from the argument arrays -/

/-- The features as the region finds them: the argument moved to channels-last. -/
theorem V_main_v0 (c : Dev nD) :
    (V m c main_v0 : S32x64x64x64.Idx → EReal)
      = transpose S32x64x64x64 [0, 2, 3, 1] (m ((c : Thread nD τ).loc main_arg0)) transposes_S32x64x64x64_S32x64x64x64_0_2_3_1 := by
  show StableHlo.after hostOps0 (fun b => m (c, b)) (Proc.devRef .tc main_v0) = _
  after_results

/-- The feature weights: the first 64 columns of the weight matrix, transposed. -/
theorem V_main_v2 (c : Dev nD) :
    (V m c main_v2 : S64x128.Idx → EReal)
      = transpose S64x128 [1, 0] (extractStridedSlice S128x64 ![0, 0] (m ((c : Thread nD τ).loc main_arg1)) slices_S128x92_S128x64_0_0) transposes_S128x64_S64x128_1_0 := by
  show StableHlo.after hostOps0 (fun b => m (c, b)) (Proc.devRef .tc main_v2) = _
  after_results

/-- The correlation weights: the last 28 columns of the weight matrix, transposed. -/
theorem V_main_v4 (c : Dev nD) :
    (V m c main_v4 : S28x128.Idx → EReal)
      = transpose S28x128 [1, 0] (extractStridedSlice S128x28 ![0, 64] (m ((c : Thread nD τ).loc main_arg1)) slices_S128x92_S128x28_0_64) transposes_S128x28_S28x128_1_0 := by
  show StableHlo.after hostOps0 (fun b => m (c, b)) (Proc.devRef .tc main_v4) = _
  after_results

/-- The bias as one row. -/
theorem V_main_v5 (c : Dev nD) :
    (V m c main_v5 : S1x128.Idx → EReal) = shapeCast S1x128 (m ((c : Thread nD τ).loc main_arg2)) shapeCasts_S128_S1x128 := by
  show StableHlo.after hostOps0 (fun b => m (c, b)) (Proc.devRef .tc main_v5) = _
  after_results
  rfl

/-- The printed index maps, decided over the grid: the feature and output windows move with the point on the leading
    axis; the weights and the bias are whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- The grid point as an image number. -/
def imgOf (t : Fin cfg0.N) : Fin 32 := ⟨t.val, lt_of_lt_of_eq t.isLt (show cfg0.N = 32 from N_0)⟩

/-! ## The input blocks at an index -/

/-- The feature block at point `t`: image `t` of the argument, channels last. -/
theorem iblk0_apply (c : Dev nD) (t : Fin cfg0.N) (h w ch : Fin 64) :
    (iblk m c 0 t : Vec Ideal S1x64x64x64 .f32) (ix4 (0 : Fin 1) h w ch)
      = (m ((c : Thread nD τ).loc main_arg0) : S32x64x64x64.Idx → EReal) (ix4 (imgOf t) ch h w) := by
  obtain ⟨e0, e1, e2, e3, -⟩ := idx_facts t
  unfold iblk
  rw [View.read_apply]
  show V m c main_v0 _ = _
  rw [V_main_v0]
  refine transpose_apply _ _ _ _ (ix4 (imgOf t) ch h w) ?_
  intro b
  match b with
  | ⟨0, _⟩ => show t.val = win0_0.index t (0 : Fin 4) * 1 + 1 * (0 : Fin 1).val; rw [e0]; simp
  | ⟨1, _⟩ => show h.val = win0_0.index t (1 : Fin 4) * 64 + 1 * h.val; rw [e1]; omega
  | ⟨2, _⟩ => show w.val = win0_0.index t (2 : Fin 4) * 64 + 1 * w.val; rw [e2]; omega
  | ⟨3, _⟩ => show ch.val = win0_0.index t (3 : Fin 4) * 64 + 1 * ch.val; rw [e3]; omega

/-- The feature-weights block: the weight matrix's first 64 columns, transposed. -/
theorem iblk1_apply (c : Dev nD) (t : Fin cfg0.N) (ch : Fin 64) (co : Fin 128) :
    (iblk m c 1 t : Vec Ideal S64x128 .f32) (ix2 ch co)
      = (m ((c : Thread nD τ).loc main_arg1) : S128x92.Idx → EReal) (ix2 co (⟨ch.val, by have := ch.isLt; omega⟩ : Fin 92)) := by
  obtain ⟨-, -, -, -, e0, e1, -⟩ := idx_facts t
  unfold iblk
  rw [View.read_apply]
  show V m c main_v2 _ = _
  rw [V_main_v2]
  refine (transpose_apply _ _ _ _ (ix2 co ch) ?_).trans ?_
  · intro b
    match b with
    | ⟨0, _⟩ => show ch.val = win0_1.index t (0 : Fin 2) * 64 + 1 * ch.val; rw [e0]; omega
    | ⟨1, _⟩ => show co.val = win0_1.index t (1 : Fin 2) * 128 + 1 * co.val; rw [e1]; omega
  refine extractStridedSlice_apply _ _ _ (ix2 co ch) _ ?_
  intro a
  match a with
  | ⟨0, _⟩ => show co.val = 0 + co.val; omega
  | ⟨1, _⟩ => show ch.val = 0 + ch.val; omega

/-- The correlation-weights block: the weight matrix's last 28 columns, transposed. -/
theorem iblk2_apply (c : Dev nD) (t : Fin cfg0.N) (s : Fin 28) (co : Fin 128) :
    (iblk m c 2 t : Vec Ideal S28x128 .f32) (ix2 s co)
      = (m ((c : Thread nD τ).loc main_arg1) : S128x92.Idx → EReal) (ix2 co (⟨64 + s.val, by have := s.isLt; omega⟩ : Fin 92)) := by
  obtain ⟨-, -, -, -, -, -, e0, e1, -⟩ := idx_facts t
  unfold iblk
  rw [View.read_apply]
  show V m c main_v4 _ = _
  rw [V_main_v4]
  refine (transpose_apply _ _ _ _ (ix2 co s) ?_).trans ?_
  · intro b
    match b with
    | ⟨0, _⟩ => show s.val = win0_2.index t (0 : Fin 2) * 28 + 1 * s.val; rw [e0]; omega
    | ⟨1, _⟩ => show co.val = win0_2.index t (1 : Fin 2) * 128 + 1 * co.val; rw [e1]; omega
  refine extractStridedSlice_apply _ _ _ (ix2 co s) _ ?_
  intro a
  match a with
  | ⟨0, _⟩ => show co.val = 0 + co.val; omega
  | ⟨1, _⟩ => show 64 + s.val = 64 + s.val; rfl

/-- The bias block: the bias as one row. -/
theorem iblk3_apply (c : Dev nD) (t : Fin cfg0.N) (co : Fin 128) :
    (iblk m c 3 t : Vec Ideal S1x128 .f32) (ix2 (0 : Fin 1) co)
      = (m ((c : Thread nD τ).loc main_arg2) : S128.Idx → EReal) (ix1 co) := by
  obtain ⟨-, -, -, -, -, -, -, -, e0, e1, -⟩ := idx_facts t
  unfold iblk
  rw [View.read_apply]
  show V m c main_v5 _ = _
  rw [V_main_v5]
  refine shapeCast_apply _ _ _ (ix1 co) ?_
  rw [Shape.rowMajor_val_two, Shape.rowMajor_val_one]
  show co.val = (win0_3.index t (0 : Fin 2) * 1 + 1 * (0 : Fin 1).val) * 128 + (win0_3.index t (1 : Fin 2) * 128 + 1 * co.val)
  rw [e0, e1]; simp

/-! ## The output block in the vocabulary of the specification -/

theorem Xof_apply (A0 : FVec Ideal (⟨4, ![32, 64, 64, 64]⟩ : Shape) .f32) (b : Fin 32) (c h w : Fin 64) :
    Xof A0 b c.val (64 * h.val + w.val) = A0 (ix4 b c h w) := by
  have hh := h.isLt; have hw := w.isLt
  unfold Xof
  rw [dif_pos ⟨c.isLt, by omega⟩]
  congr 1
  funext a
  match a with
  | ⟨0, _⟩ => rfl
  | ⟨1, _⟩ => rfl
  | ⟨2, _⟩ => exact Fin.ext (by show (64 * h.val + w.val) / 64 = h.val; omega)
  | ⟨3, _⟩ => exact Fin.ext (by show (64 * h.val + w.val) % 64 = w.val; omega)

theorem WTof_apply (A1 : FVec Ideal (⟨2, ![128, 92]⟩ : Shape) .f32) (co : Fin 128) (j : ℕ) (hj : j < 92) :
    WTof A1 co.val j = A1 (ix2 co ⟨j, hj⟩) := by
  unfold WTof; rw [dif_pos ⟨co.isLt, hj⟩]

theorem Bof_apply (A2 : FVec Ideal (⟨1, ![128]⟩ : Shape) .f32) (co : Fin 128) : Bof A2 co.val = A2 (ix1 co) := by
  unfold Bof; rw [dif_pos co.isLt]

theorem tR_eq (s : Fin 28) : tR s = Cert.Spec.shiftR s.val := by fin_cases s <;> rfl
theorem tC_eq (s : Fin 28) : tC s = 5 + Cert.Spec.shiftC s.val := by fin_cases s <;> rfl

section Bridge
variable (A0 : FVec Ideal (⟨4, ![32, 64, 64, 64]⟩ : Shape) .f32) (b : Fin 32) (x0 : Vec Ideal S1x64x64x64 .f32)
  (hx0 : ∀ h w ch : Fin 64, x0 (ix4 (0 : Fin 1) h w ch) = A0 (ix4 b ch h w))
include hx0

/-- The normalized block is the specification's normalized features of the image. -/
theorem xnAt_bridge (h w cc : Fin 64) : xnAt x0 h w cc = XNof (Xof A0 b) cc.val (64 * h.val + w.val) := by
  have hh := h.isLt; have hw := w.isLt
  unfold xnAt XNof
  rw [if_pos ⟨cc.isLt, by omega⟩, Xof_apply, hx0]
  unfold ssq eps
  refine congrArg (fun z => A0 (ix4 b cc h w) * Ideal.rsqrt (max z (Ideal.ofBits .f32 0x179ABE15#32))) ?_
  refine Finset.sum_congr rfl fun c' _ => ?_
  rw [Xof_apply, hx0]

/-- The padded block is the specification's padded scratch. -/
theorem padAt_bridge (i j : ℕ) (cc : Fin 64) : padAt (xnAt x0) i j cc = Cert.Spec.P (XNof (Xof A0 b)) i j cc.val := by
  unfold padAt Cert.Spec.P
  by_cases hI : 3 ≤ i ∧ i < 67 ∧ 8 ≤ j ∧ j < 72
  · rw [dif_pos hI, if_pos hI]
    exact xnAt_bridge A0 b x0 hx0 _ _ cc
  · rw [dif_neg hI, if_neg hI]

/-- Each correlation map is the specification's. -/
theorem corrTerm_bridge (s : Fin 28) (h w : Fin 64) :
    corrTerm x0 (tR s) (tC s) h w = Cert.Spec.corr (XNof (Xof A0 b)) (Cert.Spec.shiftR s.val) (Cert.Spec.shiftC s.val) h.val w.val := by
  unfold corrTerm Cert.Spec.corr
  rw [tR_eq, tC_eq]
  refine Finset.sum_congr rfl fun cc _ => ?_
  rw [padAt_bridge A0 b x0 hx0, xnAt_bridge A0 b x0 hx0, Nat.add_comm (Cert.Spec.shiftR s.val) h.val]

end Bridge

/-- THE OUTPUT BLOCK IN THE SPECIFICATION'S FORM, from input blocks that read the argument arrays as the host lines
    before the region lay them out. -/
theorem out0_4_spec (A0 : FVec Ideal (⟨4, ![32, 64, 64, 64]⟩ : Shape) .f32) (A1 : FVec Ideal (⟨2, ![128, 92]⟩ : Shape) .f32)
    (A2 : FVec Ideal (⟨1, ![128]⟩ : Shape) .f32) (b : Fin 32)
    (x0 : Vec Ideal S1x64x64x64 .f32) (x1 : Vec Ideal S64x128 .f32) (x2 : Vec Ideal S28x128 .f32) (x3 : Vec Ideal S1x128 .f32)
    (hx0 : ∀ h w ch : Fin 64, x0 (ix4 (0 : Fin 1) h w ch) = A0 (ix4 b ch h w))
    (hx1 : ∀ (ch : Fin 64) (co : Fin 128), x1 (ix2 ch co) = A1 (ix2 co (⟨ch.val, by have := ch.isLt; omega⟩ : Fin 92)))
    (hx2 : ∀ (s : Fin 28) (co : Fin 128), x2 (ix2 s co) = A1 (ix2 co (⟨64 + s.val, by have := s.isLt; omega⟩ : Fin 92)))
    (hx3 : ∀ co : Fin 128, x3 (ix2 (0 : Fin 1) co) = A2 (ix1 co))
    (h w : Fin 64) (co : Fin 128) :
    out0_4 x0 x1 x2 x3 (ix4 (0 : Fin 1) h w co)
      = Cert.Spec.Rform (R := EReal) (Xof A0 b) (XNof (Xof A0 b)) (WTof A1) (Bof A2) co.val h.val w.val := by
  rw [out0_4_apply]
  unfold Cert.Spec.Rform
  rw [hx3, ← Bof_apply A2 co]
  refine congrArg (· + Bof A2 co.val) ?_
  refine congrArg₂ (· + ·) ?_ ?_
  · refine Finset.sum_congr rfl fun c _ => ?_
    rw [hx0, hx1, Xof_apply, WTof_apply]
  · refine Finset.sum_congr rfl fun s _ => ?_
    rw [corrTerm_bridge A0 b x0 hx0, hx2, WTof_apply]

/-! ## The output block at the pipeline's input blocks -/

/-- The argument arrays on core `c`. -/
abbrev arg0 (c : Dev nD) : FVec Ideal (⟨4, ![32, 64, 64, 64]⟩ : Shape) .f32 := m ((c.tc : Thread nD τ).loc main_arg0)
abbrev arg1 (c : Dev nD) : FVec Ideal (⟨2, ![128, 92]⟩ : Shape) .f32 := m ((c.tc : Thread nD τ).loc main_arg1)
abbrev arg2 (c : Dev nD) : FVec Ideal (⟨1, ![128]⟩ : Shape) .f32 := m ((c.tc : Thread nD τ).loc main_arg2)

/-- The grid point of image `b`. -/
def ptOf (b : Fin 32) : Fin cfg0.N := ⟨b.val, lt_of_lt_of_eq b.isLt (show 32 = cfg0.N from N_0.symm)⟩

theorem imgOf_ptOf (b : Fin 32) : imgOf (ptOf b) = b := rfl

/-- THE OUTPUT BLOCK AT POINT `t`, from the pipeline's input blocks there, in the specification's form at image `t`. -/
theorem block_Rform (c : Dev nD) (t : Fin cfg0.N) (h w : Fin 64) (co : Fin 128) :
    out0_4 (iblk m c 0 t) (iblk m c 1 t) (iblk m c 2 t) (iblk m c 3 t) (ix4 (0 : Fin 1) h w co)
      = Cert.Spec.Rform (R := EReal) (Xof (arg0 m c) (imgOf t)) (XNof (Xof (arg0 m c) (imgOf t))) (WTof (arg1 m c)) (Bof (arg2 m c))
          co.val h.val w.val :=
  out0_4_spec (arg0 m c) (arg1 m c) (arg2 m c) (imgOf t) _ _ _ _ (iblk0_apply m c t) (iblk1_apply m c t) (iblk2_apply m c t)
    (iblk3_apply m c t) h w co

/-! ## From blocks to the array -/

/-- The region's output array (image, row, column, output channel) as the specification of the argument arrays. -/
def outSpec (c : Dev nD) : S32x64x64x128.Idx → EReal := fun i =>
  Cert.Spec.Rform (R := EReal) (Xof (arg0 m c) (⟨(i 0).val, (i 0).isLt⟩ : Fin 32)) (XNof (Xof (arg0 m c) (⟨(i 0).val, (i 0).isLt⟩ : Fin 32)))
    (WTof (arg1 m c)) (Bof (arg2 m c)) (i 3).val (i 1).val (i 2).val

/-- The output block at any index of the block, in the specification's form. -/
theorem out0_4_spec_idx (A0 : FVec Ideal (⟨4, ![32, 64, 64, 64]⟩ : Shape) .f32) (A1 : FVec Ideal (⟨2, ![128, 92]⟩ : Shape) .f32)
    (A2 : FVec Ideal (⟨1, ![128]⟩ : Shape) .f32) (b : Fin 32)
    (x0 : Vec Ideal S1x64x64x64 .f32) (x1 : Vec Ideal S64x128 .f32) (x2 : Vec Ideal S28x128 .f32) (x3 : Vec Ideal S1x128 .f32)
    (hx0 : ∀ h w ch : Fin 64, x0 (ix4 (0 : Fin 1) h w ch) = A0 (ix4 b ch h w))
    (hx1 : ∀ (ch : Fin 64) (co : Fin 128), x1 (ix2 ch co) = A1 (ix2 co (⟨ch.val, by have := ch.isLt; omega⟩ : Fin 92)))
    (hx2 : ∀ (s : Fin 28) (co : Fin 128), x2 (ix2 s co) = A1 (ix2 co (⟨64 + s.val, by have := s.isLt; omega⟩ : Fin 92)))
    (hx3 : ∀ co : Fin 128, x3 (ix2 (0 : Fin 1) co) = A2 (ix1 co))
    (y : S1x64x64x128.Idx) :
    out0_4 x0 x1 x2 x3 y
      = Cert.Spec.Rform (R := EReal) (Xof A0 b) (XNof (Xof A0 b)) (WTof A1) (Bof A2) (y 3).val (y 1).val (y 2).val := by
  obtain ⟨y0, h, w, co, rfl⟩ : ∃ (y0 : Fin 1) (h w : Fin 64) (co : Fin 128), y = ix4 y0 h w co := ⟨y 0, y 1, y 2, y 3, eq_ix4 y⟩
  obtain rfl : y0 = 0 := Subsingleton.elim _ _
  exact out0_4_spec A0 A1 A2 b x0 x1 x2 x3 hx0 hx1 hx2 hx3 h w co

/-- WHAT POINT `t` WRITES BACK is block `t` of `outSpec`. -/
theorem flushed4_eq (c : Dev nD) (t : Fin cfg0.N) :
    (dats m 0 c).flushed 4 t = ((cfg0.win 4).blk t).view.read (Elt Ideal) (outSpec m c) := by
  show (cfg0.win 4).cut (grid0.coords t) ((dats m 0 c).after 4 t) = _
  rw [after0_4]
  obtain ⟨-, -, -, -, -, -, -, -, -, -, e0, e1, e2, e3⟩ := idx_facts t
  funext y
  rw [View.read_apply]
  refine (out0_4_spec_idx (arg0 m c) (arg1 m c) (arg2 m c) (imgOf t) _ _ _ _ (iblk0_apply m c t) (iblk1_apply m c t) (iblk2_apply m c t)
    (iblk3_apply m c t) y).trans ?_
  have hy0 : (y 0).val < 1 := (y 0).isLt
  have f0 : ((((cfg0.win 4).blk t).view.emb y) 0).val = win0_4.index t (0 : Fin 4) * 1 + 1 * (y 0).val := rfl
  have f1 : ((((cfg0.win 4).blk t).view.emb y) 1).val = win0_4.index t (1 : Fin 4) * 64 + 1 * (y 1).val := rfl
  have f2 : ((((cfg0.win 4).blk t).view.emb y) 2).val = win0_4.index t (2 : Fin 4) * 64 + 1 * (y 2).val := rfl
  have f3 : ((((cfg0.win 4).blk t).view.emb y) 3).val = win0_4.index t (3 : Fin 4) * 128 + 1 * (y 3).val := rfl
  have g0 : (⟨((((cfg0.win 4).blk t).view.emb y) 0).val, ((((cfg0.win 4).blk t).view.emb y) 0).isLt⟩ : Fin 32) = imgOf t :=
    Fin.ext (by show ((((cfg0.win 4).blk t).view.emb y) 0).val = t.val; rw [f0, e0]; omega)
  have g1 : ((((cfg0.win 4).blk t).view.emb y) 1).val = (y 1).val := by rw [f1, e1]; omega
  have g2 : ((((cfg0.win 4).blk t).view.emb y) 2).val = (y 2).val := by rw [f2, e2]; omega
  have g3 : ((((cfg0.win 4).blk t).view.emb y) 3).val = (y 3).val := by rw [f3, e3]; omega
  unfold outSpec
  dsimp only
  rw [g0, g1, g2, g3]
  rfl

/-- An index of the output array is in point `t`'s block iff each coordinate is in the block's range on its axis. -/
theorem mem_blk4 (t : Fin cfg0.N) (i : S32x64x64x128.Idx) :
    i ∈ ((cfg0.win 4).blk t).view.set ↔ ∀ a : Fin 4, win0_4.index t a * S1x64x64x128.size a ≤ (i a).val ∧ (i a).val < win0_4.index t a * S1x64x64x128.size a + S1x64x64x128.size a := by
  show i ∈ ((View.whole main_v6).slice (win0_4.rect t)).set ↔ _
  rw [View.set_slice_whole, Rect.mem_set_unit]
  exact Iff.rfl

/-- Every index of the output array is in the block of the point of its image. -/
theorem cover4 (i : S32x64x64x128.Idx) : ∃ t : Fin cfg0.N, (cfg0.win 4).flush t = true ∧ i ∈ ((cfg0.win 4).blk t).view.set := by
  have hN : cfg0.N = 32 := N_0
  have hi0 : (i 0).val < 32 := (i 0).isLt
  have hi1 : (i 1).val < 64 := (i 1).isLt
  have hi2 : (i 2).val < 64 := (i 2).isLt
  have hi3 : (i 3).val < 128 := (i 3).isLt
  refine ⟨⟨(i 0).val, by omega⟩, flush0_4 _, ?_⟩
  obtain ⟨-, -, -, -, -, -, -, -, -, -, e0, e1, e2, e3⟩ := idx_facts ⟨(i 0).val, by omega⟩
  rw [mem_blk4]
  intro a
  match a with
  | ⟨0, _⟩ => show win0_4.index _ (0 : Fin 4) * 1 ≤ (i 0).val ∧ (i 0).val < win0_4.index _ (0 : Fin 4) * 1 + 1; rw [e0]; simp
  | ⟨1, _⟩ => show win0_4.index _ (1 : Fin 4) * 64 ≤ (i 1).val ∧ (i 1).val < win0_4.index _ (1 : Fin 4) * 64 + 64; rw [e1]; omega
  | ⟨2, _⟩ => show win0_4.index _ (2 : Fin 4) * 64 ≤ (i 2).val ∧ (i 2).val < win0_4.index _ (2 : Fin 4) * 64 + 64; rw [e2]; omega
  | ⟨3, _⟩ => show win0_4.index _ (3 : Fin 4) * 128 ≤ (i 3).val ∧ (i 3).val < win0_4.index _ (3 : Fin 4) * 128 + 128; rw [e3]; omega

/-- THE OUTPUT ARRAY after the run is `outSpec`. -/
theorem final4 (c : Dev nD) : (dats m 0 c).arrAt 4 cfg0.N = outSpec m c :=
  (dats m 0 c).arrAt_eq_of_cover 4 (outSpec m c) (fun t _ => flushed4_eq m c t) (cover4)

/-! ## The line after the region, and the run -/

/-- The reference's result on core `c`: what the transpose after the region leaves in its result buffer. -/
def RefRes (c : Dev nD) : Buf (Elt Ideal) ((c.tc : Thread nD τ).loc main_v7) :=
  Pipeline.afterTail₀ cfgs (dats m) 0 (V0 m) [hostOps1] c main_v7

/-- It is the output array moved back to channels-first. -/
theorem RefRes_eq (c : Dev nD) :
    (RefRes m c : S32x128x64x64.Idx → EReal)
      = transpose S32x128x64x64 [0, 3, 1, 2] (outSpec m c) transposes_S32x64x64x128_S32x128x64x64_0_3_1_2 := by
  unfold RefRes Pipeline.afterTail₀
  show StableHlo.after hostOps1 _ (Proc.devRef .tc main_v7) = _
  after_results
  refine congrArg (fun X => transpose S32x128x64x64 [0, 3, 1, 2] X transposes_S32x64x64x128_S32x128x64x64_0_3_1_2) ?_
  exact (Pipeline.withArrays_arr spec0 launch0.win.arr_inj c _ _ 4).trans (final4 m c)

/-- THE RESULT AT AN INDEX (image, output channel, row, column): the specification of the argument arrays. -/
theorem RefRes_apply (c : Dev nD) (b : Fin 32) (co : Fin 128) (h w : Fin 64) :
    (RefRes m c : S32x128x64x64.Idx → EReal) (ix4 b co h w)
      = Cert.Spec.Rform (R := EReal) (Xof (arg0 m c) b) (XNof (Xof (arg0 m c) b)) (WTof (arg1 m c)) (Bof (arg2 m c)) co.val h.val w.val := by
  rw [RefRes_eq]
  refine (transpose_apply _ _ _ (ix4 b co h w) (ix4 b h w co) ?_).trans rfl
  intro a
  match a with
  | ⟨0, _⟩ => rfl
  | ⟨1, _⟩ => rfl
  | ⟨2, _⟩ => rfl
  | ⟨3, _⟩ => rfl

/-- THE RUN WITH THE RESULT NAMED: every weakly fair execution of @main on the TensorCores terminates with the result
    buffer at `RefRes` and the three argument arrays as launched. -/
theorem run_result : θ_run defs (onTc (τ := τ) (main (F := Ideal))) ⟨m, fun _ => 0, ρ⟩ (fun r => ∀ c : Dev nD,
      r.2.mem ((c.tc : Thread nD τ).loc main_v7) = RefRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Hand

end
-- ==== Proof.PreFinite.lean ====
/- The precondition read back: every entry of the three inputs is an extended real that is neither
   infinity. The precondition's function compares each entry's absolute value with plus infinity and
   takes the conjunction over all entries. -/
import proofs.«147926_g2000405799366230_pallasbulk_257_2_alg».proof.Pre_finite_inputs
import proofs.«147926_g2000405799366230_pallasbulk_257_2_alg».proof.Proof.Gen.Pre_finite_inputs
import Idealize.ShloMosaic.Lib.ReduceAll
import Idealize.ShloMosaic.Lib.ValueIdx

noncomputable section

namespace Cert.PreFinite

open Idealize.ShloMosaic Cert.Pre_finite_inputs

instance : Subsingleton S_.Idx := ⟨fun a b => funext fun d => d.elim0⟩

/-- The single-precision pattern of plus infinity. -/
theorem ofBits_inf : Ideal.ofBits .f32 0x7F800000#32 = ⊤ := by simp [Ideal.ofBits, Ideal.ieee]

/-- An extended real whose absolute value is below plus infinity is neither infinity. -/
theorem entry_finite (x : EReal)
    (h : FloatOps.cmpf (F := Ideal) (φ := .f32) .olt (FloatOps.hostAbsf (F := Ideal) (φ := .f32) x)
      (FloatOps.ofBits (F := Ideal) .f32 0x7F800000#32) = 1#1) :
    x ≠ ⊤ ∧ x ≠ ⊥ := by
  change BitVec.ofBool (decide (max x (-x) < Ideal.ofBits .f32 0x7F800000#32)) = 1#1 at h
  rw [ofBits_inf] at h
  induction x using EReal.rec with
  | bot => simp at h
  | coe r => exact ⟨EReal.coe_ne_top r, EReal.coe_ne_bot r⟩
  | top => simp at h

/-- Under the precondition every input entry is neither infinity. -/
theorem finite_of_pre (a0 : FVec Ideal S32x64x64x64 .f32) (a1 : FVec Ideal S128x92 .f32)
    (a2 : FVec Ideal S128 .f32)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [Cert.Pre_finite_inputs.fn] at h0
  obtain ⟨h01, h2⟩ := IntOp.andi_eq_one.1 h0
  obtain ⟨h00, h1⟩ := IntOp.andi_eq_one.1 h01
  refine ⟨fun i => entry_finite _ ?_, fun i => entry_finite _ ?_, fun i => entry_finite _ ?_⟩
  · exact Host.reduce_andi_all _ _ _ _ _ h00 i
  · exact Host.reduce_andi_all _ _ _ _ _ h1 i
  · exact Host.reduce_andi_all _ _ _ _ _ h2 i

end Cert.PreFinite

end
-- ==== Proof.lean ====
/-
  The certificate's five claims.

  Both programs compute, for each of 32 images, a 1x1 convolution over the image's 64 feature channels followed by 28
  self-correlation maps of the channel-normalized features (seven shifts along each of the diagonal, the vertical,
  the anti-diagonal and the horizontal), plus a bias. The kernel works on flattened images (position 64 h + w),
  computes the thirteen non-negative lane shifts as eight partial channel sums each, derives the twelve negative ones
  by moving the mirrored tile, and folds the eight-way sum and the bias into one matrix product with widened weights;
  the reference works on zero-padded two-dimensional windows. Over the extended reals, for finite inputs, the two
  results agree entry by entry: regroup the 64 channels as 8 x 8, distribute the repeated weight over the eight
  partial sums, and match each masked or translated lane window with the padded two-dimensional one.

  The three frames are the programs' runs with the results forgotten; the idealization rewrote nothing.
-/
import proofs.«147926_g2000405799366230_pallasbulk_257_2_alg».proof.Defs
import proofs.«147926_g2000405799366230_pallasbulk_257_2_alg».proof.Proof.Gen.Kernel
import proofs.«147926_g2000405799366230_pallasbulk_257_2_alg».proof.Proof.Gen.KernelIdeal
import proofs.«147926_g2000405799366230_pallasbulk_257_2_alg».proof.Proof.Gen.ReferenceIdeal
import proofs.«147926_g2000405799366230_pallasbulk_257_2_alg».proof.Proof.Gen.Pre_finite_inputs
import proofs.«147926_g2000405799366230_pallasbulk_257_2_alg».proof.Proof.KFrame
import proofs.«147926_g2000405799366230_pallasbulk_257_2_alg».proof.Proof.KIFrame
import proofs.«147926_g2000405799366230_pallasbulk_257_2_alg».proof.Proof.KIArrays
import proofs.«147926_g2000405799366230_pallasbulk_257_2_alg».proof.Proof.KIBridge
import proofs.«147926_g2000405799366230_pallasbulk_257_2_alg».proof.Proof.RefResult
import proofs.«147926_g2000405799366230_pallasbulk_257_2_alg».proof.Proof.PreFinite
import proofs.«147926_g2000405799366230_pallasbulk_257_2_alg».proof.Proof.SpecAlgebra
import proofs.«147926_g2000405799366230_pallasbulk_257_2_alg».proof.Proof.NormOps

set_option maxRecDepth 16384

noncomputable section

namespace Cert.Proof

open Idealize.ShloMosaic Idealize.ShloMosaic.ValueIdx Idealize.SL.Sem Cert.SpecArrays

/-- The word-level kernel runs to the end, faults nowhere, and leaves its arguments as launched. -/
theorem frame_k : @Cert.frame_Kernel Cert.Kernel.Gen.facts Cert.Pre_finite_inputs.Gen.facts :=
  fun m ρ _ => Cert.Kernel.Frame.frame m ρ

/-- So does the kernel read over the extended reals. -/
theorem frame_ki : @Cert.frame_KernelIdeal Cert.KernelIdeal.Gen.facts Cert.Pre_finite_inputs.Gen.facts :=
  fun m ρ _ => Cert.KernelIdeal.Frame.frame m ρ

/-- And the reference. -/
theorem frame_ri : @Cert.frame_ReferenceIdeal Cert.ReferenceIdeal.Gen.facts Cert.Pre_finite_inputs.Gen.facts :=
  fun m ρ _ => Cert.ReferenceIdeal.Hand.frame m ρ

/-- The idealized kernel is the kernel's own text: nothing was rewritten. -/
theorem preserves : Cert.preserves_Kernel_KernelIdeal := trivial

/-- For finite inputs the two results agree at every entry: the reference's entry is the two-dimensional form of the
    correlation identity, the kernel's the flattened form, and the two forms are equal over the reals. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    (Cert.ReferenceIdeal.Hand.RefRes m' c : Cert.ReferenceIdeal.S32x128x64x64.Idx → EReal) = Cert.KernelIdeal.Arrays.Res m c := by
  funext i
  obtain ⟨b, co, h, w, rfl⟩ : ∃ (b : Fin 32) (co : Fin 128) (h w : Fin 64), i = ix4 b co h w := ⟨i 0, i 1, i 2, i 3, eq_ix4 i⟩
  obtain ⟨f0, f1, f2⟩ := Cert.PreFinite.finite_of_pre _ _ _ (hpre c)
  rw [Cert.ReferenceIdeal.Hand.RefRes_apply m' c b co h w, Cert.KernelIdeal.Arrays.Res_apply m c b co h w, Cert.KernelIdeal.Pay.outAt_eq,
    Cert.KernelIdeal.Val.PV_Kform _ _ _ (Xof (m ((c.tc : Thread Cert.KernelIdeal.nD Cert.KernelIdeal.τ).loc Cert.KernelIdeal.main_arg0)) b)
      (WTof (m ((c.tc : Thread Cert.KernelIdeal.nD Cert.KernelIdeal.τ).loc Cert.KernelIdeal.main_arg1))) (Bof (m ((c.tc : Thread Cert.KernelIdeal.nD Cert.KernelIdeal.τ).loc Cert.KernelIdeal.main_arg2)))
      (fun cc p => Cert.KernelIdeal.Arrays.iblk0_spec m c (Cert.KernelIdeal.Arrays.ptOf b) b rfl cc p)
      (Cert.KernelIdeal.Arrays.iblk1_spec m c _) (Cert.KernelIdeal.Arrays.iblk2_spec m c _)]
  have e0 : Cert.ReferenceIdeal.Hand.arg0 m' c = m ((c.tc : Thread Cert.KernelIdeal.nD Cert.KernelIdeal.τ).loc Cert.KernelIdeal.main_arg0) := (hagree c).1
  have e1 : Cert.ReferenceIdeal.Hand.arg1 m' c = m ((c.tc : Thread Cert.KernelIdeal.nD Cert.KernelIdeal.τ).loc Cert.KernelIdeal.main_arg1) := (hagree c).2.1
  have e2 : Cert.ReferenceIdeal.Hand.arg2 m' c = m ((c.tc : Thread Cert.KernelIdeal.nD Cert.KernelIdeal.τ).loc Cert.KernelIdeal.main_arg2) := (hagree c).2.2
  rw [e0, e1, e2]
  exact (Cert.Spec.Kform_eq_Rform_of_finite _ _ _ _ (Cert.NormOps.Xof_finite _ b f0)
    (Cert.NormOps.XNof_finite _ (Cert.NormOps.Xof_finite _ b f0)) (Cert.NormOps.WTof_finite _ f1) (Cert.NormOps.Bof_finite _ f2)
    co.val h.isLt w.isLt).symm

/-- From memories that agree on the arguments both idealized programs run to the end with equal results. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Arrays.Res m c, Cert.KernelIdeal.Arrays.run_result m ρ, ?_⟩
  refine (θ_run Cert.ReferenceIdeal.defs _ _).mono (fun r hr c => ⟨(hr c).1.trans ?_, (hr c).2⟩) (Cert.ReferenceIdeal.Hand.run_result m' ρ')
  exact result_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
